-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x8192 : Shape := ⟨2, ![32768, 8192]⟩
abbrev S128x128 : Shape := ⟨2, ![128, 128]⟩
abbrev S128 : Shape := ⟨1, ![128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x8192 : S_.BroadcastsInDim S32768x8192 (![] : Fin 0 → Fin S32768x8192.rank)
  reducesTo_S32768x8192_S_d0_1 : S32768x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S32768x128 .f32) (main_arg1 : FVec F S32768x8192 .f32) (main_arg2 : FVec F S128x128 .f32) (main_arg3 : FVec F S128 .f32) (main_arg4 : FVec F S128 .f32) (main_arg5 : FVec F S128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x8192 .f32 := Host.absf main_arg1
  let main_cst_0 : FVec F S_ .f32 := constant S_ .f32 0x7F800000#32
  let main_v5 : FVec F S32768x8192 .f32 := broadcastInDim S32768x8192 ![] bcast_S_S32768x8192 main_cst_0
  let main_v6 : IVec S32768x8192 1 := cmpf .olt main_v4 main_v5
  let main_c_1 : IVec S_ 1 := constantI S_ 1 1#1
  let main_v7 : IVec S_ 1 := (fun x v => Host.reduce IntOp.andi x v reducesTo_S32768x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S32768x128 : Shape := ⟨2, ![32768, 128]⟩
abbrev S32768x8192 : Shape := ⟨2, ![32768, 8192]⟩
abbrev S128x128 : Shape := ⟨2, ![128, 128]⟩
abbrev S128 : Shape := ⟨1, ![128]⟩
abbrev S1x128 : Shape := ⟨2, ![1, 128]⟩
abbrev S2x8192x128 : Shape := ⟨3, ![2, 8192, 128]⟩
abbrev S2x1x8192 : Shape := ⟨3, ![2, 1, 8192]⟩
abbrev S256x8192 : Shape := ⟨2, ![256, 8192]⟩
abbrev S256x128 : Shape := ⟨2, ![256, 128]⟩
abbrev S1x8192x128 : Shape := ⟨3, ![1, 8192, 128]⟩
abbrev S1x1x8192 : Shape := ⟨3, ![1, 1, 8192]⟩
abbrev S256 : Shape := ⟨1, ![256]⟩
abbrev S256x1 : Shape := ⟨2, ![256, 1]⟩
abbrev S8192 : Shape := ⟨1, ![8192]⟩
abbrev S1x8192 : Shape := ⟨2, ![1, 8192]⟩
abbrev S8192x128 : Shape := ⟨2, ![8192, 128]⟩
abbrev S_ : Shape := ⟨0, ![]⟩
abbrev S8192x1 : Shape := ⟨2, ![8192, 1]⟩

abbrev nBuf : Space → Nat
  | .hbm => 26
  | .vmem => 17
  | .smem => 0
  | _ => 0

abbrev bufTy : (tb : Table) → Fin (tcTables nBuf tb) → BufTy
  | .hbm, ⟨0, _⟩ => ⟨S32768x128, .f32⟩
  | .hbm, ⟨1, _⟩ => ⟨S32768x8192, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S2x8192x128, .f32⟩
  | .hbm, ⟨10, _⟩ => ⟨S2x1x8192, .f32⟩
  | .hbm, ⟨11, _⟩ => ⟨S_, .f32⟩
  | .hbm, ⟨12, _⟩ => ⟨S8192x128, .f32⟩
  | .hbm, ⟨13, _⟩ => ⟨S_, .f32⟩
  | .hbm, ⟨14, _⟩ => ⟨S1x8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x128, .f32⟩
  | .hbm, ⟨24, _⟩ => ⟨S8192x128, .f32⟩
  | .hbm, ⟨25, _⟩ => ⟨S32768x128, .f32⟩
  | .local _ .vmem, ⟨0, _⟩ => ⟨S256x8192, .f32⟩
  | .local _ .vmem, ⟨1, _⟩ => ⟨S256x8192, .f32⟩
  | .local _ .vmem, ⟨2, _⟩ => ⟨S256x128, .f32⟩
  | .local _ .vmem, ⟨3, _⟩ => ⟨S256x128, .f32⟩
  | .local _ .vmem, ⟨4, _⟩ => ⟨S1x8192x128, .f32⟩
  | .local _ .vmem, ⟨5, _⟩ => ⟨S1x8192x128, .f32⟩
  | .local _ .vmem, ⟨6, _⟩ => ⟨S1x1x8192, .f32⟩
  | .local _ .vmem, ⟨7, _⟩ => ⟨S1x1x8192, .f32⟩
  | .local _ .vmem, ⟨8, _⟩ => ⟨S256x8192, .f32⟩
  | .local _ .vmem, ⟨9, _⟩ => ⟨S256x8192, .f32⟩
  | .local _ .vmem, ⟨10, _⟩ => ⟨S8192x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S256x128, .f32⟩
  | .local _ .vmem, ⟨16, _⟩ => ⟨S256x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨2, ![2, 64], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_7 : BitVec 32 := 0#32
  let v18 : BitVec 1 := Scalar.cmpi .ne v17 c0_i32_7
  v18

def k0_cond2 (i : grid0.Coords) : BitVec 1 :=
  let arg1 : BitVec 32 := BitVec.ofNat 32 (i 1).val
  let c0_i32_8 : BitVec 32 := 0#32
  let v19 : BitVec 1 := Scalar.cmpi .sgt arg1 c0_i32_8
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S128_S1x128 : S128.ShapeCasts S1x128
  inb_S256x8192_S256x8192_0_0 : ∀ a, (![0, 0] : Fin 2 → Nat) a + S256x8192.size a ≤ S256x8192.size a
  h_S256x8192 : 0 < S256x8192.numel
  inb_S256x128_S256x128_0_0 : ∀ a, (![0, 0] : Fin 2 → Nat) a + S256x128.size a ≤ S256x128.size a
  h_S256x128 : 0 < S256x128.numel
  reduces_S256x8192_S256 : S256x8192.Reduces [1] S256
  shapeCasts_S256_S256x1 : S256.ShapeCasts S256x1
  broadcasts_S256x1_S256x128 : S256x1.Broadcasts S256x128
  reduces_S256x8192_S8192 : S256x8192.Reduces [0] S8192
  shapeCasts_S8192_S1x8192 : S8192.ShapeCasts S1x8192
  bitsLt_bf16_f32 : FTy.bits .bf16 < FTy.bits .f32
  shapeCasts_S8192x128_S1x8192x128 : S8192x128.ShapeCasts S1x8192x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192_S1x1x8192 : S1x8192.ShapeCasts S1x1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x8192x128_S1x8192x128 : S1x8192x128.ShapeCasts S1x8192x128
  shapeCasts_S1x1x8192_S1x1x8192 : S1x1x8192.ShapeCasts S1x1x8192
  reducesTo_S2x8192x128_S8192x128_d0 : S2x8192x128.ReducesTo [0] S8192x128
  h_S_ : 0 < S_.numel
  reducesTo_S2x1x8192_S1x8192_d0 : S2x1x8192.ReducesTo [0] S1x8192
  shapeCasts_S1x8192_S8192 : S1x8192.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  reduces_S256x128_S256 : S256x128.Reduces [1] S256
  dot_S256x8192_S256x128_S8192x128_0_0_1_1_n_n_wf : DotDims.WF S256x8192 S256x128 S8192x128 [0] [0] [1] [1] [] []
  dot_S256x8192_S8192x128_S256x128_1_0_0_1_n_n_wf : DotDims.WF S256x8192 S8192x128 S256x128 [1] [0] [0] [1] [] []
  dot_S256x128_S128x128_S256x128_1_1_0_0_n_n_wf : DotDims.WF S256x128 S128x128 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S32768x8192.size a
  hwx0_0 : ∀ i : grid0.Coords, EltTy.bits .f32 = 32 ∨ (Rect.block (s := S32768x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S32768x128.size a
  hwx0_1 : ∀ i : grid0.Coords, EltTy.bits .f32 = 32 ∨ (Rect.block (s := S32768x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S2x8192x128.size a
  hwx0_2 : ∀ i : grid0.Coords, EltTy.bits .f32 = 32 ∨ (Rect.block (s := S2x8192x128) S1x8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S2x1x8192.size a
  hwx0_3 : ∀ i : grid0.Coords, EltTy.bits .f32 = 32 ∨ (Rect.block (s := S2x1x8192) S1x1x8192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S32768x8192.size a
  hwx1_0 : ∀ i : grid1.Coords, EltTy.bits .f32 = 32 ∨ (Rect.block (s := S32768x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S32768x128.size a
  hwx1_6 : ∀ i : grid1.Coords, EltTy.bits .f32 = 32 ∨ (Rect.block (s := S32768x128) S256x128.size (cc1_transform_6 i) (hinb1_6 i)).WholeWords (EltTy.packing .f32)

variable [Facts₀]

def dot_S256x8192_S256x128_S8192x128_0_0_1_1_n_n : DotDims S256x8192 S256x128 S8192x128 where
  lhsContracting := [0]
  rhsContracting := [0]
  lhsNonContracting := [1]
  rhsNonContracting := [1]
  lhsBatch := []
  rhsBatch := []
  wf := dot_S256x8192_S256x128_S8192x128_0_0_1_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x128_S256x128_1_1_0_0_n_n : DotDims S256x128 S128x128 S256x128 where
  lhsContracting := [1]
  rhsContracting := [1]
  lhsNonContracting := [0]
  rhsNonContracting := [0]
  lhsBatch := []
  rhsBatch := []
  wf := dot_S256x128_S128x128_S256x128_1_1_0_0_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x8192x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun i => !(k0_cond1 i == 1#1) && !(k0_cond2 i == 1#1) | ⟨_ + 4, h⟩ => absurd h (Nat.not_lt.2 (Nat.le_add_left _ _))

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S256x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32768x128 : Shape := ⟨2, ![32768, 128]⟩
abbrev S32768x8192 : Shape := ⟨2, ![32768, 8192]⟩
abbrev S128x128 : Shape := ⟨2, ![128, 128]⟩
abbrev S128 : Shape := ⟨1, ![128]⟩
abbrev S_ : Shape := ⟨0, ![]⟩
abbrev S32768 : Shape := ⟨1, ![32768]⟩
abbrev S8192 : Shape := ⟨1, ![8192]⟩
abbrev S32768x1 : Shape := ⟨2, ![32768, 1]⟩
abbrev S8192x32768 : Shape := ⟨2, ![8192, 32768]⟩
abbrev S8192x128 : Shape := ⟨2, ![8192, 128]⟩
abbrev S8192x1 : Shape := ⟨2, ![8192, 1]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x8192, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S32768, .f32⟩
  | .hbm, ⟨8, _⟩ => ⟨S_, .f32⟩
  | .hbm, ⟨9, _⟩ => ⟨S8192, .f32⟩
  | .hbm, ⟨10, _⟩ => ⟨S32768, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S_, .f32⟩
  | .hbm, ⟨15, _⟩ => ⟨S32768, .f32⟩
  | .hbm, ⟨16, _⟩ => ⟨S32768, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S32768x1, .f32⟩
  | .hbm, ⟨24, _⟩ => ⟨S32768x128, .f32⟩
  | .hbm, ⟨25, _⟩ => ⟨S32768x128, .f32⟩
  | .hbm, ⟨26, _⟩ => ⟨S8192x32768, .f32⟩
  | .hbm, ⟨27, _⟩ => ⟨S8192x128, .f32⟩
  | .hbm, ⟨28, _⟩ => ⟨S8192x1, .f32⟩
  | .hbm, ⟨29, _⟩ => ⟨S8192x128, .f32⟩
  | .hbm, ⟨30, _⟩ => ⟨S8192x128, .f32⟩
  | .hbm, ⟨31, _⟩ => ⟨S32768x128, .f32⟩
  | .hbm, ⟨32, _⟩ => ⟨S32768x1, .f32⟩
  | .hbm, ⟨33, _⟩ => ⟨S32768x128, .f32⟩
  | .hbm, ⟨34, _⟩ => ⟨S32768x128, .f32⟩
  | .hbm, ⟨35, _⟩ => ⟨S128x128, .f32⟩
  | .hbm, ⟨36, _⟩ => ⟨S32768x128, .f32⟩
  | .hbm, ⟨37, _⟩ => ⟨S1x128, .f32⟩
  | .hbm, ⟨38, _⟩ => ⟨S32768x128, .f32⟩
  | .hbm, ⟨39, _⟩ => ⟨S32768x128, .f32⟩
  | .hbm, ⟨40, _⟩ => ⟨S_, .f32⟩
  | .hbm, ⟨41, _⟩ => ⟨S32768x128, .f32⟩
  | .hbm, ⟨42, _⟩ => ⟨S32768x128, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x128, .f32⟩
  | .hbm, ⟨50, _⟩ => ⟨S32768x128, .f32⟩
  | .hbm, ⟨51, _⟩ => ⟨S32768x128, .f32⟩
  | .hbm, ⟨52, _⟩ => ⟨S_, .f32⟩
  | .hbm, ⟨53, _⟩ => ⟨S32768, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x128, .f32⟩
  | .hbm, ⟨59, _⟩ => ⟨S32768x128, .f32⟩
  | .hbm, ⟨60, _⟩ => ⟨S1x128, .f32⟩
  | .hbm, ⟨61, _⟩ => ⟨S32768x128, .f32⟩
  | .hbm, ⟨62, _⟩ => ⟨S32768x128, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x1, .f32⟩
  | .hbm, ⟨67, _⟩ => ⟨S32768x128, .f32⟩
  | .hbm, ⟨68, _⟩ => ⟨S32768x128, .f32⟩
  | .hbm, ⟨69, _⟩ => ⟨S1x128, .f32⟩
  | .hbm, ⟨70, _⟩ => ⟨S32768x128, .f32⟩
  | .hbm, ⟨71, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  reducesTo_S32768x8192_S32768_d1 : S32768x8192.ReducesTo [1] S32768
  h_S_ : 0 < S_.numel
  reducesTo_S32768x8192_S8192_d0 : S32768x8192.ReducesTo [0] S8192
  bcast_S_S32768 : S_.BroadcastsInDim S32768 (![] : Fin 0 → Fin S32768.rank)
  bcast_S_S8192 : S_.BroadcastsInDim S8192 (![] : Fin 0 → Fin S8192.rank)
  bcast_S32768_S32768x1_0 : S32768.BroadcastsInDim S32768x1 (![0] : Fin 1 → Fin S32768x1.rank)
  bcast_S32768x1_S32768x128_0_1 : S32768x1.BroadcastsInDim S32768x128 (![0, 1] : Fin 2 → Fin S32768x128.rank)
  transposes_S32768x8192_S8192x32768_1_0 : S32768x8192.Transposes [1, 0] S8192x32768
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S128x128_S128x128_1_0 : S128x128.Transposes [1, 0] S128x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  reducesTo_S32768x128_S32768_d1 : S32768x128.ReducesTo [1] S32768
  bcast_S_S32768x1 : S_.BroadcastsInDim S32768x1 (![] : Fin 0 → Fin S32768x1.rank)
  dot_S8192x32768_S32768x128_S8192x128_1_0_0_1_n_n_wf : DotDims.WF S8192x32768 S32768x128 S8192x128 [1] [0] [0] [1] [] []
  dot_S32768x8192_S8192x128_S32768x128_1_0_0_1_n_n_wf : DotDims.WF S32768x8192 S8192x128 S32768x128 [1] [0] [0] [1] [] []
  dot_S32768x128_S128x128_S32768x128_1_0_0_1_n_n_wf : DotDims.WF S32768x128 S128x128 S32768x128 [1] [0] [0] [1] [] []

variable [Facts₀]

def dot_S8192x32768_S32768x128_S8192x128_1_0_0_1_n_n : DotDims S8192x32768 S32768x128 S8192x128 where
  lhsContracting := [1]
  rhsContracting := [0]
  lhsNonContracting := [0]
  rhsNonContracting := [1]
  lhsBatch := []
  rhsBatch := []
  wf := dot_S8192x32768_S32768x128_S8192x128_1_0_0_1_n_n_wf
def dot_S32768x8192_S8192x128_S32768x128_1_0_0_1_n_n : DotDims S32768x8192 S8192x128 S32768x128 where
  lhsContracting := [1]
  rhsContracting := [0]
  lhsNonContracting := [0]
  rhsNonContracting := [1]
  lhsBatch := []
  rhsBatch := []
  wf := dot_S32768x8192_S8192x128_S32768x128_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf

class Facts : Prop extends Facts₀ where

variable [Facts]
-- ==== Proof.KBody0.lean ====
/-
  The first kernel's body at one grid point, as a Hoare triple, in its two cases.

  The body loads the point's block of the incidence matrix (256 rows) and of the node features, and forms the block's
  contribution to the hyperedge features (a matrix product contracted over the block's rows) and to the hyperedge
  degrees (the block's column sums). At the FIRST step of a core's sweep (inner coordinate 0) it stores the two
  contributions into the core's two accumulators; at every LATER step (inner coordinate positive) it adds them to what
  the accumulators hold. Every access is of a whole buffer, so what each buffer holds afterwards is the stored value.
-/
import proofs.«146282_j40922448396916_2_alg».proof.Proof.Gen.Kernel.Launch
import proofs.«146282_j40922448396916_2_alg».proof.Proof.Gen.Kernel.Skeleton
import proofs.«146282_j40922448396916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each the whole of its buffer -/

abbrev rH : Rect S256x8192 := Rect.unit (s := S256x8192) ![0, 0] S256x8192.size inb_S256x8192_S256x8192_0_0
abbrev rX : Rect S256x128 := Rect.unit (s := S256x128) ![0, 0] S256x128.size inb_S256x128_S256x128_0_0
abbrev rM : Rect S1x8192x128 := Rect.unit (s := S1x8192x128) ![0, 0, 0] S1x8192x128.size inb_S1x8192x128_S1x8192x128_0_0_0
abbrev rD : Rect S1x1x8192 := Rect.unit (s := S1x1x8192) ![0, 0, 0] S1x1x8192.size inb_S1x1x8192_S1x1x8192_0_0_0

/-! ## What the body leaves in the two accumulators -/

/-- The feature accumulator after a FIRST step: the block's contribution. -/
def firstM (x0 : Vec F S256x8192 .f32) (x1 : Vec F S256x128 .f32) : Vec F S1x8192x128 .f32 :=
  View.canon [⟨rM, k0_pay3 (View.ld x0 rH) (View.ld x1 rX)⟩]
/-- The degree accumulator after a FIRST step: the block's column sums. -/
def firstD (x0 : Vec F S256x8192 .f32) : Vec F S1x1x8192 .f32 :=
  View.canon [⟨rD, k0_pay4 (View.ld x0 rH)⟩]
/-- The feature accumulator after a LATER step: what it held plus the block's contribution. -/
def laterM (x0 : Vec F S256x8192 .f32) (x1 : Vec F S256x128 .f32) (xm : Vec F S1x8192x128 .f32) : Vec F S1x8192x128 .f32 :=
  View.canon [⟨rM, k0_pay5 (View.ld x0 rH) (View.ld x1 rX) (View.ld xm rM)⟩]
/-- The degree accumulator after a LATER step: what it held plus the block's column sums. -/
def laterD (x0 : Vec F S256x8192 .f32) (xd : Vec F S1x1x8192 .f32) : Vec F S1x1x8192 .f32 :=
  View.canon [⟨rD, k0_pay6 (View.ld x0 rH) (View.ld xd rD)⟩]

/-- One whole-buffer store covers the feature accumulator. -/
theorem coverM (p : Vec F S1x8192x128 .f32) (y : S1x8192x128.Idx) :
    ∃ pc ∈ ([⟨rM, p⟩] : List (View.Piece (Elt F) S1x8192x128 .f32)), y ∈ pc.1.set :=
  View.cover_of_tiled [⟨rM, p⟩] S1x8192x128.size (by rfl) y
/-- One whole-buffer store covers the degree accumulator. -/
theorem coverD (p : Vec F S1x1x8192 .f32) (y : S1x1x8192.Idx) :
    ∃ pc ∈ ([⟨rD, p⟩] : List (View.Piece (Elt F) S1x1x8192 .f32)), y ∈ pc.1.set :=
  View.cover_of_tiled [⟨rD, p⟩] S1x1x8192.size (by rfl) y

/-! ## The two triples -/

set_option maxHeartbeats 1000000 in
/-- A FIRST step (the reset branch taken, the accumulate branch not): from the inputs' buffers at their contents and the
    accumulators' at anything, the body ends with the inputs as they were and the accumulators at the block's
    contributions. -/
theorem run_first (c : Dev nD) (E : Set ℕ) (i : grid0.Coords)
    (arg2 : Memref sig .tc .vmem S256x8192 .f32) (harg2 : arg2.IsWhole) (arg3 : Memref sig .tc .vmem S256x128 .f32) (harg3 : arg3.IsWhole)
    (arg4 : Memref sig .tc .vmem S1x8192x128 .f32) (harg4 : arg4.IsWhole) (arg5 : Memref sig .tc .vmem S1x1x8192 .f32) (harg5 : arg5.IsWhole)
    (h1 : k0_cond1 i = 1#1) (h2 : ¬ k0_cond2 i = 1#1)
    (x0 : Vec F S256x8192 .f32) (x1 : Vec F S256x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (firstM x0 x1) ∗ owns (c : Thread nD τ) arg5 fullShare (firstD x0)) -∗ K ⟨⟩))
      ⊢ wp frame (wpE (defs₀ (F := F)) Variants.none c none) E (cc0__kernel1 i arg2 harg2 arg3 harg3 arg4 harg4 arg5 harg5) K := by
  simp only [cc0__kernel1_eq_skeleton]; unfold cc0__kernel1_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverM _)
  · iexists _; isplitr
    swap; · iexact H3
    ipureintro
    exact View.read_writes_eq_canon _ _ _ (coverD _)

set_option maxHeartbeats 1000000 in
/-- A LATER step (the reset branch not taken, the accumulate branch taken): from the inputs' buffers at their contents
    and the accumulators' at their running contents, the body ends with the inputs as they were and each accumulator
    at its running contents plus the block's contribution. -/
theorem run_later (c : Dev nD) (E : Set ℕ) (i : grid0.Coords)
    (arg2 : Memref sig .tc .vmem S256x8192 .f32) (harg2 : arg2.IsWhole) (arg3 : Memref sig .tc .vmem S256x128 .f32) (harg3 : arg3.IsWhole)
    (arg4 : Memref sig .tc .vmem S1x8192x128 .f32) (harg4 : arg4.IsWhole) (arg5 : Memref sig .tc .vmem S1x1x8192 .f32) (harg5 : arg5.IsWhole)
    (h1 : ¬ k0_cond1 i = 1#1) (h2 : k0_cond2 i = 1#1)
    (x0 : Vec F S256x8192 .f32) (x1 : Vec F S256x128 .f32) (xm : Vec F S1x8192x128 .f32) (xd : Vec F S1x1x8192 .f32) (K : PUnit → sProp 𝕄) :
    iprop(owns (c : Thread nD τ) arg2 fullShare x0 ∗ owns (c : Thread nD τ) arg3 fullShare x1
        ∗ owns (c : Thread nD τ) arg4 fullShare xm ∗ owns (c : Thread nD τ) arg5 fullShare xd
        ∗ (iprop(owns (c : Thread nD τ) arg2 fullShare x0 ∗ owns (c : Thread nD τ) arg3 fullShare x1
            ∗ owns (c : Thread nD τ) arg4 fullShare (laterM x0 x1 xm) ∗ owns (c : Thread nD τ) arg5 fullShare (laterD x0 xd)) -∗ K ⟨⟩))
      ⊢ wp frame (wpE (defs₀ (F := F)) Variants.none c none) E (cc0__kernel1 i arg2 harg2 arg3 harg3 arg4 harg4 arg5 harg5) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverM _)
  · iexists _; isplitr
    swap; · iexact H3
    ipureintro
    exact View.read_writes_eq_canon _ _ _ (coverD _)

end Cert.Kernel.Hand

end
-- ==== Proof.KRegion0.lean ====
/-
  The first kernel's region: what its two accumulators hold after every grid point, and the body's obligation to the
  pipeline at every point.

  The grid is 2 sweeps of 64 steps. Point t is the FIRST step of its sweep when t % 64 = 0 and a LATER step otherwise,
  and exactly one of the body's two branches runs accordingly. The accumulators are written back to their arrays only
  at the last step of a sweep (t % 64 = 63), so at a later step each still holds what the step before left: their
  contents after point t are defined by recursion on t, restarting at each sweep's first step.
-/
import proofs.«146282_j40922448396916_2_alg».proof.Proof.Gen.Kernel.Launch
import proofs.«146282_j40922448396916_2_alg».proof.Proof.Gen.Kernel.Skeleton
import proofs.«146282_j40922448396916_2_alg».proof.Proof.Gen.Kernel.Points
import proofs.«146282_j40922448396916_2_alg».proof.Proof.KBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch runs where -/

/-- At every setting of the grid's coordinates exactly one of the two branches' conditions holds: the inner coordinate is
    zero, or it is positive (it is below 64, so positive as a signed word too). -/
theorem step_cases (i : grid0.Coords) :
    (k0_cond1 i = 1#1 ∧ ¬ k0_cond2 i = 1#1) ∨ (¬ k0_cond1 i = 1#1 ∧ k0_cond2 i = 1#1) := by
  unfold k0_cond1 k0_cond2
  dsimp only
  generalize (i 1) = n
  revert n
  decide +kernel

/-- The reset branch runs exactly at the first step of a sweep. -/
theorem first_iff : ∀ t : Fin cfg0.N, k0_cond1 (grid0.coords t) = 1#1 ↔ t.val % 64 = 0 :=
  (by decide +kernel : ∀ t : Fin grid0.N, k0_cond1 (grid0.coords t) = 1#1 ↔ t.val % 64 = 0)
/-- The accumulate branch runs exactly at the later steps. -/
theorem later_iff : ∀ t : Fin cfg0.N, k0_cond2 (grid0.coords t) = 1#1 ↔ ¬ t.val % 64 = 0 :=
  (by decide +kernel : ∀ t : Fin grid0.N, k0_cond2 (grid0.coords t) = 1#1 ↔ ¬ t.val % 64 = 0)

/-- So neither accumulator's window is ever idle: some branch stores into it at every point. -/
theorem live_acc (i : grid0.Coords) : (!(k0_cond1 i == 1#1) && !(k0_cond2 i == 1#1)) = false := by
  rcases step_cases i with ⟨h, -⟩ | ⟨-, h⟩
  · simp only [h, beq_self_eq_true, Bool.not_true, Bool.false_and]
  · simp only [h, beq_self_eq_true, Bool.not_true, Bool.and_false]

/-- The feature accumulator's window is never idle. -/
theorem live2 (i : grid0.Coords) : cfg0.idle 2 i = false := by
  show (!(k0_cond1 i == 1#1) && !(k0_cond2 i == 1#1)) = false
  exact live_acc i
/-- The degree accumulator's window is never idle. -/
theorem live3 (i : grid0.Coords) : cfg0.idle 3 i = false := by
  show (!(k0_cond1 i == 1#1) && !(k0_cond2 i == 1#1)) = false
  exact live_acc i

section Region
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulators, point by point -/

/-- What the feature accumulator and the degree accumulator hold after the body at position `n`: at a sweep's first step
    the block's contributions, at a later step what position `n - 1` left plus the block's contributions. -/
def accAt (c : Dev nD) : (n : ℕ) → n < cfg0.N → Vec F S1x8192x128 .f32 × Vec F S1x1x8192 .f32
  | 0, hn => (firstM (iblk0 V c 0 ⟨0, hn⟩) (iblk0 V c 1 ⟨0, hn⟩), firstD (iblk0 V c 0 ⟨0, hn⟩))
  | n + 1, hn =>
    if (n + 1) % 64 = 0 then
      (firstM (iblk0 V c 0 ⟨n + 1, hn⟩) (iblk0 V c 1 ⟨n + 1, hn⟩), firstD (iblk0 V c 0 ⟨n + 1, hn⟩))
    else
      (laterM (iblk0 V c 0 ⟨n + 1, hn⟩) (iblk0 V c 1 ⟨n + 1, hn⟩) (accAt c n (Nat.lt_of_succ_lt hn)).1,
       laterD (iblk0 V c 0 ⟨n + 1, hn⟩) (accAt c n (Nat.lt_of_succ_lt hn)).2)

/-- At a sweep's first step: the block's contributions. -/
theorem accAt_first (c : Dev nD) (t : Fin cfg0.N) (h : t.val % 64 = 0) :
    accAt V c t.val t.isLt = (firstM (iblk0 V c 0 t) (iblk0 V c 1 t), firstD (iblk0 V c 0 t)) := by
  obtain ⟨n, hn⟩ := t
  cases n with
  | zero => exact rfl
  | succ n => exact (if_pos h).trans rfl

/-- At a later step: the step before's, plus the block's contributions. -/
theorem accAt_later (c : Dev nD) (t : Fin cfg0.N) (h : ¬ t.val % 64 = 0) :
    accAt V c t.val t.isLt =
      (laterM (iblk0 V c 0 t) (iblk0 V c 1 t) (accAt V c (t.val - 1) (Nat.lt_of_le_of_lt (Nat.sub_le _ _) t.isLt)).1,
       laterD (iblk0 V c 0 t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The pipeline's proof data -/

/-- The region's proof data on core `c`: the arrays as the region finds them; after the body at point `t` each input's
    buffer at its block and each accumulator's at `accAt`; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt V c t.val t.isLt).1
    | ⟨3, _⟩ => (accAt V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt V c t.val t.isLt).1 := by dsimp only [dat0]
theorem after0_3 (c : Dev nD) (t : Fin cfg0.N) : (dat0 V c).after 3 t = (accAt V c t.val t.isLt).2 := by dsimp only [dat0]

/-! ## What the body is handed -/

/-- The incidence block's buffer holds the block at every point (it is fetched at every point, and the body leaves it). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- The feature block's buffer likewise. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- At a later step the feature accumulator's buffer holds what the step before left: the point is not the first, the
    buffer was not written back in between (a write-back happens only after a sweep's last step, and then the next point
    is a first step), and the window is never idle. -/
theorem before0_2_later (c : Dev nD) (t : Fin cfg0.N) (h : ¬ t.val % 64 = 0) (d) :
    (dat0 V c).before 2 t d = (accAt V c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega)
    (Bool.eq_false_iff.mpr fun hf => by have := (flush0_2 _).mp hf; dsimp only at this; omega)
    live2 (fun _ _ => rfl)]
  dsimp only [dat0]
/-- The degree accumulator's likewise. -/
theorem before0_3_later (c : Dev nD) (t : Fin cfg0.N) (h : ¬ t.val % 64 = 0) (d) :
    (dat0 V c).before 3 t d = (accAt V c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega)
    (Bool.eq_false_iff.mpr fun hf => by have := (flush0_3 _).mp hf; dsimp only at this; omega)
    live3 (fun _ _ => rfl)]
  dsimp only [dat0]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' buffers hold their blocks; the point is a first or a later step, and the matching
    triple applies — at a later step the accumulators' buffers holding what the step before left —; the invariant and
    the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h : t.val % 64 = 0
  · rw [accAt_first V c t h]
    iintro ⟨HΦ, Ho, ⟨%d0, H0⟩, ⟨%d1, H1⟩, ⟨%d2, H2⟩, ⟨%d3, H3⟩⟩
    iapply (run_first c Set.univ (grid0.coords t) _ _ _ _ _ _ _ _ ((first_iff t).mpr h) (fun hh => ((later_iff t).mp hh) h)
      (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [accAt_later V c t h]
    simp only [before0_2_later V c t h, before0_3_later V c t h]
    iintro ⟨HΦ, Ho, ⟨%d0, H0⟩, ⟨%d1, H1⟩, ⟨%d2, H2⟩, ⟨%d3, H3⟩⟩
    iapply (run_later c Set.univ (grid0.coords t) _ _ _ _ _ _ _ _ (fun hh => h ((first_iff t).mp hh)) ((later_iff t).mpr h)
      (iblk0 V c 0 t) (iblk0 V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

end Region

end Cert.Kernel.Hand

end
-- ==== Proof.KOblig0.lean ====
/-
  The first kernel's body obligation to the pipeline, at every grid point.
-/
import proofs.«146282_j40922448396916_2_alg».proof.Proof.Gen.Kernel.Launch
import proofs.«146282_j40922448396916_2_alg».proof.Proof.Gen.Kernel.Skeleton
import proofs.«146282_j40922448396916_2_alg».proof.Proof.Gen.Kernel.Points
import proofs.«146282_j40922448396916_2_alg».proof.Proof.KRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The pipeline's body obligation, at every point: neither accumulator's window is idle anywhere, so every buffer is
    handed back at what the body leaves. -/
theorem body_obligation0 (c : Dev nD) : BodyObligation (dat0 (F := F) V c) (defs₀ (F := F)) Variants.none () Set.univ := fun t => by
  rw [bigSep_W0, bigSep_W0]
  have e2 : idle0 2 (grid0.coords t) = false := live2 _
  have e3 : idle0 3 (grid0.coords t) = false := live3 _
  simp only [e2, e3]
  exact sound_body0 V c t

end Region

end Cert.Kernel.Hand

end
-- ==== Proof.KBody1.lean ====
/-
  The second kernel's body at one grid point, as a Hoare triple.

  The body loads the point's block of the incidence matrix (256 rows), the whole hyperedge features, the weight matrix
  and the three row vectors (bias, scale, shift), computes the block's rows of the layer's output — propagate, scale by
  the inverse root degree, linear layer, ReLU, layer norm — and stores them into the output's buffer. Every access is
  of a whole buffer, so the output's buffer ends at the stored value.
-/
import proofs.«146282_j40922448396916_2_alg».proof.Proof.Gen.Kernel.Launch
import proofs.«146282_j40922448396916_2_alg».proof.Proof.Gen.Kernel.Skeleton
import proofs.«146282_j40922448396916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each the whole of its buffer -/

abbrev qH : Rect S256x8192 := Rect.unit (s := S256x8192) ![0, 0] S256x8192.size inb_S256x8192_S256x8192_0_0
abbrev qE : Rect S8192x128 := Rect.unit (s := S8192x128) ![0, 0] S8192x128.size inb_S8192x128_S8192x128_0_0
abbrev qW : Rect S128x128 := Rect.unit (s := S128x128) ![0, 0] S128x128.size inb_S128x128_S128x128_0_0
abbrev qV : Rect S1x128 := Rect.unit (s := S1x128) ![0, 0] S1x128.size inb_S1x128_S1x128_0_0
abbrev qO : Rect S256x128 := Rect.unit (s := S256x128) ![0, 0] S256x128.size inb_S256x128_S256x128_0_0

/-- The output's buffer after the body: the block's rows of the layer's output, from the six inputs' buffers. -/
def rowsOut (x0 : Vec F S256x8192 .f32) (x1 : Vec F S8192x128 .f32) (x2 : Vec F S128x128 .f32)
    (x3 x4 x5 : Vec F S1x128 .f32) : Vec F S256x128 .f32 :=
  View.canon [⟨qO, k1_pay1 (k1_pay2 (View.ld x0 qH) (View.ld x1 qE) (View.ld x2 qW) (View.ld x3 qV))
    (k1_pay3 (View.ld x0 qH) (View.ld x1 qE) (View.ld x2 qW) (View.ld x3 qV)) (View.ld x4 qV) (View.ld x5 qV)⟩]

/-- One whole-buffer store covers the output's buffer. -/
theorem coverO (p : Vec F S256x128 .f32) (y : S256x128.Idx) :
    ∃ pc ∈ ([⟨qO, p⟩] : List (View.Piece (Elt F) S256x128 .f32)), y ∈ pc.1.set :=
  View.cover_of_tiled [⟨qO, p⟩] S256x128.size (by rfl) y

set_option maxHeartbeats 1000000 in
/-- From the six inputs' buffers at their contents and the output's at anything, the body ends with the inputs as they
    were and the output's buffer at `rowsOut` of them. -/
theorem run_rows (c : Dev nD) (E : Set ℕ) (i : grid1.Coords)
    (arg1 : Memref sig .tc .vmem S256x8192 .f32) (harg1 : arg1.IsWhole) (arg2 : Memref sig .tc .vmem S8192x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S256x128 .f32) (harg7 : arg7.IsWhole)
    (x0 : Vec F S256x8192 .f32) (x1 : Vec F S8192x128 .f32) (x2 : Vec F S128x128 .f32) (x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (rowsOut x0 x1 x2 x3 x4 x5)) -∗ K ⟨⟩))
      ⊢ wp frame (wpE (defs₀ (F := F)) Variants.none c none) E
          (cc1__kernel2 i arg1 harg1 arg2 harg2 arg3 harg3 arg4 harg4 arg5 harg5 arg6 harg6 arg7 harg7) K := by
  simp only [cc1__kernel2_eq_skeleton]; unfold cc1__kernel2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverO _)

end Cert.Kernel.Hand

end
-- ==== Proof.KRegion1.lean ====
/-
  The second kernel's region: its proof data and the body's obligation to the pipeline at every point.

  The grid is 128 points, one per block of 256 rows. The incidence block is fetched at every point; the hyperedge
  features, the weights and the three row vectors are fetched once, at the first point, and stay in their buffers (their
  block index never moves). The output's block is written back at every point, so nothing is carried between points.
-/
import proofs.«146282_j40922448396916_2_alg».proof.Proof.Gen.Kernel.Launch
import proofs.«146282_j40922448396916_2_alg».proof.Proof.Gen.Kernel.Skeleton
import proofs.«146282_j40922448396916_2_alg».proof.Proof.Gen.Kernel.Points
import proofs.«146282_j40922448396916_2_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data on core `c`: the arrays as the region finds them; after the body at point `t` each input's
    buffer at its block and the output's at the block's rows of the layer's output; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => rowsOut (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = rowsOut (iblk1 V c 0 t) (iblk1 V c 1 t) (iblk1 V c 2 t) (iblk1 V c 3 t) (iblk1 V c 4 t) (iblk1 V c 5 t) := by dsimp only [dat1]

/-! ## Each input's buffer holds its block at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
/-- The body at any point: the inputs' buffers hold their blocks, so the body's triple applies; the invariant and the
    core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_rows c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KRun.lean ====
/-
  The whole program's run: host operations, the first kernel's region, host operations, the second kernel's region.

  The buffers' contents at each boundary are a fold from the launch memory: a stretch of host operations applies its
  operations; a region leaves its input arrays as entered and each output array at what its write-backs leave, and
  touches nothing else. Every weakly fair execution terminates with every unscoped buffer at the last boundary's
  contents; an argument array walks back through the fold to its launch contents (no host operation writes one, and a
  region only reads one), which is the frame claim.
-/
import proofs.«146282_j40922448396916_2_alg».proof.Proof.Gen.Kernel.Launch
import proofs.«146282_j40922448396916_2_alg».proof.Proof.Gen.Kernel.Skeleton
import proofs.«146282_j40922448396916_2_alg».proof.Proof.Gen.Kernel.Points
import proofs.«146282_j40922448396916_2_alg».proof.Proof.Gen.Kernel.Regions
import proofs.«146282_j40922448396916_2_alg».proof.Proof.KOblig0
import proofs.«146282_j40922448396916_2_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev K0 : Dev nD → Valuation τ sig (Elt F) := fun c b => (s₀ m ρ).mem ((c : Dev nD), b)
/-- After the first stretch of host operations: the first region's entry. -/
abbrev K1 : Dev nD → Valuation τ sig (Elt F) := fun c => StableHlo.after hostOps0 (K0 m ρ c)
/-- The same, read at the TensorCore's references. -/
abbrev Kin1 : (c : Dev nD) → (b : Ref sig .tc) → Buf (Elt F) ((c : Thread nD τ).loc b) := fun c b => K1 m ρ c b
/-- At the first region's exit: its arrays at what the pipeline leaves, every other buffer as entered. -/
def K2 (c : Dev nD) : Valuation τ sig (Elt F) :=
  Pipeline.withArrays spec0 c (K1 m ρ c) fun w => (dat0 (Kin1 m ρ) c).arrAt w cfg0.N
theorem K2_arr (c : Dev nD) (w : Fin cfg0.W) :
    K2 m ρ c (Proc.devRef .tc (Pipeline.arrRef spec0 w)) = (dat0 (Kin1 m ρ) c).arrAt w cfg0.N := by
  unfold K2; exact Pipeline.withArrays_arr spec0 launch0.win.arr_inj c _ _ w
theorem K2_of_ne (c : Dev nD) (b : Ref sig .tc) (hb : ∀ w, Pipeline.arrRef spec0 w ≠ b) :
    K2 m ρ c (Proc.devRef .tc b) = K1 m ρ c (Proc.devRef .tc b) := by
  unfold K2; exact Pipeline.withArrays_of_ne spec0 c _ _ b hb
abbrev K2r : (c : Dev nD) → (b : Ref sig .tc) → Buf (Elt F) ((c : Thread nD τ).loc b) := fun c b => K2 m ρ c b
theorem hF0 (c : Dev nD) (w : Fin cfg0.W) : (dat0 (Kin1 m ρ) c).arrAt w cfg0.N = K2r m ρ c (Pipeline.arrRef spec0 w) :=
  (K2_arr m ρ c w).symm
theorem hrest0 (c : Dev nD) : ∀ b, b ∉ Finset.univ.image (Pipeline.arrRef spec0) → K2r m ρ c b = Kin1 m ρ c b :=
  fun b hb => K2_of_ne m ρ c b fun w e => hb (Finset.mem_image.mpr ⟨w, Finset.mem_univ _, e⟩)

/-- After the second stretch of host operations: the second region's entry. -/
abbrev K3 : Dev nD → Valuation τ sig (Elt F) := fun c => StableHlo.after hostOps1 (K2 m ρ c)
abbrev Kin3 : (c : Dev nD) → (b : Ref sig .tc) → Buf (Elt F) ((c : Thread nD τ).loc b) := fun c b => K3 m ρ c b
/-- At the second region's exit. -/
def K4 (c : Dev nD) : Valuation τ sig (Elt F) :=
  Pipeline.withArrays spec1 c (K3 m ρ c) fun w => (dat1 (Kin3 m ρ) c).arrAt w cfg1.N
theorem K4_arr (c : Dev nD) (w : Fin cfg1.W) :
    K4 m ρ c (Proc.devRef .tc (Pipeline.arrRef spec1 w)) = (dat1 (Kin3 m ρ) c).arrAt w cfg1.N := by
  unfold K4; exact Pipeline.withArrays_arr spec1 launch1.win.arr_inj c _ _ w
theorem K4_of_ne (c : Dev nD) (b : Ref sig .tc) (hb : ∀ w, Pipeline.arrRef spec1 w ≠ b) :
    K4 m ρ c (Proc.devRef .tc b) = K3 m ρ c (Proc.devRef .tc b) := by
  unfold K4; exact Pipeline.withArrays_of_ne spec1 c _ _ b hb
abbrev K4r : (c : Dev nD) → (b : Ref sig .tc) → Buf (Elt F) ((c : Thread nD τ).loc b) := fun c b => K4 m ρ c b
theorem hF1 (c : Dev nD) (w : Fin cfg1.W) : (dat1 (Kin3 m ρ) c).arrAt w cfg1.N = K4r m ρ c (Pipeline.arrRef spec1 w) :=
  (K4_arr m ρ c w).symm
theorem hrest1 (c : Dev nD) : ∀ b, b ∉ Finset.univ.image (Pipeline.arrRef spec1) → K4r m ρ c b = Kin3 m ρ c b :=
  fun b hb => K4_of_ne m ρ c b fun w e => hb (Finset.mem_image.mpr ⟨w, Finset.mem_univ _, e⟩)

/-! ## The arguments end as launched -/

theorem K4_main_arg0 (c : Dev nD) : K4 m ρ c (Proc.devRef .tc main_arg0) = m ((c : Thread nD τ).loc main_arg0) :=
  calc K4 m ρ c (Proc.devRef .tc main_arg0)
    _ = K3 m ρ c (Proc.devRef .tc main_arg0) := K4_of_ne m ρ c main_arg0 (by decide)
    _ = K2 m ρ c (Proc.devRef .tc main_arg0) := StableHlo.after_of_writes_sub hostOps1 _ hostOps1_writes (by decide)
    _ = K1 m ρ c (Proc.devRef .tc main_arg0) := (K2_arr m ρ c 1).trans (((dat0 (Kin1 m ρ) c).arrAt_in 1 rfl _).trans (A_eq0 (Kin1 m ρ) c 1))
    _ = K0 m ρ c (Proc.devRef .tc main_arg0) := StableHlo.after_of_writes_sub hostOps0 _ hostOps0_writes (by decide)
    _ = m ((c : Thread nD τ).loc main_arg0) := rfl
theorem K4_main_arg1 (c : Dev nD) : K4 m ρ c (Proc.devRef .tc main_arg1) = m ((c : Thread nD τ).loc main_arg1) :=
  calc K4 m ρ c (Proc.devRef .tc main_arg1)
    _ = K3 m ρ c (Proc.devRef .tc main_arg1) := (K4_arr m ρ c 0).trans (((dat1 (Kin3 m ρ) c).arrAt_in 0 rfl _).trans (A_eq1 (Kin3 m ρ) c 0))
    _ = K2 m ρ c (Proc.devRef .tc main_arg1) := StableHlo.after_of_writes_sub hostOps1 _ hostOps1_writes (by decide)
    _ = K1 m ρ c (Proc.devRef .tc main_arg1) := (K2_arr m ρ c 0).trans (((dat0 (Kin1 m ρ) c).arrAt_in 0 rfl _).trans (A_eq0 (Kin1 m ρ) c 0))
    _ = K0 m ρ c (Proc.devRef .tc main_arg1) := StableHlo.after_of_writes_sub hostOps0 _ hostOps0_writes (by decide)
    _ = m ((c : Thread nD τ).loc main_arg1) := rfl
theorem K4_main_arg2 (c : Dev nD) : K4 m ρ c (Proc.devRef .tc main_arg2) = m ((c : Thread nD τ).loc main_arg2) :=
  calc K4 m ρ c (Proc.devRef .tc main_arg2)
    _ = K3 m ρ c (Proc.devRef .tc main_arg2) := (K4_arr m ρ c 2).trans (((dat1 (Kin3 m ρ) c).arrAt_in 2 rfl _).trans (A_eq1 (Kin3 m ρ) c 2))
    _ = K2 m ρ c (Proc.devRef .tc main_arg2) := StableHlo.after_of_writes_sub hostOps1 _ hostOps1_writes (by decide)
    _ = K1 m ρ c (Proc.devRef .tc main_arg2) := K2_of_ne m ρ c main_arg2 (by decide)
    _ = K0 m ρ c (Proc.devRef .tc main_arg2) := StableHlo.after_of_writes_sub hostOps0 _ hostOps0_writes (by decide)
    _ = m ((c : Thread nD τ).loc main_arg2) := rfl
theorem K4_main_arg3 (c : Dev nD) : K4 m ρ c (Proc.devRef .tc main_arg3) = m ((c : Thread nD τ).loc main_arg3) :=
  calc K4 m ρ c (Proc.devRef .tc main_arg3)
    _ = K3 m ρ c (Proc.devRef .tc main_arg3) := K4_of_ne m ρ c main_arg3 (by decide)
    _ = K2 m ρ c (Proc.devRef .tc main_arg3) := StableHlo.after_of_writes_sub hostOps1 _ hostOps1_writes (by decide)
    _ = K1 m ρ c (Proc.devRef .tc main_arg3) := K2_of_ne m ρ c main_arg3 (by decide)
    _ = K0 m ρ c (Proc.devRef .tc main_arg3) := StableHlo.after_of_writes_sub hostOps0 _ hostOps0_writes (by decide)
    _ = m ((c : Thread nD τ).loc main_arg3) := rfl
theorem K4_main_arg4 (c : Dev nD) : K4 m ρ c (Proc.devRef .tc main_arg4) = m ((c : Thread nD τ).loc main_arg4) :=
  calc K4 m ρ c (Proc.devRef .tc main_arg4)
    _ = K3 m ρ c (Proc.devRef .tc main_arg4) := K4_of_ne m ρ c main_arg4 (by decide)
    _ = K2 m ρ c (Proc.devRef .tc main_arg4) := StableHlo.after_of_writes_sub hostOps1 _ hostOps1_writes (by decide)
    _ = K1 m ρ c (Proc.devRef .tc main_arg4) := K2_of_ne m ρ c main_arg4 (by decide)
    _ = K0 m ρ c (Proc.devRef .tc main_arg4) := StableHlo.after_of_writes_sub hostOps0 _ hostOps0_writes (by decide)
    _ = m ((c : Thread nD τ).loc main_arg4) := rfl
theorem K4_main_arg5 (c : Dev nD) : K4 m ρ c (Proc.devRef .tc main_arg5) = m ((c : Thread nD τ).loc main_arg5) :=
  calc K4 m ρ c (Proc.devRef .tc main_arg5)
    _ = K3 m ρ c (Proc.devRef .tc main_arg5) := K4_of_ne m ρ c main_arg5 (by decide)
    _ = K2 m ρ c (Proc.devRef .tc main_arg5) := StableHlo.after_of_writes_sub hostOps1 _ hostOps1_writes (by decide)
    _ = K1 m ρ c (Proc.devRef .tc main_arg5) := K2_of_ne m ρ c main_arg5 (by decide)
    _ = K0 m ρ c (Proc.devRef .tc main_arg5) := StableHlo.after_of_writes_sub hostOps0 _ hostOps0_writes (by decide)
    _ = m ((c : Thread nD τ).loc main_arg5) := rfl

/-! ## The proof data family and the thread state -/

abbrev admK : (p : Fin 2) → (pcfgs (F := F) p).Adm := fun p => (cfgs p).toPCfg_adm
/-- Each pipeline's proof data at its region's entry contents. -/
def pdatsK : (p : Fin 2) → (c : Dev nD) → Dat τ (Elt F) Unit ℕ (UR sig nD τ) ℕ (Pipeline.pin (pcfgs (F := F)) admK p) c
  | ⟨0, _⟩ => fun c => dat0 (Kin1 m ρ) c
  | ⟨1, _⟩ => fun c => dat1 (Kin3 m ρ) c
abbrev 𝒱K : Variants := Variants.none
abbrev LK : GSem nD τ sig → Finset Unit := fun _ => ∅
abbrev lvK : GSem nD τ sig → Unit → ℕ := fun _ _ => 0
/-- What rides beside the buffers through every segment: the generator register at some state, and nothing owed. -/
abbrev RK (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register. -/
abbrev TnK (c : Dev nD) : sProp 𝕄 := iprop(StableHlo.held (c : Thread nD τ) (Pipeline.ucRefs τ sig) (K4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline leaves; the generator
    register goes into the pipeline's invariant and comes out; nothing is owed; the kernel has no semaphore of its own. -/
def reg0 : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (Kin1 m ρ) c).loose
  hwaits := Pipeline.hwaits_of_owed_zero _ _ _ _ LK lvK 0 fun _ _ => rfl
  pre c := iprop(StableHlo.held (c : Thread nD τ) (Pipeline.ucRefs τ sig) (K1 m ρ c) ∗ RK c)
  post c := iprop(StableHlo.held (c : Thread nD τ) (Pipeline.ucRefs τ sig) (K2 m ρ c) ∗ RK c)
  X c := iprop(∃ r, prngReg c r)
  Y c := iprop(∃ r, prngReg c r)
  Z c := Pipeline.unscopedRest (Ix := Unit) (Name := ℕ) (U := UR sig nD τ) (Lvl := ℕ) spec0 c (Kin1 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (Kin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (Kin1 m ρ c) (K2r m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline leaves; the generator
    register goes into the pipeline's invariant and comes out; nothing is owed; the kernel has no semaphore of its own. -/
def reg1 : Pipeline.RegionSeg (pcfgs (F := F)) admK (pdatsK m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (Kin3 m ρ) c).loose
  hwaits := Pipeline.hwaits_of_owed_zero _ _ _ _ LK lvK 1 fun _ _ => rfl
  pre c := iprop(StableHlo.held (c : Thread nD τ) (Pipeline.ucRefs τ sig) (K3 m ρ c) ∗ RK c)
  post c := iprop(TnK m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Kin3 m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (Kin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (Kin3 m ρ c) (K4r m ρ c) ((pdatsK m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segsK : List (Pipeline.Seg (pcfgs (F := F)) admK (pdatsK m ρ) () defs₀ 𝒱K LK lvK) :=
  [ .host (hsegK hostOps0 hostOps0_sub hostOps0_fresh (K0 m ρ)),
    .region (reg0 m ρ),
    .host (hsegK hostOps1 hostOps1_sub hostOps1_fresh (K2 m ρ)),
    .region (reg1 m ρ) ]
theorem main_run (c : Dev nD) : main (F := F) c = Pipeline.Seg.run (segsK m ρ) := (main_chain c).trans (by chain_rfl)

set_option backward.isDefEq.respectTransparency.types false in
/-- Every weakly fair execution of the program from memory `m` with zero counters terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = K4 m ρ c b) :=
  Pipeline.θ_run_regions_kit (pcfgs (F := F)) admK (pdatsK m ρ) () cellOf_inj emb₁ defs₀ 𝒱K LK lvK m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (K0 m ρ c) ∗ RK c)) (Tₙ := TnK m ρ)
    (hch := ⟨fun _ => .rfl, fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (K0 m ρ c)
        from Pipeline.unscopedBufs_held c (K0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = K4 m ρ c b)
    (hfin := fun c s' => by
      iintro ⟨⟨Hh, -⟩, HSI⟩
      unfold StableHlo.held
      imodintro
      iapply (pointsTo_read_all (Pipeline.ucRefs τ sig) (fun b => (((c : Thread nD τ)).1, b)) (K4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (K4_main_arg0 m ρ c),
     (h c _ (mem_uc main_arg1 (by decide))).trans (K4_main_arg1 m ρ c),
     (h c _ (mem_uc main_arg2 (by decide))).trans (K4_main_arg2 m ρ c),
     (h c _ (mem_uc main_arg3 (by decide))).trans (K4_main_arg3 m ρ c),
     (h c _ (mem_uc main_arg4 (by decide))).trans (K4_main_arg4 m ρ c),
     (h c _ (mem_uc main_arg5 (by decide))).trans (K4_main_arg5 m ρ c)⟩) (run_all m ρ)

end Cert.Kernel.Hand

end
-- ==== Proof.KiBody0.lean ====
/-
  The first kernel's body at one grid point, as a Hoare triple, in its two cases.

  The body loads the point's block of the incidence matrix (256 rows) and of the node features, and forms the block's
  contribution to the hyperedge features (a matrix product contracted over the block's rows) and to the hyperedge
  degrees (the block's column sums). At the FIRST step of a core's sweep (inner coordinate 0) it stores the two
  contributions into the core's two accumulators; at every LATER step (inner coordinate positive) it adds them to what
  the accumulators hold. Every access is of a whole buffer, so what each buffer holds afterwards is the stored value.
-/
import proofs.«146282_j40922448396916_2_alg».proof.Proof.Gen.KernelIdeal.Launch
import proofs.«146282_j40922448396916_2_alg».proof.Proof.Gen.KernelIdeal.Skeleton
import proofs.«146282_j40922448396916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each the whole of its buffer -/

abbrev rH : Rect S256x8192 := Rect.unit (s := S256x8192) ![0, 0] S256x8192.size inb_S256x8192_S256x8192_0_0
abbrev rX : Rect S256x128 := Rect.unit (s := S256x128) ![0, 0] S256x128.size inb_S256x128_S256x128_0_0
abbrev rM : Rect S1x8192x128 := Rect.unit (s := S1x8192x128) ![0, 0, 0] S1x8192x128.size inb_S1x8192x128_S1x8192x128_0_0_0
abbrev rD : Rect S1x1x8192 := Rect.unit (s := S1x1x8192) ![0, 0, 0] S1x1x8192.size inb_S1x1x8192_S1x1x8192_0_0_0

/-! ## What the body leaves in the two accumulators -/

/-- The feature accumulator after a FIRST step: the block's contribution. -/
def firstM (x0 : Vec F S256x8192 .f32) (x1 : Vec F S256x128 .f32) : Vec F S1x8192x128 .f32 :=
  View.canon [⟨rM, k0_pay3 (View.ld x0 rH) (View.ld x1 rX)⟩]
/-- The degree accumulator after a FIRST step: the block's column sums. -/
def firstD (x0 : Vec F S256x8192 .f32) : Vec F S1x1x8192 .f32 :=
  View.canon [⟨rD, k0_pay4 (View.ld x0 rH)⟩]
/-- The feature accumulator after a LATER step: what it held plus the block's contribution. -/
def laterM (x0 : Vec F S256x8192 .f32) (x1 : Vec F S256x128 .f32) (xm : Vec F S1x8192x128 .f32) : Vec F S1x8192x128 .f32 :=
  View.canon [⟨rM, k0_pay5 (View.ld x0 rH) (View.ld x1 rX) (View.ld xm rM)⟩]
/-- The degree accumulator after a LATER step: what it held plus the block's column sums. -/
def laterD (x0 : Vec F S256x8192 .f32) (xd : Vec F S1x1x8192 .f32) : Vec F S1x1x8192 .f32 :=
  View.canon [⟨rD, k0_pay6 (View.ld x0 rH) (View.ld xd rD)⟩]

/-- One whole-buffer store covers the feature accumulator. -/
theorem coverM (p : Vec F S1x8192x128 .f32) (y : S1x8192x128.Idx) :
    ∃ pc ∈ ([⟨rM, p⟩] : List (View.Piece (Elt F) S1x8192x128 .f32)), y ∈ pc.1.set :=
  View.cover_of_tiled [⟨rM, p⟩] S1x8192x128.size (by rfl) y
/-- One whole-buffer store covers the degree accumulator. -/
theorem coverD (p : Vec F S1x1x8192 .f32) (y : S1x1x8192.Idx) :
    ∃ pc ∈ ([⟨rD, p⟩] : List (View.Piece (Elt F) S1x1x8192 .f32)), y ∈ pc.1.set :=
  View.cover_of_tiled [⟨rD, p⟩] S1x1x8192.size (by rfl) y

/-! ## The two triples -/

set_option maxHeartbeats 1000000 in
/-- A FIRST step (the reset branch taken, the accumulate branch not): from the inputs' buffers at their contents and the
    accumulators' at anything, the body ends with the inputs as they were and the accumulators at the block's
    contributions. -/
theorem run_first (c : Dev nD) (E : Set ℕ) (i : grid0.Coords)
    (arg2 : Memref sig .tc .vmem S256x8192 .f32) (harg2 : arg2.IsWhole) (arg3 : Memref sig .tc .vmem S256x128 .f32) (harg3 : arg3.IsWhole)
    (arg4 : Memref sig .tc .vmem S1x8192x128 .f32) (harg4 : arg4.IsWhole) (arg5 : Memref sig .tc .vmem S1x1x8192 .f32) (harg5 : arg5.IsWhole)
    (h1 : k0_cond1 i = 1#1) (h2 : ¬ k0_cond2 i = 1#1)
    (x0 : Vec F S256x8192 .f32) (x1 : Vec F S256x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (firstM x0 x1) ∗ owns (c : Thread nD τ) arg5 fullShare (firstD x0)) -∗ K ⟨⟩))
      ⊢ wp frame (wpE (defs₀ (F := F)) Variants.none c none) E (cc0__kernel1 i arg2 harg2 arg3 harg3 arg4 harg4 arg5 harg5) K := by
  simp only [cc0__kernel1_eq_skeleton]; unfold cc0__kernel1_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverM _)
  · iexists _; isplitr
    swap; · iexact H3
    ipureintro
    exact View.read_writes_eq_canon _ _ _ (coverD _)

set_option maxHeartbeats 1000000 in
/-- A LATER step (the reset branch not taken, the accumulate branch taken): from the inputs' buffers at their contents
    and the accumulators' at their running contents, the body ends with the inputs as they were and each accumulator
    at its running contents plus the block's contribution. -/
theorem run_later (c : Dev nD) (E : Set ℕ) (i : grid0.Coords)
    (arg2 : Memref sig .tc .vmem S256x8192 .f32) (harg2 : arg2.IsWhole) (arg3 : Memref sig .tc .vmem S256x128 .f32) (harg3 : arg3.IsWhole)
    (arg4 : Memref sig .tc .vmem S1x8192x128 .f32) (harg4 : arg4.IsWhole) (arg5 : Memref sig .tc .vmem S1x1x8192 .f32) (harg5 : arg5.IsWhole)
    (h1 : ¬ k0_cond1 i = 1#1) (h2 : k0_cond2 i = 1#1)
    (x0 : Vec F S256x8192 .f32) (x1 : Vec F S256x128 .f32) (xm : Vec F S1x8192x128 .f32) (xd : Vec F S1x1x8192 .f32) (K : PUnit → sProp 𝕄) :
    iprop(owns (c : Thread nD τ) arg2 fullShare x0 ∗ owns (c : Thread nD τ) arg3 fullShare x1
        ∗ owns (c : Thread nD τ) arg4 fullShare xm ∗ owns (c : Thread nD τ) arg5 fullShare xd
        ∗ (iprop(owns (c : Thread nD τ) arg2 fullShare x0 ∗ owns (c : Thread nD τ) arg3 fullShare x1
            ∗ owns (c : Thread nD τ) arg4 fullShare (laterM x0 x1 xm) ∗ owns (c : Thread nD τ) arg5 fullShare (laterD x0 xd)) -∗ K ⟨⟩))
      ⊢ wp frame (wpE (defs₀ (F := F)) Variants.none c none) E (cc0__kernel1 i arg2 harg2 arg3 harg3 arg4 harg4 arg5 harg5) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverM _)
  · iexists _; isplitr
    swap; · iexact H3
    ipureintro
    exact View.read_writes_eq_canon _ _ _ (coverD _)

end Cert.KernelIdeal.Hand

end
-- ==== Proof.KiRegion0.lean ====
/-
  The first kernel's region: what its two accumulators hold after every grid point, and the body's obligation to the
  pipeline at every point.

  The grid is 2 sweeps of 64 steps. Point t is the FIRST step of its sweep when t % 64 = 0 and a LATER step otherwise,
  and exactly one of the body's two branches runs accordingly. The accumulators are written back to their arrays only
  at the last step of a sweep (t % 64 = 63), so at a later step each still holds what the step before left: their
  contents after point t are defined by recursion on t, restarting at each sweep's first step.
-/
import proofs.«146282_j40922448396916_2_alg».proof.Proof.Gen.KernelIdeal.Launch
import proofs.«146282_j40922448396916_2_alg».proof.Proof.Gen.KernelIdeal.Skeleton
import proofs.«146282_j40922448396916_2_alg».proof.Proof.Gen.KernelIdeal.Points
import proofs.«146282_j40922448396916_2_alg».proof.Proof.KiBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch runs where -/

/-- At every setting of the grid's coordinates exactly one of the two branches' conditions holds: the inner coordinate is
    zero, or it is positive (it is below 64, so positive as a signed word too). -/
theorem step_cases (i : grid0.Coords) :
    (k0_cond1 i = 1#1 ∧ ¬ k0_cond2 i = 1#1) ∨ (¬ k0_cond1 i = 1#1 ∧ k0_cond2 i = 1#1) := by
  unfold k0_cond1 k0_cond2
  dsimp only
  generalize (i 1) = n
  revert n
  decide +kernel

/-- The reset branch runs exactly at the first step of a sweep. -/
theorem first_iff : ∀ t : Fin cfg0.N, k0_cond1 (grid0.coords t) = 1#1 ↔ t.val % 64 = 0 :=
  (by decide +kernel : ∀ t : Fin grid0.N, k0_cond1 (grid0.coords t) = 1#1 ↔ t.val % 64 = 0)
/-- The accumulate branch runs exactly at the later steps. -/
theorem later_iff : ∀ t : Fin cfg0.N, k0_cond2 (grid0.coords t) = 1#1 ↔ ¬ t.val % 64 = 0 :=
  (by decide +kernel : ∀ t : Fin grid0.N, k0_cond2 (grid0.coords t) = 1#1 ↔ ¬ t.val % 64 = 0)

/-- So neither accumulator's window is ever idle: some branch stores into it at every point. -/
theorem live_acc (i : grid0.Coords) : (!(k0_cond1 i == 1#1) && !(k0_cond2 i == 1#1)) = false := by
  rcases step_cases i with ⟨h, -⟩ | ⟨-, h⟩
  · simp only [h, beq_self_eq_true, Bool.not_true, Bool.false_and]
  · simp only [h, beq_self_eq_true, Bool.not_true, Bool.and_false]

/-- The feature accumulator's window is never idle. -/
theorem live2 (i : grid0.Coords) : cfg0.idle 2 i = false := by
  show (!(k0_cond1 i == 1#1) && !(k0_cond2 i == 1#1)) = false
  exact live_acc i
/-- The degree accumulator's window is never idle. -/
theorem live3 (i : grid0.Coords) : cfg0.idle 3 i = false := by
  show (!(k0_cond1 i == 1#1) && !(k0_cond2 i == 1#1)) = false
  exact live_acc i

section Region
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulators, point by point -/

/-- What the feature accumulator and the degree accumulator hold after the body at position `n`: at a sweep's first step
    the block's contributions, at a later step what position `n - 1` left plus the block's contributions. -/
def accAt (c : Dev nD) : (n : ℕ) → n < cfg0.N → Vec F S1x8192x128 .f32 × Vec F S1x1x8192 .f32
  | 0, hn => (firstM (iblk0 V c 0 ⟨0, hn⟩) (iblk0 V c 1 ⟨0, hn⟩), firstD (iblk0 V c 0 ⟨0, hn⟩))
  | n + 1, hn =>
    if (n + 1) % 64 = 0 then
      (firstM (iblk0 V c 0 ⟨n + 1, hn⟩) (iblk0 V c 1 ⟨n + 1, hn⟩), firstD (iblk0 V c 0 ⟨n + 1, hn⟩))
    else
      (laterM (iblk0 V c 0 ⟨n + 1, hn⟩) (iblk0 V c 1 ⟨n + 1, hn⟩) (accAt c n (Nat.lt_of_succ_lt hn)).1,
       laterD (iblk0 V c 0 ⟨n + 1, hn⟩) (accAt c n (Nat.lt_of_succ_lt hn)).2)

/-- At a sweep's first step: the block's contributions. -/
theorem accAt_first (c : Dev nD) (t : Fin cfg0.N) (h : t.val % 64 = 0) :
    accAt V c t.val t.isLt = (firstM (iblk0 V c 0 t) (iblk0 V c 1 t), firstD (iblk0 V c 0 t)) := by
  obtain ⟨n, hn⟩ := t
  cases n with
  | zero => exact rfl
  | succ n => exact (if_pos h).trans rfl

/-- At a later step: the step before's, plus the block's contributions. -/
theorem accAt_later (c : Dev nD) (t : Fin cfg0.N) (h : ¬ t.val % 64 = 0) :
    accAt V c t.val t.isLt =
      (laterM (iblk0 V c 0 t) (iblk0 V c 1 t) (accAt V c (t.val - 1) (Nat.lt_of_le_of_lt (Nat.sub_le _ _) t.isLt)).1,
       laterD (iblk0 V c 0 t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The pipeline's proof data -/

/-- The region's proof data on core `c`: the arrays as the region finds them; after the body at point `t` each input's
    buffer at its block and each accumulator's at `accAt`; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt V c t.val t.isLt).1
    | ⟨3, _⟩ => (accAt V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt V c t.val t.isLt).1 := by dsimp only [dat0]
theorem after0_3 (c : Dev nD) (t : Fin cfg0.N) : (dat0 V c).after 3 t = (accAt V c t.val t.isLt).2 := by dsimp only [dat0]

/-! ## What the body is handed -/

/-- The incidence block's buffer holds the block at every point (it is fetched at every point, and the body leaves it). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- The feature block's buffer likewise. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- At a later step the feature accumulator's buffer holds what the step before left: the point is not the first, the
    buffer was not written back in between (a write-back happens only after a sweep's last step, and then the next point
    is a first step), and the window is never idle. -/
theorem before0_2_later (c : Dev nD) (t : Fin cfg0.N) (h : ¬ t.val % 64 = 0) (d) :
    (dat0 V c).before 2 t d = (accAt V c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega)
    (Bool.eq_false_iff.mpr fun hf => by have := (flush0_2 _).mp hf; dsimp only at this; omega)
    live2 (fun _ _ => rfl)]
  dsimp only [dat0]
/-- The degree accumulator's likewise. -/
theorem before0_3_later (c : Dev nD) (t : Fin cfg0.N) (h : ¬ t.val % 64 = 0) (d) :
    (dat0 V c).before 3 t d = (accAt V c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega)
    (Bool.eq_false_iff.mpr fun hf => by have := (flush0_3 _).mp hf; dsimp only at this; omega)
    live3 (fun _ _ => rfl)]
  dsimp only [dat0]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' buffers hold their blocks; the point is a first or a later step, and the matching
    triple applies — at a later step the accumulators' buffers holding what the step before left —; the invariant and
    the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h : t.val % 64 = 0
  · rw [accAt_first V c t h]
    iintro ⟨HΦ, Ho, ⟨%d0, H0⟩, ⟨%d1, H1⟩, ⟨%d2, H2⟩, ⟨%d3, H3⟩⟩
    iapply (run_first c Set.univ (grid0.coords t) _ _ _ _ _ _ _ _ ((first_iff t).mpr h) (fun hh => ((later_iff t).mp hh) h)
      (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [accAt_later V c t h]
    simp only [before0_2_later V c t h, before0_3_later V c t h]
    iintro ⟨HΦ, Ho, ⟨%d0, H0⟩, ⟨%d1, H1⟩, ⟨%d2, H2⟩, ⟨%d3, H3⟩⟩
    iapply (run_later c Set.univ (grid0.coords t) _ _ _ _ _ _ _ _ (fun hh => h ((first_iff t).mp hh)) ((later_iff t).mpr h)
      (iblk0 V c 0 t) (iblk0 V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

end Region

end Cert.KernelIdeal.Hand

end
-- ==== Proof.KiOblig0.lean ====
/-
  The first kernel's body obligation to the pipeline, at every grid point.
-/
import proofs.«146282_j40922448396916_2_alg».proof.Proof.Gen.KernelIdeal.Launch
import proofs.«146282_j40922448396916_2_alg».proof.Proof.Gen.KernelIdeal.Skeleton
import proofs.«146282_j40922448396916_2_alg».proof.Proof.Gen.KernelIdeal.Points
import proofs.«146282_j40922448396916_2_alg».proof.Proof.KiRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The pipeline's body obligation, at every point: neither accumulator's window is idle anywhere, so every buffer is
    handed back at what the body leaves. -/
theorem body_obligation0 (c : Dev nD) : BodyObligation (dat0 (F := F) V c) (defs₀ (F := F)) Variants.none () Set.univ := fun t => by
  rw [bigSep_W0, bigSep_W0]
  have e2 : idle0 2 (grid0.coords t) = false := live2 _
  have e3 : idle0 3 (grid0.coords t) = false := live3 _
  simp only [e2, e3]
  exact sound_body0 V c t

end Region

end Cert.KernelIdeal.Hand

end
-- ==== Proof.KiBody1.lean ====
/-
  The second kernel's body at one grid point, as a Hoare triple.

  The body loads the point's block of the incidence matrix (256 rows), the whole hyperedge features, the weight matrix
  and the three row vectors (bias, scale, shift), computes the block's rows of the layer's output — propagate, scale by
  the inverse root degree, linear layer, ReLU, layer norm — and stores them into the output's buffer. Every access is
  of a whole buffer, so the output's buffer ends at the stored value.
-/
import proofs.«146282_j40922448396916_2_alg».proof.Proof.Gen.KernelIdeal.Launch
import proofs.«146282_j40922448396916_2_alg».proof.Proof.Gen.KernelIdeal.Skeleton
import proofs.«146282_j40922448396916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each the whole of its buffer -/

abbrev qH : Rect S256x8192 := Rect.unit (s := S256x8192) ![0, 0] S256x8192.size inb_S256x8192_S256x8192_0_0
abbrev qE : Rect S8192x128 := Rect.unit (s := S8192x128) ![0, 0] S8192x128.size inb_S8192x128_S8192x128_0_0
abbrev qW : Rect S128x128 := Rect.unit (s := S128x128) ![0, 0] S128x128.size inb_S128x128_S128x128_0_0
abbrev qV : Rect S1x128 := Rect.unit (s := S1x128) ![0, 0] S1x128.size inb_S1x128_S1x128_0_0
abbrev qO : Rect S256x128 := Rect.unit (s := S256x128) ![0, 0] S256x128.size inb_S256x128_S256x128_0_0

/-- The output's buffer after the body: the block's rows of the layer's output, from the six inputs' buffers. -/
def rowsOut (x0 : Vec F S256x8192 .f32) (x1 : Vec F S8192x128 .f32) (x2 : Vec F S128x128 .f32)
    (x3 x4 x5 : Vec F S1x128 .f32) : Vec F S256x128 .f32 :=
  View.canon [⟨qO, k1_pay1 (k1_pay2 (View.ld x0 qH) (View.ld x1 qE) (View.ld x2 qW) (View.ld x3 qV))
    (k1_pay3 (View.ld x0 qH) (View.ld x1 qE) (View.ld x2 qW) (View.ld x3 qV)) (View.ld x4 qV) (View.ld x5 qV)⟩]

/-- One whole-buffer store covers the output's buffer. -/
theorem coverO (p : Vec F S256x128 .f32) (y : S256x128.Idx) :
    ∃ pc ∈ ([⟨qO, p⟩] : List (View.Piece (Elt F) S256x128 .f32)), y ∈ pc.1.set :=
  View.cover_of_tiled [⟨qO, p⟩] S256x128.size (by rfl) y

set_option maxHeartbeats 1000000 in
/-- From the six inputs' buffers at their contents and the output's at anything, the body ends with the inputs as they
    were and the output's buffer at `rowsOut` of them. -/
theorem run_rows (c : Dev nD) (E : Set ℕ) (i : grid1.Coords)
    (arg1 : Memref sig .tc .vmem S256x8192 .f32) (harg1 : arg1.IsWhole) (arg2 : Memref sig .tc .vmem S8192x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S256x128 .f32) (harg7 : arg7.IsWhole)
    (x0 : Vec F S256x8192 .f32) (x1 : Vec F S8192x128 .f32) (x2 : Vec F S128x128 .f32) (x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (rowsOut x0 x1 x2 x3 x4 x5)) -∗ K ⟨⟩))
      ⊢ wp frame (wpE (defs₀ (F := F)) Variants.none c none) E
          (cc1__kernel2 i arg1 harg1 arg2 harg2 arg3 harg3 arg4 harg4 arg5 harg5 arg6 harg6 arg7 harg7) K := by
  simp only [cc1__kernel2_eq_skeleton]; unfold cc1__kernel2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverO _)

end Cert.KernelIdeal.Hand

end
-- ==== Proof.KiRegion1.lean ====
/-
  The second kernel's region: its proof data and the body's obligation to the pipeline at every point.

  The grid is 128 points, one per block of 256 rows. The incidence block is fetched at every point; the hyperedge
  features, the weights and the three row vectors are fetched once, at the first point, and stay in their buffers (their
  block index never moves). The output's block is written back at every point, so nothing is carried between points.
-/
import proofs.«146282_j40922448396916_2_alg».proof.Proof.Gen.KernelIdeal.Launch
import proofs.«146282_j40922448396916_2_alg».proof.Proof.Gen.KernelIdeal.Skeleton
import proofs.«146282_j40922448396916_2_alg».proof.Proof.Gen.KernelIdeal.Points
import proofs.«146282_j40922448396916_2_alg».proof.Proof.KiBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data on core `c`: the arrays as the region finds them; after the body at point `t` each input's
    buffer at its block and the output's at the block's rows of the layer's output; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => rowsOut (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = rowsOut (iblk1 V c 0 t) (iblk1 V c 1 t) (iblk1 V c 2 t) (iblk1 V c 3 t) (iblk1 V c 4 t) (iblk1 V c 5 t) := by dsimp only [dat1]

/-! ## Each input's buffer holds its block at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
/-- The body at any point: the inputs' buffers hold their blocks, so the body's triple applies; the invariant and the
    core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_rows c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KiRun.lean ====
/-
  The whole program's run: host operations, the first kernel's region, host operations, the second kernel's region.

  The buffers' contents at each boundary are a fold from the launch memory: a stretch of host operations applies its
  operations; a region leaves its input arrays as entered and each output array at what its write-backs leave, and
  touches nothing else. Every weakly fair execution terminates with every unscoped buffer at the last boundary's
  contents; an argument array walks back through the fold to its launch contents (no host operation writes one, and a
  region only reads one), which is the frame claim.
-/
import proofs.«146282_j40922448396916_2_alg».proof.Proof.Gen.KernelIdeal.Launch
import proofs.«146282_j40922448396916_2_alg».proof.Proof.Gen.KernelIdeal.Skeleton
import proofs.«146282_j40922448396916_2_alg».proof.Proof.Gen.KernelIdeal.Points
import proofs.«146282_j40922448396916_2_alg».proof.Proof.Gen.KernelIdeal.Regions
import proofs.«146282_j40922448396916_2_alg».proof.Proof.KiOblig0
import proofs.«146282_j40922448396916_2_alg».proof.Proof.KiRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev K0 : Dev nD → Valuation τ sig (Elt F) := fun c b => (s₀ m ρ).mem ((c : Dev nD), b)
/-- After the first stretch of host operations: the first region's entry. -/
abbrev K1 : Dev nD → Valuation τ sig (Elt F) := fun c => StableHlo.after hostOps0 (K0 m ρ c)
/-- The same, read at the TensorCore's references. -/
abbrev Kin1 : (c : Dev nD) → (b : Ref sig .tc) → Buf (Elt F) ((c : Thread nD τ).loc b) := fun c b => K1 m ρ c b
/-- At the first region's exit: its arrays at what the pipeline leaves, every other buffer as entered. -/
def K2 (c : Dev nD) : Valuation τ sig (Elt F) :=
  Pipeline.withArrays spec0 c (K1 m ρ c) fun w => (dat0 (Kin1 m ρ) c).arrAt w cfg0.N
theorem K2_arr (c : Dev nD) (w : Fin cfg0.W) :
    K2 m ρ c (Proc.devRef .tc (Pipeline.arrRef spec0 w)) = (dat0 (Kin1 m ρ) c).arrAt w cfg0.N := by
  unfold K2; exact Pipeline.withArrays_arr spec0 launch0.win.arr_inj c _ _ w
theorem K2_of_ne (c : Dev nD) (b : Ref sig .tc) (hb : ∀ w, Pipeline.arrRef spec0 w ≠ b) :
    K2 m ρ c (Proc.devRef .tc b) = K1 m ρ c (Proc.devRef .tc b) := by
  unfold K2; exact Pipeline.withArrays_of_ne spec0 c _ _ b hb
abbrev K2r : (c : Dev nD) → (b : Ref sig .tc) → Buf (Elt F) ((c : Thread nD τ).loc b) := fun c b => K2 m ρ c b
theorem hF0 (c : Dev nD) (w : Fin cfg0.W) : (dat0 (Kin1 m ρ) c).arrAt w cfg0.N = K2r m ρ c (Pipeline.arrRef spec0 w) :=
  (K2_arr m ρ c w).symm
theorem hrest0 (c : Dev nD) : ∀ b, b ∉ Finset.univ.image (Pipeline.arrRef spec0) → K2r m ρ c b = Kin1 m ρ c b :=
  fun b hb => K2_of_ne m ρ c b fun w e => hb (Finset.mem_image.mpr ⟨w, Finset.mem_univ _, e⟩)

/-- After the second stretch of host operations: the second region's entry. -/
abbrev K3 : Dev nD → Valuation τ sig (Elt F) := fun c => StableHlo.after hostOps1 (K2 m ρ c)
abbrev Kin3 : (c : Dev nD) → (b : Ref sig .tc) → Buf (Elt F) ((c : Thread nD τ).loc b) := fun c b => K3 m ρ c b
/-- At the second region's exit. -/
def K4 (c : Dev nD) : Valuation τ sig (Elt F) :=
  Pipeline.withArrays spec1 c (K3 m ρ c) fun w => (dat1 (Kin3 m ρ) c).arrAt w cfg1.N
theorem K4_arr (c : Dev nD) (w : Fin cfg1.W) :
    K4 m ρ c (Proc.devRef .tc (Pipeline.arrRef spec1 w)) = (dat1 (Kin3 m ρ) c).arrAt w cfg1.N := by
  unfold K4; exact Pipeline.withArrays_arr spec1 launch1.win.arr_inj c _ _ w
theorem K4_of_ne (c : Dev nD) (b : Ref sig .tc) (hb : ∀ w, Pipeline.arrRef spec1 w ≠ b) :
    K4 m ρ c (Proc.devRef .tc b) = K3 m ρ c (Proc.devRef .tc b) := by
  unfold K4; exact Pipeline.withArrays_of_ne spec1 c _ _ b hb
abbrev K4r : (c : Dev nD) → (b : Ref sig .tc) → Buf (Elt F) ((c : Thread nD τ).loc b) := fun c b => K4 m ρ c b
theorem hF1 (c : Dev nD) (w : Fin cfg1.W) : (dat1 (Kin3 m ρ) c).arrAt w cfg1.N = K4r m ρ c (Pipeline.arrRef spec1 w) :=
  (K4_arr m ρ c w).symm
theorem hrest1 (c : Dev nD) : ∀ b, b ∉ Finset.univ.image (Pipeline.arrRef spec1) → K4r m ρ c b = Kin3 m ρ c b :=
  fun b hb => K4_of_ne m ρ c b fun w e => hb (Finset.mem_image.mpr ⟨w, Finset.mem_univ _, e⟩)

/-! ## The arguments end as launched -/

theorem K4_main_arg0 (c : Dev nD) : K4 m ρ c (Proc.devRef .tc main_arg0) = m ((c : Thread nD τ).loc main_arg0) :=
  calc K4 m ρ c (Proc.devRef .tc main_arg0)
    _ = K3 m ρ c (Proc.devRef .tc main_arg0) := K4_of_ne m ρ c main_arg0 (by decide)
    _ = K2 m ρ c (Proc.devRef .tc main_arg0) := StableHlo.after_of_writes_sub hostOps1 _ hostOps1_writes (by decide)
    _ = K1 m ρ c (Proc.devRef .tc main_arg0) := (K2_arr m ρ c 1).trans (((dat0 (Kin1 m ρ) c).arrAt_in 1 rfl _).trans (A_eq0 (Kin1 m ρ) c 1))
    _ = K0 m ρ c (Proc.devRef .tc main_arg0) := StableHlo.after_of_writes_sub hostOps0 _ hostOps0_writes (by decide)
    _ = m ((c : Thread nD τ).loc main_arg0) := rfl
theorem K4_main_arg1 (c : Dev nD) : K4 m ρ c (Proc.devRef .tc main_arg1) = m ((c : Thread nD τ).loc main_arg1) :=
  calc K4 m ρ c (Proc.devRef .tc main_arg1)
    _ = K3 m ρ c (Proc.devRef .tc main_arg1) := (K4_arr m ρ c 0).trans (((dat1 (Kin3 m ρ) c).arrAt_in 0 rfl _).trans (A_eq1 (Kin3 m ρ) c 0))
    _ = K2 m ρ c (Proc.devRef .tc main_arg1) := StableHlo.after_of_writes_sub hostOps1 _ hostOps1_writes (by decide)
    _ = K1 m ρ c (Proc.devRef .tc main_arg1) := (K2_arr m ρ c 0).trans (((dat0 (Kin1 m ρ) c).arrAt_in 0 rfl _).trans (A_eq0 (Kin1 m ρ) c 0))
    _ = K0 m ρ c (Proc.devRef .tc main_arg1) := StableHlo.after_of_writes_sub hostOps0 _ hostOps0_writes (by decide)
    _ = m ((c : Thread nD τ).loc main_arg1) := rfl
theorem K4_main_arg2 (c : Dev nD) : K4 m ρ c (Proc.devRef .tc main_arg2) = m ((c : Thread nD τ).loc main_arg2) :=
  calc K4 m ρ c (Proc.devRef .tc main_arg2)
    _ = K3 m ρ c (Proc.devRef .tc main_arg2) := (K4_arr m ρ c 2).trans (((dat1 (Kin3 m ρ) c).arrAt_in 2 rfl _).trans (A_eq1 (Kin3 m ρ) c 2))
    _ = K2 m ρ c (Proc.devRef .tc main_arg2) := StableHlo.after_of_writes_sub hostOps1 _ hostOps1_writes (by decide)
    _ = K1 m ρ c (Proc.devRef .tc main_arg2) := K2_of_ne m ρ c main_arg2 (by decide)
    _ = K0 m ρ c (Proc.devRef .tc main_arg2) := StableHlo.after_of_writes_sub hostOps0 _ hostOps0_writes (by decide)
    _ = m ((c : Thread nD τ).loc main_arg2) := rfl
theorem K4_main_arg3 (c : Dev nD) : K4 m ρ c (Proc.devRef .tc main_arg3) = m ((c : Thread nD τ).loc main_arg3) :=
  calc K4 m ρ c (Proc.devRef .tc main_arg3)
    _ = K3 m ρ c (Proc.devRef .tc main_arg3) := K4_of_ne m ρ c main_arg3 (by decide)
    _ = K2 m ρ c (Proc.devRef .tc main_arg3) := StableHlo.after_of_writes_sub hostOps1 _ hostOps1_writes (by decide)
    _ = K1 m ρ c (Proc.devRef .tc main_arg3) := K2_of_ne m ρ c main_arg3 (by decide)
    _ = K0 m ρ c (Proc.devRef .tc main_arg3) := StableHlo.after_of_writes_sub hostOps0 _ hostOps0_writes (by decide)
    _ = m ((c : Thread nD τ).loc main_arg3) := rfl
theorem K4_main_arg4 (c : Dev nD) : K4 m ρ c (Proc.devRef .tc main_arg4) = m ((c : Thread nD τ).loc main_arg4) :=
  calc K4 m ρ c (Proc.devRef .tc main_arg4)
    _ = K3 m ρ c (Proc.devRef .tc main_arg4) := K4_of_ne m ρ c main_arg4 (by decide)
    _ = K2 m ρ c (Proc.devRef .tc main_arg4) := StableHlo.after_of_writes_sub hostOps1 _ hostOps1_writes (by decide)
    _ = K1 m ρ c (Proc.devRef .tc main_arg4) := K2_of_ne m ρ c main_arg4 (by decide)
    _ = K0 m ρ c (Proc.devRef .tc main_arg4) := StableHlo.after_of_writes_sub hostOps0 _ hostOps0_writes (by decide)
    _ = m ((c : Thread nD τ).loc main_arg4) := rfl
theorem K4_main_arg5 (c : Dev nD) : K4 m ρ c (Proc.devRef .tc main_arg5) = m ((c : Thread nD τ).loc main_arg5) :=
  calc K4 m ρ c (Proc.devRef .tc main_arg5)
    _ = K3 m ρ c (Proc.devRef .tc main_arg5) := K4_of_ne m ρ c main_arg5 (by decide)
    _ = K2 m ρ c (Proc.devRef .tc main_arg5) := StableHlo.after_of_writes_sub hostOps1 _ hostOps1_writes (by decide)
    _ = K1 m ρ c (Proc.devRef .tc main_arg5) := K2_of_ne m ρ c main_arg5 (by decide)
    _ = K0 m ρ c (Proc.devRef .tc main_arg5) := StableHlo.after_of_writes_sub hostOps0 _ hostOps0_writes (by decide)
    _ = m ((c : Thread nD τ).loc main_arg5) := rfl

/-! ## The proof data family and the thread state -/

abbrev admK : (p : Fin 2) → (pcfgs (F := F) p).Adm := fun p => (cfgs p).toPCfg_adm
/-- Each pipeline's proof data at its region's entry contents. -/
def pdatsK : (p : Fin 2) → (c : Dev nD) → Dat τ (Elt F) Unit ℕ (UR sig nD τ) ℕ (Pipeline.pin (pcfgs (F := F)) admK p) c
  | ⟨0, _⟩ => fun c => dat0 (Kin1 m ρ) c
  | ⟨1, _⟩ => fun c => dat1 (Kin3 m ρ) c
abbrev 𝒱K : Variants := Variants.none
abbrev LK : GSem nD τ sig → Finset Unit := fun _ => ∅
abbrev lvK : GSem nD τ sig → Unit → ℕ := fun _ _ => 0
/-- What rides beside the buffers through every segment: the generator register at some state, and nothing owed. -/
abbrev RK (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register. -/
abbrev TnK (c : Dev nD) : sProp 𝕄 := iprop(StableHlo.held (c : Thread nD τ) (Pipeline.ucRefs τ sig) (K4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline leaves; the generator
    register goes into the pipeline's invariant and comes out; nothing is owed; the kernel has no semaphore of its own. -/
def reg0 : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (Kin1 m ρ) c).loose
  hwaits := Pipeline.hwaits_of_owed_zero _ _ _ _ LK lvK 0 fun _ _ => rfl
  pre c := iprop(StableHlo.held (c : Thread nD τ) (Pipeline.ucRefs τ sig) (K1 m ρ c) ∗ RK c)
  post c := iprop(StableHlo.held (c : Thread nD τ) (Pipeline.ucRefs τ sig) (K2 m ρ c) ∗ RK c)
  X c := iprop(∃ r, prngReg c r)
  Y c := iprop(∃ r, prngReg c r)
  Z c := Pipeline.unscopedRest (Ix := Unit) (Name := ℕ) (U := UR sig nD τ) (Lvl := ℕ) spec0 c (Kin1 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (Kin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (Kin1 m ρ c) (K2r m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline leaves; the generator
    register goes into the pipeline's invariant and comes out; nothing is owed; the kernel has no semaphore of its own. -/
def reg1 : Pipeline.RegionSeg (pcfgs (F := F)) admK (pdatsK m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (Kin3 m ρ) c).loose
  hwaits := Pipeline.hwaits_of_owed_zero _ _ _ _ LK lvK 1 fun _ _ => rfl
  pre c := iprop(StableHlo.held (c : Thread nD τ) (Pipeline.ucRefs τ sig) (K3 m ρ c) ∗ RK c)
  post c := iprop(TnK m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Kin3 m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (Kin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (Kin3 m ρ c) (K4r m ρ c) ((pdatsK m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segsK : List (Pipeline.Seg (pcfgs (F := F)) admK (pdatsK m ρ) () defs₀ 𝒱K LK lvK) :=
  [ .host (hsegK hostOps0 hostOps0_sub hostOps0_fresh (K0 m ρ)),
    .region (reg0 m ρ),
    .host (hsegK hostOps1 hostOps1_sub hostOps1_fresh (K2 m ρ)),
    .region (reg1 m ρ) ]
theorem main_run (c : Dev nD) : main (F := F) c = Pipeline.Seg.run (segsK m ρ) := (main_chain c).trans (by chain_rfl)

set_option backward.isDefEq.respectTransparency.types false in
/-- Every weakly fair execution of the program from memory `m` with zero counters terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = K4 m ρ c b) :=
  Pipeline.θ_run_regions_kit (pcfgs (F := F)) admK (pdatsK m ρ) () cellOf_inj emb₁ defs₀ 𝒱K LK lvK m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (K0 m ρ c) ∗ RK c)) (Tₙ := TnK m ρ)
    (hch := ⟨fun _ => .rfl, fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (K0 m ρ c)
        from Pipeline.unscopedBufs_held c (K0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = K4 m ρ c b)
    (hfin := fun c s' => by
      iintro ⟨⟨Hh, -⟩, HSI⟩
      unfold StableHlo.held
      imodintro
      iapply (pointsTo_read_all (Pipeline.ucRefs τ sig) (fun b => (((c : Thread nD τ)).1, b)) (K4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (K4_main_arg0 m ρ c),
     (h c _ (mem_uc main_arg1 (by decide))).trans (K4_main_arg1 m ρ c),
     (h c _ (mem_uc main_arg2 (by decide))).trans (K4_main_arg2 m ρ c),
     (h c _ (mem_uc main_arg3 (by decide))).trans (K4_main_arg3 m ρ c),
     (h c _ (mem_uc main_arg4 (by decide))).trans (K4_main_arg4 m ρ c),
     (h c _ (mem_uc main_arg5 (by decide))).trans (K4_main_arg5 m ρ c)⟩) (run_all m ρ)

end Cert.KernelIdeal.Hand

end
-- ==== Proof.Spec.lean ====
/-
  The hypergraph-convolution layer as one function of its arguments, index by index, over the extended reals.

  With H the incidence matrix (nodes n, hyperedges e), x the node features, W, b the linear layer and γ, β the
  layer norm's scale and shift:
    dv n  = Σ_e H n e                      node degrees
    de e  = Σ_n H n e                      hyperedge degrees
    s n   = 1 / (√(dv n) + ε₁)             ,  q e = 1 / (de e + ε₁)
    m2 e d = Σ_n H n e · (s n · x n d)     gather nodes into hyperedges
    m3 e d = q e · m2 e d
    m4 n d = Σ_e H n e · m3 e d            scatter hyperedges back to nodes
    m5 n d = s n · m4 n d
    lin n o = Σ_d m5 n d · W o d + b o ,  act = max lin 0
    μ n = (Σ_o act n o) / 128 ,  δ n o = act n o − μ n ,  var n = (Σ_o δ n o · δ n o) / 128
    out n o = (γ o · δ n o) / √(var n + ε₂) + β o.
  Quotients, roots and literals are the ideal instance's (PureOps/Ideal.lean): a literal is kept as the word it is
  printed with, so that the same word on two sides is never evaluated.
-/
import Idealize.ShloMosaic.PureOps.Ideal
import Idealize.ShloMosaic.Lib.ValueIdx

noncomputable section

namespace Cert.Spec

open Idealize.ShloMosaic

/-- The degree guard 1e-8, as its f32 word. -/
abbrev epsDeg : EReal := Ideal.ofBits .f32 0x322BCC77#32
/-- The literal 1. -/
abbrev one : EReal := Ideal.ofBits .f32 0x3F800000#32
/-- The feature count 128. -/
abbrev c128 : EReal := Ideal.ofBits .f32 0x43000000#32
/-- The layer norm's guard 1e-5, as its f32 word. -/
abbrev epsLn : EReal := Ideal.ofBits .f32 0x3727C5AC#32

variable (x : Fin 32768 → Fin 128 → EReal) (H : Fin 32768 → Fin 8192 → EReal)
  (W : Fin 128 → Fin 128 → EReal) (b γ β : Fin 128 → EReal)

/-- Node degree: the sum of a row of the incidence matrix. -/
def dv (n : Fin 32768) : EReal := ∑ e : Fin 8192, H n e
/-- Hyperedge degree: the sum of a column of the incidence matrix. -/
def de (e : Fin 8192) : EReal := ∑ n : Fin 32768, H n e
/-- 1 / (√dv + ε). -/
def sInv (n : Fin 32768) : EReal := Ideal.div one (Ideal.sqrt (dv H n) + epsDeg)
/-- 1 / (de + ε). -/
def deInv (e : Fin 8192) : EReal := Ideal.div one (de H e + epsDeg)
/-- Hᵀ · (s ⊙ x). -/
def m2 (e : Fin 8192) (d : Fin 128) : EReal := ∑ n : Fin 32768, H n e * (sInv H n * x n d)
/-- The hyperedge features, scaled by the inverse hyperedge degree. -/
def m3 (e : Fin 8192) (d : Fin 128) : EReal := deInv H e * m2 x H e d
/-- H · m3. -/
def m4 (n : Fin 32768) (d : Fin 128) : EReal := ∑ e : Fin 8192, H n e * m3 x H e d
/-- The propagated node features. -/
def m5 (n : Fin 32768) (d : Fin 128) : EReal := sInv H n * m4 x H n d
/-- The linear layer. -/
def lin (n : Fin 32768) (o : Fin 128) : EReal := (∑ d : Fin 128, m5 x H n d * W o d) + b o
/-- ReLU. -/
def act (n : Fin 32768) (o : Fin 128) : EReal := max (lin x H W b n o) 0
/-- The mean over the features. -/
def mu (n : Fin 32768) : EReal := Ideal.div (∑ o : Fin 128, act x H W b n o) c128
/-- The centred activation. -/
def diff (n : Fin 32768) (o : Fin 128) : EReal := act x H W b n o - mu x H W b n
/-- The variance over the features. -/
def var (n : Fin 32768) : EReal := Ideal.div (∑ o : Fin 128, diff x H W b n o * diff x H W b n o) c128
/-- The layer's output. -/
def out (n : Fin 32768) (o : Fin 128) : EReal :=
  Ideal.div (γ o * diff x H W b n o) (Ideal.sqrt (var x H W b n + epsLn)) + β o

/-- The layer's output as one array of the argument arrays: every argument read at the index built from its
    coordinates, the result at the coordinates of the index asked for. Both programs' results are shown to be this. -/
def outArr (a0 : (⟨2, ![32768, 128]⟩ : Shape).Idx → EReal) (a1 : (⟨2, ![32768, 8192]⟩ : Shape).Idx → EReal)
    (a2 : (⟨2, ![128, 128]⟩ : Shape).Idx → EReal) (a3 a4 a5 : (⟨1, ![128]⟩ : Shape).Idx → EReal) :
    (⟨2, ![32768, 128]⟩ : Shape).Idx → EReal :=
  fun i => out (fun n d => a0 (ValueIdx.ix2 n d)) (fun n e => a1 (ValueIdx.ix2 n e)) (fun o d => a2 (ValueIdx.ix2 o d))
    (fun o => a3 (ValueIdx.ix1 o)) (fun o => a4 (ValueIdx.ix1 o)) (fun o => a5 (ValueIdx.ix1 o)) (i 0) (i 1)

end Cert.Spec

end
-- ==== Proof.SpecRow.lean ====
/-
  The two kernels' arithmetic in the kernels' own order of operations, one output row and one block of rows at a time,
  over the extended reals — the targets the kernels' stored values are read against.

  A block of 256 rows contributes to hyperedge e its column sum (the degree part) and, to hyperedge e and feature d, the
  sum over its rows of H r e · (s r · x r d), s r = 1 / (√(row sum) + ε) (the feature part).
  One output row, from its row h of the incidence matrix and the hyperedge features m:
    s = 1 / (√(Σ_e h e) + ε₁),  m5 d = (Σ_e h e · m e d) · s,  lin o = Σ_d m5 d · W o d + b o,  act = max lin 0,
    μ = (Σ_o act o) / 128,  δ o = act o − μ,  var = (Σ_o δ o · δ o) / 128,
    row o = (γ o · δ o) · rsqrt (var + ε₂) + β o.
  Against the specification the differences are a commuted product and the reciprocal root in place of a quotient by
  the root; the variance is a sum of squares over 128, so the root's argument is positive and the two agree.
-/
import proofs.«146282_j40922448396916_2_alg».proof.Proof.Spec

noncomputable section

namespace Cert.Spec

open Idealize.ShloMosaic

/-! ## A block of rows' contributions (the first kernel) -/

section Block
variable (hb : Fin 256 → Fin 8192 → EReal) (xb : Fin 256 → Fin 128 → EReal)

/-- The block's column sums. -/
def bDeg (e : Fin 8192) : EReal := ∑ r : Fin 256, hb r e
/-- The block's rows gathered into hyperedge `e`, feature `d`, each scaled by its inverse root degree. -/
def bFeat (e : Fin 8192) (d : Fin 128) : EReal :=
  ∑ r : Fin 256, hb r e * (Ideal.div one (Ideal.sqrt (∑ e' : Fin 8192, hb r e') + epsDeg) * xb r d)

end Block

/-! ## One output row (the second kernel) -/

section Row
variable (h : Fin 8192 → EReal) (m : Fin 8192 → Fin 128 → EReal) (W : Fin 128 → Fin 128 → EReal) (b γ β : Fin 128 → EReal)

/-- The row's inverse root degree. -/
def rS : EReal := Ideal.div one (Ideal.sqrt (∑ e : Fin 8192, h e) + epsDeg)
/-- The row propagated through the hyperedges, then scaled. -/
def rM5 (d : Fin 128) : EReal := (∑ e : Fin 8192, h e * m e d) * rS h
/-- The linear layer. -/
def rLin (o : Fin 128) : EReal := (∑ d : Fin 128, rM5 h m d * W o d) + b o
/-- ReLU. -/
def rAct (o : Fin 128) : EReal := max (rLin h m W b o) 0
/-- The row's mean. -/
def rMu : EReal := Ideal.div (∑ o : Fin 128, rAct h m W b o) c128
/-- The centred row. -/
def rDiff (o : Fin 128) : EReal := rAct h m W b o - rMu h m W b
/-- The row's variance. -/
def rVar : EReal := Ideal.div (∑ o : Fin 128, rDiff h m W b o * rDiff h m W b o) c128
/-- The row of the output, with the reciprocal root. -/
def rowK (o : Fin 128) : EReal := (γ o * rDiff h m W b o) * Ideal.rsqrt (rVar h m W b + epsLn) + β o

end Row

end Cert.Spec

end
-- ==== Proof.LibColumn.lean ====
/-
  A column kept beside a matrix, read at an index at any sizes: a vector of length a cast to an [a, 1] column, and an
  [a, 1] column laid along every column of an [a, b] matrix.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowOps.lean ====
/-
  The vector-unit operations a row-wise kernel body is made of, read at an index, at any sizes: the sum along the
  rows of a matrix, the grand total of a one-row matrix taken out as a scalar, and the row of a matrix that a
  unit-stride rectangle of one row loads.
-/
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws
import proofs.«146282_j40922448396916_2_alg».proof.Proof.LibColumn

noncomputable section

namespace Cert.LibRowOps

open Idealize.ShloMosaic Idealize.ShloMosaic.ValueIdx

/-- The sum along axis 1 of an `[a, b]` matrix from a zero accumulator, read at row `p`: the sum of the row's entries. -/
theorem rowSums_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  show ∑ k : Fin b, v (h.lift (ix1 p) k) = _
  refine Finset.sum_congr rfl fun k _ => congrArg v ?_
  funext d
  match d with
  | ⟨0, _⟩ => rfl
  | ⟨1, _⟩ => rfl

/-- The same sum kept as a column `[a, 1]`, read at `(p, u)`. -/
theorem rowSums_column_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (p : Fin a) (u : Fin 1) :
    shapeCast ⟨2, ![a, 1]⟩ (multiReduction .add [1] ⟨1, ![a]⟩ v 0x00000000#32 h hφ hacc) hc (ix2 p u)
      = ∑ k : Fin b, v (ix2 p k) :=
  (Cert.LibColumn.shapeCast_a_a1_apply _ hc p u).trans (rowSums_apply v h hφ hacc p)

/-- The grand total of a one-row matrix `[1, b]`: summed along its row into `[1]`, cast to `[1, 1]` and taken out
    as a scalar, it is the sum of the row's entries. -/
theorem rowTotal_extract {b : ℕ} (u : FVec Ideal ⟨2, ![1, b]⟩ .f32)
    (h : (⟨2, ![1, b]⟩ : Shape).Reduces [1] ⟨1, ![1]⟩) (hφ : FKind.Formats .f32)
    (hacc : (0x00000000#32 : BitVec 32) = 0x00000000#32) (hc : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩ (multiReduction .add [1] ⟨1, ![1]⟩ u 0x00000000#32 h hφ hacc) hc) hp
      = ∑ k : Fin b, u (ix2 (0 : Fin 1) k) := by
  have e : (fun a => ⟨(![0, 0] : Fin 2 → Nat) a, hp a⟩ : (⟨2, ![1, 1]⟩ : Shape).Idx) = ix2 (0 : Fin 1) (0 : Fin 1) :=
    funext fun d => match d with | ⟨0, _⟩ => rfl | ⟨1, _⟩ => rfl
  unfold extractAt
  rw [e]
  exact rowSums_column_apply u h hφ hacc hc 0 0

/-- What the unit-stride rectangle at `(l, 0)` of extent `[1, b]` loads of an `[n, b]` matrix: its row `l`. -/
theorem ld_row_eq {Val : EltTy → Type} {e : EltTy} {n b : ℕ} (x : (⟨2, ![n, b]⟩ : Shape).Idx → Val e) (l : ℕ)
    (inb : ∀ a, (![l, 0] : Fin 2 → Nat) a + (![1, b] : Fin 2 → Nat) a ≤ (⟨2, ![n, b]⟩ : Shape).size a) :
    View.ld x (Rect.unit (s := ⟨2, ![n, b]⟩) ![l, 0] ![1, b] inb)
      = fun i => x (ix2 (⟨l, Nat.lt_of_succ_le (inb 0)⟩ : Fin n) (⟨(i 1).val, (i 1).isLt⟩ : Fin b)) := by
  funext i
  show x ((Rect.unit (s := ⟨2, ![n, b]⟩) ![l, 0] ![1, b] inb).idx i) = _
  refine congrArg x (funext fun d => ?_)
  have h0 : (i 0).val < 1 := (i 0).isLt
  match d with
  | ⟨0, _⟩ => exact Fin.ext (by show l + 1 * (i 0).val = l; omega)
  | ⟨1, _⟩ => exact Fin.ext (by show 0 + 1 * (i 1).val = (i 1).val; omega)

/-- A vector `w` laid along every row of an `[a, b]` matrix `x`, multiplied into it entry by entry and summed along
    the rows, kept as a column: entry `(p, u)` is  Σ_k w k · x (p, k). -/
theorem weightedRowSums_column_apply {a b : ℕ} (w : FVec Ideal ⟨1, ![b]⟩ .f32) (x : FVec Ideal ⟨2, ![a, b]⟩ .f32)
    (h1 : (⟨1, ![b]⟩ : Shape).ShapeCasts ⟨2, ![1, b]⟩) (h2 : (⟨2, ![1, b]⟩ : Shape).Broadcasts ⟨2, ![a, b]⟩)
    (h : (⟨2, ![a, b]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (p : Fin a) (u : Fin 1) :
    shapeCast ⟨2, ![a, 1]⟩ (multiReduction .add [1] ⟨1, ![a]⟩
        (mulf (broadcastTo ⟨2, ![a, b]⟩ (shapeCast ⟨2, ![1, b]⟩ w h1) h2) x) 0x00000000#32 h hφ hacc) hc (ix2 p u)
      = ∑ k : Fin b, w (ix1 k) * x (ix2 p k) := by
  refine (rowSums_column_apply _ h hφ hacc hc p u).trans (Finset.sum_congr rfl fun k _ => ?_)
  show broadcastTo ⟨2, ![a, b]⟩ (shapeCast ⟨2, ![1, b]⟩ w h1) h2 (ix2 p k) * x (ix2 p k) = _
  rw [broadcastTo_1b_ab_apply, shapeCast_a_1a_apply]

/-- The grand total of a vector: laid out as one row, summed, cast to `[1, 1]` and taken out as a scalar. -/
theorem vecTotal_extract {b : ℕ} (v : FVec Ideal ⟨1, ![b]⟩ .f32) (h1 : (⟨1, ![b]⟩ : Shape).ShapeCasts ⟨2, ![1, b]⟩)
    (h : (⟨2, ![1, b]⟩ : Shape).Reduces [1] ⟨1, ![1]⟩) (hφ : FKind.Formats .f32)
    (hacc : (0x00000000#32 : BitVec 32) = 0x00000000#32) (hc : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩
        (multiReduction .add [1] ⟨1, ![1]⟩ (shapeCast ⟨2, ![1, b]⟩ v h1) 0x00000000#32 h hφ hacc) hc) hp
      = ∑ k : Fin b, v (ix1 k) := by
  refine (rowTotal_extract _ h hφ hacc hc hp).trans (Finset.sum_congr rfl fun k _ => ?_)
  exact shapeCast_a_1a_apply v h1 0 k

end Cert.LibRowOps

end
-- ==== Proof.KiPay0.lean ====
/-
  The first kernel's four stored values, read at an index over the extended reals.

  One grid point holds a block of 256 rows of the incidence matrix, h (256 × 8192), and the same rows of the node
  features, x (256 × 128).  Its body forms
    the column sums of h:  Σ_r h r e  (a reduction along axis 0, kept as a 1 × 8192 row), and
    the contraction over the rows  Σ_r h r e · (s r · x r d),  s r = 1 / (√(Σ_e' h r e') + ε),
  where s is a column (the row sums kept as 256 × 1, the root, the guard and the quotient taken entry by entry) laid
  along the features, the change of float format before the contraction is the identity, and the contraction runs
  over axis 0 of both operands into a zero accumulator.  The first visit of an output block stores these two values
  (with a leading unit axis added); a later visit adds them to what the block holds.
-/
import proofs.«146282_j40922448396916_2_alg».proof.Proof.Gen.KernelIdeal.Skeleton
import proofs.«146282_j40922448396916_2_alg».proof.Proof.SpecRow
import proofs.«146282_j40922448396916_2_alg».proof.Proof.LibRowOps
import proofs.«146282_j40922448396916_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The sum along axis 0 of an [a, b] matrix from a zero accumulator, read at column q: the sum of the column's
    entries. -/
theorem colSums_apply {a b : ℕ} (v : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ v 0x00000000#32 h hφ hacc (ix1 q) = ∑ r : Fin a, v (ix2 r q) := by
  refine (Ideal.multiReduction_add_single v 0x00000000#32 h hφ hacc (ix1 q)).trans ?_
  show ∑ r : Fin a, v (h.lift (ix1 q) r) = _
  refine Finset.sum_congr rfl fun r _ => congrArg v ?_
  funext d
  match d with
  | ⟨0, _⟩ => rfl
  | ⟨1, _⟩ => rfl

/-- The block's column sums, kept as a row. -/
theorem pay1_apply (x0 : Vec Ideal S256x8192 .f32) (z : Fin 1) (e : Fin 8192) :
    k0_pay1 x0 (ix2 z e) = Cert.Spec.bDeg (fun r e => x0 (ix2 r e)) e := by
  unfold k0_pay1
  refine (shapeCast_a_1a_apply _ _ z e).trans ?_
  exact colSums_apply x0 _ _ _ e

/-- The contraction's left operand index: the contraction coordinate on axis 0. -/
theorem lhs_pay2_0 (i : S8192x128.Idx) (q : dot_S256x8192_S256x128_S8192x128_0_0_1_1_n_n.contr.Idx) :
    (dot_S256x8192_S256x128_S8192x128_0_0_1_1_n_n.lhsIdx i q 0).val = (q ⟨0, by decide⟩).val :=
  dot_S256x8192_S256x128_S8192x128_0_0_1_1_n_n.lhsIdx_val_of_single rfl i q
/-- The contraction's left operand index: the result's first coordinate on axis 1. -/
theorem lhs_pay2_1 (i : S8192x128.Idx) (q : dot_S256x8192_S256x128_S8192x128_0_0_1_1_n_n.contr.Idx) :
    (dot_S256x8192_S256x128_S8192x128_0_0_1_1_n_n.lhsIdx i q 1).val = (i 0).val := by
  unfold DotDims.lhsIdx
  rw [dif_neg (show ¬(1 : Fin S256x8192.rank) ∈ dot_S256x8192_S256x128_S8192x128_0_0_1_1_n_n.lhsBatch by decide),
    dif_pos (show (1 : Fin S256x8192.rank) ∈ dot_S256x8192_S256x128_S8192x128_0_0_1_1_n_n.lhsNonContracting by decide)]
  rfl
/-- The contraction's right operand index: the contraction coordinate on axis 0. -/
theorem rhs_pay2_0 (i : S8192x128.Idx) (q : dot_S256x8192_S256x128_S8192x128_0_0_1_1_n_n.contr.Idx) :
    (dot_S256x8192_S256x128_S8192x128_0_0_1_1_n_n.rhsIdx i q 0).val = (q ⟨0, by decide⟩).val :=
  dot_S256x8192_S256x128_S8192x128_0_0_1_1_n_n.rhsIdx_val_of_single rfl i q
/-- The contraction's right operand index: the result's second coordinate on axis 1. -/
theorem rhs_pay2_1 (i : S8192x128.Idx) (q : dot_S256x8192_S256x128_S8192x128_0_0_1_1_n_n.contr.Idx) :
    (dot_S256x8192_S256x128_S8192x128_0_0_1_1_n_n.rhsIdx i q 1).val = (i 1).val := by
  unfold DotDims.rhsIdx
  rw [dif_neg (show ¬(1 : Fin S256x128.rank) ∈ dot_S256x8192_S256x128_S8192x128_0_0_1_1_n_n.rhsBatch by decide),
    dif_pos (show (1 : Fin S256x128.rank) ∈ dot_S256x8192_S256x128_S8192x128_0_0_1_1_n_n.rhsNonContracting by decide)]
  rfl

/-- The block's rows gathered into hyperedge e, feature d. -/
theorem pay2_apply (x0 : Vec Ideal S256x8192 .f32) (x1 : Vec Ideal S256x128 .f32) (e : Fin 8192) (d : Fin 128) :
    k0_pay2 x0 x1 (ix2 e d) = Cert.Spec.bFeat (fun r e => x0 (ix2 r e)) (fun r d => x1 (ix2 r d)) e d := by
  unfold k0_pay2
  refine (Ideal.matmul_constant_zero_apply dot_S256x8192_S256x128_S8192x128_0_0_1_1_n_n none _ _ (ix2 e d)).trans ?_
  rw [← Equiv.sum_comp (contrEquiv1 dot_S256x8192_S256x128_S8192x128_0_0_1_1_n_n 256 rfl rfl).symm]
  unfold Cert.Spec.bFeat
  refine Finset.sum_congr rfl fun k _ => ?_
  have hk := contrEquiv1_symm_val dot_S256x8192_S256x128_S8192x128_0_0_1_1_n_n 256 rfl rfl k
  have el : dot_S256x8192_S256x128_S8192x128_0_0_1_1_n_n.lhsIdx (ix2 e d)
      ((contrEquiv1 dot_S256x8192_S256x128_S8192x128_0_0_1_1_n_n 256 rfl rfl).symm k) = ix2 k e :=
    funext fun a => Fin.ext (by
      match a with
      | ⟨0, _⟩ => exact (lhs_pay2_0 _ _).trans hk
      | ⟨1, _⟩ => exact lhs_pay2_1 _ _)
  have er : dot_S256x8192_S256x128_S8192x128_0_0_1_1_n_n.rhsIdx (ix2 e d)
      ((contrEquiv1 dot_S256x8192_S256x128_S8192x128_0_0_1_1_n_n 256 rfl rfl).symm k) = ix2 k d :=
    funext fun a => Fin.ext (by
      match a with
      | ⟨0, _⟩ => exact (rhs_pay2_0 _ _).trans hk
      | ⟨1, _⟩ => exact rhs_pay2_1 _ _)
  rw [el, er]
  show x0 (ix2 k e) * (broadcastTo S256x128 _ _ (ix2 k d) * x1 (ix2 k d)) = _
  rw [Cert.LibColumn.broadcastTo_a1_ab_apply]
  show x0 (ix2 k e) * (Ideal.div (Ideal.ofBits .f32 0x3F800000#32)
      (Ideal.sqrt (shapeCast S256x1 _ _ (ix2 k (0 : Fin 1))) + Ideal.ofBits .f32 0x322BCC77#32) * x1 (ix2 k d)) = _
  rw [Cert.LibRowOps.rowSums_column_apply]

/-- The first visit's feature block. -/
theorem pay3_apply (x0 : Vec Ideal S256x8192 .f32) (x1 : Vec Ideal S256x128 .f32) (z : Fin 1) (e : Fin 8192) (d : Fin 128) :
    k0_pay3 x0 x1 (ix3 z e d) = Cert.Spec.bFeat (fun r e => x0 (ix2 r e)) (fun r d => x1 (ix2 r d)) e d := by
  unfold k0_pay3
  refine (shapeCast_ab_1ab_apply _ _ z e d).trans ?_
  exact pay2_apply x0 x1 e d

/-- The first visit's degree block. -/
theorem pay4_apply (x0 : Vec Ideal S256x8192 .f32) (z z' : Fin 1) (e : Fin 8192) :
    k0_pay4 x0 (ix3 z z' e) = Cert.Spec.bDeg (fun r e => x0 (ix2 r e)) e := by
  unfold k0_pay4
  refine (shapeCast_ab_1ab_apply _ _ z z' e).trans ?_
  exact pay1_apply x0 z' e

/-- A later visit's feature block: what the block holds plus this block of rows' contribution. -/
theorem pay5_apply (x0 : Vec Ideal S256x8192 .f32) (x1 : Vec Ideal S256x128 .f32) (xm : Vec Ideal S1x8192x128 .f32)
    (z : Fin 1) (e : Fin 8192) (d : Fin 128) :
    k0_pay5 x0 x1 xm (ix3 z e d)
      = xm (ix3 z e d) + Cert.Spec.bFeat (fun r e => x0 (ix2 r e)) (fun r d => x1 (ix2 r d)) e d := by
  unfold k0_pay5
  show shapeCast S1x8192x128 xm _ (ix3 z e d) + k0_pay3 x0 x1 (ix3 z e d) = _
  rw [shapeCast_self, pay3_apply]

/-- A later visit's degree block: what the block holds plus this block of rows' column sums. -/
theorem pay6_apply (x0 : Vec Ideal S256x8192 .f32) (xd : Vec Ideal S1x1x8192 .f32) (z z' : Fin 1) (e : Fin 8192) :
    k0_pay6 x0 xd (ix3 z z' e) = xd (ix3 z z' e) + Cert.Spec.bDeg (fun r e => x0 (ix2 r e)) e := by
  unfold k0_pay6
  show shapeCast S1x1x8192 xd _ (ix3 z z' e) + k0_pay4 x0 (ix3 z z' e) = _
  rw [shapeCast_self, pay4_apply]

end Cert.KernelIdeal.Hand

end
-- ==== Proof.LibErealLaws.lean ====
/- General laws of the extended reals `[-∞, +∞]` and of finite sums, stated over the
   idealized float operations (`Ideal.div`, `Ideal.sqrt`, `Ideal.rsqrt`, `Ideal.ofBits`). Nothing here
   mentions a program: the laws are about extended reals, finite index types and additive commutative
   monoids only.

   Contents:
   * a product with a reciprocal square root is a quotient by the square root, for a positive argument
     (at `+∞` both sides are `0`);
   * a square is nonnegative at every extended real (`(-∞)·(-∞) = +∞`), hence so is a sum of squares;
   * the float words `0x43000000` and `0x3727C5AC` denote the reals `128` and `10995116 · 2⁻⁴⁰`
     (about `1e-5`), both positive; dividing a nonnegative extended real by a positive real keeps it
     nonnegative, adding a positive real to it makes it positive;
   * a sum over `Fin (A * B)` is a sum over `A` blocks of `B` consecutive indices, and the same on
     three levels;
   * a running total defined by a recurrence is the sum over an initial segment, and a sum over
     `Finset.range N` is the sum over `Fin N`. -/
import Idealize.ShloMosaic.PureOps.Ideal
import Mathlib.Algebra.BigOperators.Fin
import Mathlib.Algebra.Order.BigOperators.Group.Finset

noncomputable section

namespace Cert.LibErealLaws

open Idealize.ShloMosaic
open scoped BigOperators

/-! ### Reciprocal square root -/

/-- For `0 < v` in the extended reals, `a · (1/√v) = a / √v`. At `v = +∞` the reciprocal square root
    is `0` and the square root is `+∞`, whose inverse is `0`: both sides are `a · 0 = 0`. At a positive
    real `r` the square root `√r` is a nonzero real, division by it is the product with its inverse,
    and the inverse of a real in the extended reals is the real inverse. -/
theorem mul_rsqrt_eq_div_sqrt {a v : EReal} (hv : 0 < v) :
    a * Ideal.rsqrt v = Ideal.div a (Ideal.sqrt v) := by
  induction v using EReal.rec with
  | bot => exact absurd hv (not_lt.mpr bot_le)
  | top =>
    rw [Ideal.rsqrt_top, Ideal.sqrt_top, Ideal.div, if_neg EReal.top_ne_zero, EReal.inv_top]
  | coe r =>
    have hr : 0 < r := by exact_mod_cast hv
    have hs : Real.sqrt r ≠ 0 := (Real.sqrt_pos.mpr hr).ne'
    have hs' : ((Real.sqrt r : ℝ) : EReal) ≠ 0 := by exact_mod_cast hs
    rw [Ideal.rsqrt_coe, if_neg (not_lt.mpr hr.le), if_neg hr.ne', Ideal.sqrt_coe,
      if_neg (not_lt.mpr hr.le), Ideal.div, if_neg hs', EReal.coe_inv]

/-! ### Squares and sums of squares -/

/-- A square is nonnegative at every extended real: `(+∞)² = (-∞)² = +∞`, and a real square is
    nonnegative. (Both factors are on the same side of `0`.) -/
theorem mul_self_nonneg (x : EReal) : 0 ≤ x * x :=
  EReal.mul_nonneg_iff.mpr ((le_total 0 x).imp (fun h => ⟨h, h⟩) (fun h => ⟨h, h⟩))

/-- A finite sum of squares of extended reals is nonnegative. -/
theorem sum_mul_self_nonneg {ι : Type*} (s : Finset ι) (g : ι → EReal) :
    0 ≤ ∑ i ∈ s, g i * g i :=
  Finset.sum_nonneg fun i _ => mul_self_nonneg (g i)

/-! ### Division by a positive real, addition of a positive real -/

/-- Dividing a nonnegative extended real by a positive real leaves it nonnegative: the quotient is
    the product with the positive real `1/y`. -/
theorem div_coe_nonneg {x : EReal} {y : ℝ} (hx : 0 ≤ x) (hy : 0 < y) :
    0 ≤ Ideal.div x (y : EReal) := by
  rw [Ideal.div_coe hy.ne']
  exact EReal.mul_nonneg hx (by exact_mod_cast (one_div_pos.mpr hy).le)

/-- Adding a positive real to a nonnegative extended real gives a positive one:
    `0 < ε = 0 + ε ≤ x + ε`. -/
theorem add_coe_pos {x : EReal} {ε : ℝ} (hx : 0 ≤ x) (hε : 0 < ε) : 0 < x + (ε : EReal) := by
  have h : (0 : EReal) + (ε : EReal) ≤ x + (ε : EReal) := add_le_add hx le_rfl
  rw [zero_add] at h
  exact lt_of_lt_of_le (by exact_mod_cast hε) h

/-! ### Two float words -/

/-- The `f32` word `0x43000000` (sign `0`, exponent field `134`, fraction `0`) denotes
    `2²³ · 2^(134 - 127 - 23) = 128`. -/
theorem ofBits_c128 : Ideal.ofBits .f32 0x43000000#32 = ((128 : ℝ) : EReal) := by
  simp [Ideal.ofBits, Ideal.ieee, -EReal.coe_mul]; norm_num

/-- The `f32` word `0x3727C5AC` (sign `0`, exponent field `110`, fraction `0x27C5AC = 2606508`)
    denotes `(2²³ + 2606508) · 2^(110 - 127 - 23) = 10995116 · 2⁻⁴⁰`, about `1.0000000e-5`. -/
theorem ofBits_epsLn :
    Ideal.ofBits .f32 0x3727C5AC#32 = ((10995116 * (2 : ℝ) ^ (-40 : ℤ) : ℝ) : EReal) := by
  simp [Ideal.ofBits, Ideal.ieee, -EReal.coe_mul]

/-- The word `0x3727C5AC` denotes a positive real. -/
theorem ofBits_epsLn_pos :
    ∃ ε : ℝ, 0 < ε ∧ Ideal.ofBits .f32 0x3727C5AC#32 = (ε : EReal) :=
  ⟨10995116 * (2 : ℝ) ^ (-40 : ℤ), by positivity, ofBits_epsLn⟩

/-- A nonnegative extended real divided by the float `128.0` is nonnegative. -/
theorem div_c128_nonneg {x : EReal} (hx : 0 ≤ x) :
    0 ≤ Ideal.div x (Ideal.ofBits .f32 0x43000000#32) := by
  rw [ofBits_c128]; exact div_coe_nonneg hx (by norm_num)

/-- A nonnegative extended real plus the float `0x3727C5AC` (about `1e-5`) is positive. -/
theorem add_epsLn_pos {x : EReal} (hx : 0 ≤ x) :
    0 < x + Ideal.ofBits .f32 0x3727C5AC#32 := by
  obtain ⟨ε, hε, he⟩ := ofBits_epsLn_pos
  rw [he]; exact add_coe_pos hx hε

/-- The guarded mean of squares `(∑ i, g i · g i) / 128 + ε` (with `ε` the float `0x3727C5AC`) is
    positive, whatever the extended reals `g i` are: the sum of squares is nonnegative, so is its
    quotient by `128`, and adding the positive real `ε` makes it positive. -/
theorem var_guard_pos {ι : Type*} [Fintype ι] (g : ι → EReal) :
    0 < Ideal.div (∑ i, g i * g i) (Ideal.ofBits .f32 0x43000000#32)
      + Ideal.ofBits .f32 0x3727C5AC#32 :=
  add_epsLn_pos (div_c128_nonneg (sum_mul_self_nonneg Finset.univ g))

/-! ### Regrouping a sum into blocks -/

section Blocks
variable {M : Type*} [AddCommMonoid M]

/-- Index `a · B + b` of block `a < A`, offset `b < B`, lies below `A · B`. -/
theorem block_index_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right _ a.isLt

/-- A sum over `Fin (A * B)` is the sum over the `A` blocks of the sums over the `B` consecutive
    indices `a · B + b` of each block: `(a, b) ↦ a · B + b` is a bijection from `Fin A × Fin B` onto
    `Fin (A * B)`, and addition is commutative and associative. -/
theorem sum_fin_blocks (A B : ℕ) (f : Fin (A * B) → M) :
    ∑ n, f n = ∑ a : Fin A, ∑ b : Fin B, f ⟨a.val * B + b.val, block_index_lt a b⟩ := by
  rw [← Equiv.sum_comp finProdFinEquiv f, Fintype.sum_prod_type]
  refine Finset.sum_congr rfl fun a _ => Finset.sum_congr rfl fun b _ => ?_
  congr 1
  apply Fin.ext
  show b.val + B * a.val = a.val * B + b.val
  rw [Nat.mul_comm, Nat.add_comm]

/-- Index `(a · B + b) · C + c` lies below `A · B · C`. -/
theorem block_index_lt3 {A B C : ℕ} (a : Fin A) (b : Fin B) (c : Fin C) :
    (a.val * B + b.val) * C + c.val < A * B * C :=
  block_index_lt (⟨a.val * B + b.val, block_index_lt a b⟩ : Fin (A * B)) c

/-- The same on three levels: a sum over `Fin (A * B * C)` is the sum over `a < A`, `b < B`,
    `c < C` of the term at `(a · B + b) · C + c`. -/
theorem sum_fin_blocks3 (A B C : ℕ) (f : Fin (A * B * C) → M) :
    ∑ n, f n = ∑ a : Fin A, ∑ b : Fin B, ∑ c : Fin C,
      f ⟨(a.val * B + b.val) * C + c.val, block_index_lt3 a b c⟩ := by
  rw [sum_fin_blocks (A * B) C f,
    sum_fin_blocks A B (fun n : Fin (A * B) => ∑ c : Fin C, f ⟨n.val * C + c.val, block_index_lt n c⟩)]

/-- `32768 = 2 · 64 · 256` rows as `2` halves of `64` groups of `256` consecutive rows. -/
theorem sum_rows_2_64_256 (f : Fin 32768 → M) :
    ∑ n, f n = ∑ c : Fin 2, ∑ i : Fin 64, ∑ r : Fin 256,
      f ⟨(c.val * 64 + i.val) * 256 + r.val, by omega⟩ :=
  sum_fin_blocks3 2 64 256 f

end Blocks

/-! ### A running total is a sum -/

section Fold
variable {M : Type*} [AddCommMonoid M]

/-- A sequence that starts at `p 0` and adds `p (n + 1)` at step `n + 1` is the sequence of partial
    sums `∑ i ≤ n, p i`. -/
theorem fold_eq_sum (p acc : ℕ → M) (h0 : acc 0 = p 0)
    (hs : ∀ n, acc (n + 1) = acc n + p (n + 1)) (n : ℕ) :
    acc n = ∑ i ∈ Finset.range (n + 1), p i := by
  induction n with
  | zero => rw [h0, Finset.sum_range_one]
  | succ k ih => rw [hs k, ih, Finset.sum_range_succ p (k + 1)]

/-- A sum over the first `N` naturals is the sum over `Fin N` of the values. -/
theorem sum_range_eq_sum_fin (N : ℕ) (p : ℕ → M) :
    ∑ i ∈ Finset.range N, p i = ∑ i : Fin N, p i.val :=
  (Fin.sum_univ_eq_sum_range p N).symm

end Fold

end Cert.LibErealLaws

end
-- ==== Proof.KiValue0.lean ====
/-
  What the first kernel's region leaves in its two output arrays, at the ideal instance, index by index.

  A sweep of 64 steps accumulates, per core, the 64 blocks' contributions: after step t of a sweep the accumulators hold
  the sum of the contributions of the sweep's blocks up to t (by induction on t, restarting at each sweep's first step).
  The accumulators are written back at a sweep's last step, into slab (t / 64) of the arrays; so slab s of the feature
  array holds Σ_{k<64} (block 64 s + k's gathered features) and slab s of the degree array Σ_{k<64} (block 64 s + k's
  column sums). Block t is rows 256 t … 256 t + 255 of the incidence matrix and of the node features.
-/
import proofs.«146282_j40922448396916_2_alg».proof.Proof.KiRun
import proofs.«146282_j40922448396916_2_alg».proof.Proof.KiPay0
import proofs.«146282_j40922448396916_2_alg».proof.Proof.LibErealLaws
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The accumulators' contents after one step, at an index -/

theorem firstM_apply (x0 : Vec Ideal S256x8192 .f32) (x1 : Vec Ideal S256x128 .f32) (z : Fin 1) (e : Fin 8192) (d : Fin 128) :
    firstM x0 x1 (ix3 z e d) = Cert.Spec.bFeat (fun r e' => x0 (ix2 r e')) (fun r d' => x1 (ix2 r d')) e d := by
  unfold firstM
  rw [View.canon_unit_zero hz3, View.ld_unit_zero (S := S256x8192) hz2, View.ld_unit_zero (S := S256x128) hz2]
  exact pay3_apply x0 x1 z e d

theorem firstD_apply (x0 : Vec Ideal S256x8192 .f32) (z z' : Fin 1) (e : Fin 8192) :
    firstD x0 (ix3 z z' e) = Cert.Spec.bDeg (fun r e' => x0 (ix2 r e')) e := by
  unfold firstD
  rw [View.canon_unit_zero hz3, View.ld_unit_zero (S := S256x8192) hz2]
  exact pay4_apply x0 z z' e

theorem laterM_apply (x0 : Vec Ideal S256x8192 .f32) (x1 : Vec Ideal S256x128 .f32) (xm : Vec Ideal S1x8192x128 .f32)
    (z : Fin 1) (e : Fin 8192) (d : Fin 128) :
    laterM x0 x1 xm (ix3 z e d) = xm (ix3 z e d) + Cert.Spec.bFeat (fun r e' => x0 (ix2 r e')) (fun r d' => x1 (ix2 r d')) e d := by
  unfold laterM
  rw [View.canon_unit_zero hz3, View.ld_unit_zero (S := S256x8192) hz2, View.ld_unit_zero (S := S256x128) hz2,
    View.ld_unit_zero (S := S1x8192x128) hz3]
  exact pay5_apply x0 x1 xm z e d

theorem laterD_apply (x0 : Vec Ideal S256x8192 .f32) (xd : Vec Ideal S1x1x8192 .f32) (z z' : Fin 1) (e : Fin 8192) :
    laterD x0 xd (ix3 z z' e) = xd (ix3 z z' e) + Cert.Spec.bDeg (fun r e' => x0 (ix2 r e')) e := by
  unfold laterD
  rw [View.canon_unit_zero hz3, View.ld_unit_zero (S := S256x8192) hz2, View.ld_unit_zero (S := S1x1x8192) hz3]
  exact pay6_apply x0 xd z z' e

section Region
variable (V : (c : Dev nD) → (b : Ref sig .tc) → Buf (Elt Ideal) ((c : Thread nD τ).loc b))

/-- Point `t`'s block of the incidence matrix, and of the node features. -/
abbrev blkH (c : Dev nD) (t : Fin cfg0.N) : Vec Ideal S256x8192 .f32 := iblk0 V c 0 t
abbrev blkX (c : Dev nD) (t : Fin cfg0.N) : Vec Ideal S256x128 .f32 := iblk0 V c 1 t

/-- Block `t'`'s gathered features at hyperedge `e`, feature `d` (zero past the grid). -/
def featOf (c : Dev nD) (e : Fin 8192) (d : Fin 128) (t' : ℕ) : EReal :=
  if h : t' < cfg0.N then
    Cert.Spec.bFeat (fun r e' => blkH V c ⟨t', h⟩ (ix2 r e')) (fun r d' => blkX V c ⟨t', h⟩ (ix2 r d')) e d
  else 0
/-- Block `t'`'s column sum at hyperedge `e` (zero past the grid). -/
def degOf (c : Dev nD) (e : Fin 8192) (t' : ℕ) : EReal :=
  if h : t' < cfg0.N then Cert.Spec.bDeg (fun r e' => blkH V c ⟨t', h⟩ (ix2 r e')) e else 0

theorem featOf_pos (c : Dev nD) (e : Fin 8192) (d : Fin 128) (t : Fin cfg0.N) :
    featOf V c e d t.val = Cert.Spec.bFeat (fun r e' => blkH V c t (ix2 r e')) (fun r d' => blkX V c t (ix2 r d')) e d := by
  unfold featOf; rw [dif_pos t.isLt]
theorem degOf_pos (c : Dev nD) (e : Fin 8192) (t : Fin cfg0.N) :
    degOf V c e t.val = Cert.Spec.bDeg (fun r e' => blkH V c t (ix2 r e')) e := by
  unfold degOf; rw [dif_pos t.isLt]

/-- At a sweep's first step the feature accumulator holds the block's gathered features. -/
theorem feat_first (c : Dev nD) (z : Fin 1) (e : Fin 8192) (d : Fin 128) (t : Fin cfg0.N) (h : t.val % 64 = 0) :
    (accAt V c t.val t.isLt).1 (ix3 z e d) = featOf V c e d t.val := by
  rw [accAt_first V c t h]
  dsimp only
  exact (firstM_apply (blkH V c t) (blkX V c t) z e d).trans (featOf_pos V c e d t).symm
/-- At a later step it holds what the step before left plus the block's gathered features. -/
theorem feat_later (c : Dev nD) (z : Fin 1) (e : Fin 8192) (d : Fin 128) (t : Fin cfg0.N) (h : ¬ t.val % 64 = 0) :
    (accAt V c t.val t.isLt).1 (ix3 z e d)
      = (accAt V c (t.val - 1) (Nat.lt_of_le_of_lt (Nat.sub_le _ _) t.isLt)).1 (ix3 z e d) + featOf V c e d t.val := by
  rw [accAt_later V c t h]
  dsimp only
  exact (laterM_apply (blkH V c t) (blkX V c t) _ z e d).trans (congrArg _ (featOf_pos V c e d t).symm)
theorem deg_first (c : Dev nD) (z z' : Fin 1) (e : Fin 8192) (t : Fin cfg0.N) (h : t.val % 64 = 0) :
    (accAt V c t.val t.isLt).2 (ix3 z z' e) = degOf V c e t.val := by
  rw [accAt_first V c t h]
  dsimp only
  exact (firstD_apply (blkH V c t) z z' e).trans (degOf_pos V c e t).symm
theorem deg_later (c : Dev nD) (z z' : Fin 1) (e : Fin 8192) (t : Fin cfg0.N) (h : ¬ t.val % 64 = 0) :
    (accAt V c t.val t.isLt).2 (ix3 z z' e)
      = (accAt V c (t.val - 1) (Nat.lt_of_le_of_lt (Nat.sub_le _ _) t.isLt)).2 (ix3 z z' e) + degOf V c e t.val := by
  rw [accAt_later V c t h]
  dsimp only
  exact (laterD_apply (blkH V c t) _ z z' e).trans (congrArg _ (degOf_pos V c e t).symm)

/-- After position `n` the feature accumulator holds the sum of the contributions of its sweep's blocks up to `n`. -/
theorem accAt_feat (c : Dev nD) (z : Fin 1) (e : Fin 8192) (d : Fin 128) : ∀ (n : ℕ) (hn : n < cfg0.N),
    (accAt V c n hn).1 (ix3 z e d) = ∑ k ∈ Finset.range (n % 64 + 1), featOf V c e d (n - n % 64 + k) := by
  intro n
  induction n with
  | zero =>
    intro hn
    rw [Nat.zero_mod, Nat.sub_zero, Finset.sum_range_one]
    exact feat_first V c z e d ⟨0, hn⟩ (Nat.zero_mod _)
  | succ n ih =>
    intro hn
    have hn' : n < cfg0.N := Nat.lt_of_succ_lt hn
    by_cases h : (n + 1) % 64 = 0
    · rw [h, Nat.sub_zero, Finset.sum_range_one]
      exact feat_first V c z e d ⟨n + 1, hn⟩ h
    · have h1 : (n + 1) % 64 = n % 64 + 1 := by omega
      have h2 : n + 1 - (n % 64 + 1) = n - n % 64 := by omega
      have h3 : n - n % 64 + (n % 64 + 1) = n + 1 := by omega
      rw [h1, h2, Finset.sum_range_succ _ (n % 64 + 1), h3, ← ih hn']
      exact feat_later V c z e d ⟨n + 1, hn⟩ h

/-- After position `n` the degree accumulator holds the sum of the column sums of its sweep's blocks up to `n`. -/
theorem accAt_deg (c : Dev nD) (z z' : Fin 1) (e : Fin 8192) : ∀ (n : ℕ) (hn : n < cfg0.N),
    (accAt V c n hn).2 (ix3 z z' e) = ∑ k ∈ Finset.range (n % 64 + 1), degOf V c e (n - n % 64 + k) := by
  intro n
  induction n with
  | zero =>
    intro hn
    rw [Nat.zero_mod, Nat.sub_zero, Finset.sum_range_one]
    exact deg_first V c z z' e ⟨0, hn⟩ (Nat.zero_mod _)
  | succ n ih =>
    intro hn
    have hn' : n < cfg0.N := Nat.lt_of_succ_lt hn
    by_cases h : (n + 1) % 64 = 0
    · rw [h, Nat.sub_zero, Finset.sum_range_one]
      exact deg_first V c z z' e ⟨n + 1, hn⟩ h
    · have h1 : (n + 1) % 64 = n % 64 + 1 := by omega
      have h2 : n + 1 - (n % 64 + 1) = n - n % 64 := by omega
      have h3 : n - n % 64 + (n % 64 + 1) = n + 1 := by omega
      rw [h1, h2, Finset.sum_range_succ _ (n % 64 + 1), h3, ← ih hn']
      exact deg_later V c z z' e ⟨n + 1, hn⟩ h

/-! ## The two arrays after the region -/

/-- The windows' block indices, decided over the grid: inputs move with the point, outputs with the sweep. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0 :=
  (by decide +kernel : ∀ t : Fin grid0.N, _)

/-- The feature array after the region: slab `s` is the sum of its sweep's 64 blocks' gathered features. -/
def featArr (c : Dev nD) : S2x8192x128.Idx → EReal :=
  fun i => ∑ k : Fin 64, featOf V c (i 1) (i 2) ((i 0).val * 64 + k.val)
/-- The degree array after the region: slab `s` is the sum of its sweep's 64 blocks' column sums. -/
def degArr (c : Dev nD) : S2x1x8192.Idx → EReal :=
  fun i => ∑ k : Fin 64, degOf V c (i 2) ((i 0).val * 64 + k.val)

theorem mem_blkM (t : Fin cfg0.N) (i : S2x8192x128.Idx) :
    i ∈ ((cfg0.win 2).blk t).view.set ↔ ∀ a : Fin 3, win0_2.index t a * S1x8192x128.size a ≤ (i a).val
      ∧ (i a).val < win0_2.index t a * S1x8192x128.size a + S1x8192x128.size a := by
  show i ∈ ((View.whole main_v3_0).slice (win0_2.rect t)).set ↔ _
  rw [View.set_slice_whole, Rect.mem_set_unit]
  exact Iff.rfl
theorem mem_blkD (t : Fin cfg0.N) (i : S2x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v3_1).slice (win0_3.rect t)).set ↔ _
  rw [View.set_slice_whole, Rect.mem_set_unit]
  exact Iff.rfl

/-- What a sweep's last step writes back is its slab of `featArr`. -/
theorem flushedM_eq (c : Dev nD) (t : Fin cfg0.N) (hf : (cfg0.win 2).flush t = true) :
    (dat0 V c).flushed 2 t = ((cfg0.win 2).blk t).view.read (Elt Ideal) (featArr V c) := by
  have h63 : t.val % 64 = 63 := (flush0_2 t).mp hf
  have hN : t.val < 128 := lt_of_lt_of_eq t.isLt (show cfg0.N = 128 from N_0)
  show (cfg0.win 2).cut (grid0.coords t) ((dat0 V c).after 2 t) = _
  rw [after0_2]
  funext j
  obtain ⟨z, e, d, rfl⟩ : ∃ (z : Fin 1) (e : Fin 8192) (d : Fin 128), j = ix3 z e d := ⟨j 0, j 1, j 2, eq_ix3 j⟩
  show (accAt V c t.val t.isLt).1 (ix3 z e d) = featArr V c (((cfg0.win 2).blk t).view.emb (ix3 z e d))
  obtain ⟨-, -, -, -, e4, e5, e6, -⟩ := idx0 t
  have hz : z.val = 0 := by omega
  have hemb : ((cfg0.win 2).blk t).view.emb (ix3 z e d) = ix3 (⟨t.val / 64, by omega⟩ : Fin 2) e d := by
    funext a; apply Fin.ext
    match a with
    | ⟨0, _⟩ => show win0_2.index t (0 : Fin 3) * 1 + 1 * z.val = t.val / 64; omega
    | ⟨1, _⟩ => show win0_2.index t (1 : Fin 3) * 8192 + 1 * e.val = e.val; omega
    | ⟨2, _⟩ => show win0_2.index t (2 : Fin 3) * 128 + 1 * d.val = d.val; omega
  rw [hemb, accAt_feat V c z e d t.val t.isLt, h63]
  show ∑ k ∈ Finset.range 64, featOf V c e d (t.val - 63 + k) = ∑ k : Fin 64, featOf V c e d (t.val / 64 * 64 + k.val)
  rw [Finset.sum_range]
  refine Finset.sum_congr rfl fun k _ => ?_
  rw [show t.val - 63 = t.val / 64 * 64 by omega]

/-- What a sweep's last step writes back is its slab of `degArr`. -/
theorem flushedD_eq (c : Dev nD) (t : Fin cfg0.N) (hf : (cfg0.win 3).flush t = true) :
    (dat0 V c).flushed 3 t = ((cfg0.win 3).blk t).view.read (Elt Ideal) (degArr V c) := by
  have h63 : t.val % 64 = 63 := (flush0_3 t).mp hf
  have hN : t.val < 128 := lt_of_lt_of_eq t.isLt (show cfg0.N = 128 from N_0)
  show (cfg0.win 3).cut (grid0.coords t) ((dat0 V c).after 3 t) = _
  rw [after0_3]
  funext j
  obtain ⟨z, z', e, rfl⟩ : ∃ (z : Fin 1) (z' : Fin 1) (e : Fin 8192), j = ix3 z z' e := ⟨j 0, j 1, j 2, eq_ix3 j⟩
  show (accAt V c t.val t.isLt).2 (ix3 z z' e) = degArr V c (((cfg0.win 3).blk t).view.emb (ix3 z z' e))
  obtain ⟨-, -, -, -, -, -, -, e7, e8, e9⟩ := idx0 t
  have hz : z.val = 0 := by omega
  have hz' : z'.val = 0 := by omega
  have hemb : ((cfg0.win 3).blk t).view.emb (ix3 z z' e) = ix3 (⟨t.val / 64, by omega⟩ : Fin 2) (0 : Fin 1) e := by
    funext a; apply Fin.ext
    match a with
    | ⟨0, _⟩ => show win0_3.index t (0 : Fin 3) * 1 + 1 * z.val = t.val / 64; omega
    | ⟨1, _⟩ => show win0_3.index t (1 : Fin 3) * 1 + 1 * z'.val = 0; omega
    | ⟨2, _⟩ => show win0_3.index t (2 : Fin 3) * 8192 + 1 * e.val = e.val; omega
  rw [hemb, accAt_deg V c z z' e t.val t.isLt, h63]
  show ∑ k ∈ Finset.range 64, degOf V c e (t.val - 63 + k) = ∑ k : Fin 64, degOf V c e (t.val / 64 * 64 + k.val)
  rw [Finset.sum_range]
  refine Finset.sum_congr rfl fun k _ => ?_
  rw [show t.val - 63 = t.val / 64 * 64 by omega]

/-- Every index of the feature array is in the block its sweep's last step writes back. -/
theorem tiledM (i : S2x8192x128.Idx) : ∃ t : Fin cfg0.N, (cfg0.win 2).flush t = true ∧ i ∈ ((cfg0.win 2).blk t).view.set := by
  have h0 : (i 0).val < 2 := (i 0).isLt
  have h1 : (i 1).val < 8192 := (i 1).isLt
  have h2 : (i 2).val < 128 := (i 2).isLt
  let t : Fin cfg0.N := ⟨(i 0).val * 64 + 63, by rw [show cfg0.N = 128 from N_0]; omega⟩
  have ht : t.val = (i 0).val * 64 + 63 := rfl
  refine ⟨t, (flush0_2 t).mpr (by omega), ?_⟩
  obtain ⟨-, -, -, -, e4, e5, e6, -⟩ := idx0 t
  rw [mem_blkM]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8192 ≤ (i 1).val ∧ (i 1).val < win0_2.index t (1 : Fin 3) * 8192 + 8192; omega
  | ⟨2, _⟩ => show win0_2.index t (2 : Fin 3) * 128 ≤ (i 2).val ∧ (i 2).val < win0_2.index t (2 : Fin 3) * 128 + 128; omega

theorem tiledD (i : S2x1x8192.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 8192 := (i 2).isLt
  let t : Fin cfg0.N := ⟨(i 0).val * 64 + 63, by rw [show cfg0.N = 128 from N_0]; omega⟩
  have ht : t.val = (i 0).val * 64 + 63 := rfl
  refine ⟨t, (flush0_3 t).mpr (by omega), ?_⟩
  obtain ⟨-, -, -, -, -, -, -, e7, e8, e9⟩ := idx0 t
  rw [mem_blkD]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

/-- The feature array after the region. -/
theorem finalM (c : Dev nD) : (dat0 V c).arrAt 2 cfg0.N = featArr V c :=
  (dat0 V c).arrAt_eq_of_cover 2 (featArr V c) (fun t hf => flushedM_eq V c t hf) tiledM
/-- The degree array after the region. -/
theorem finalD (c : Dev nD) : (dat0 V c).arrAt 3 cfg0.N = degArr V c :=
  (dat0 V c).arrAt_eq_of_cover 3 (degArr V c) (fun t hf => flushedD_eq V c t hf) tiledD

/-! ## The blocks read off the region's entry contents -/

/-- Row `r` of block `t` of the incidence matrix is row 256 t + r of the array. -/
theorem blkH_apply (c : Dev nD) (t : Fin cfg0.N) (r : Fin 256) (e : Fin 8192) (n : Fin 32768) (hn : n.val = t.val * 256 + r.val) :
    blkH V c t (ix2 r e) = V c main_arg1 (ix2 n e) := by
  show V c main_arg1 (((cfg0.win 0).blk t).view.emb (ix2 r e)) = _
  refine congrArg _ (funext fun a => Fin.ext ?_)
  obtain ⟨e0, e1, -⟩ := idx0 t
  match a with
  | ⟨0, _⟩ => show win0_0.index t (0 : Fin 2) * 256 + 1 * r.val = n.val; omega
  | ⟨1, _⟩ => show win0_0.index t (1 : Fin 2) * 8192 + 1 * e.val = e.val; omega
/-- Row `r` of block `t` of the node features is row 256 t + r of the array. -/
theorem blkX_apply (c : Dev nD) (t : Fin cfg0.N) (r : Fin 256) (d : Fin 128) (n : Fin 32768) (hn : n.val = t.val * 256 + r.val) :
    blkX V c t (ix2 r d) = V c main_arg0 (ix2 n d) := by
  show V c main_arg0 (((cfg0.win 1).blk t).view.emb (ix2 r d)) = _
  refine congrArg _ (funext fun a => Fin.ext ?_)
  obtain ⟨-, -, e2, e3, -⟩ := idx0 t
  match a with
  | ⟨0, _⟩ => show win0_1.index t (0 : Fin 2) * 256 + 1 * r.val = n.val; omega
  | ⟨1, _⟩ => show win0_1.index t (1 : Fin 2) * 128 + 1 * d.val = d.val; omega

end Region

end Cert.KernelIdeal.Hand

end
-- ==== Proof.KiPay1.lean ====
/-
  The second kernel's stored value read at an index, over the extended reals.

  At row `r` of the block and feature `o` the stored value is the row arithmetic `Cert.Spec.rowK` of row `r` of the
  block of the incidence matrix against the hyperedge features, the weights, the bias, the scale and the shift:
    the row sum of the incidence block, kept as a column, gives the inverse root degree  1 / (√(Σ_e h e) + ε₁);
    the first matrix product contracts the hyperedges,  Σ_e h e · m e d,  and is scaled by that column;
    the second contracts the features against axis 1 of the weights,  Σ_d m5 d · W o d,  and the bias row is added;
    the maximum with the zero word is the ReLU; the row sum over 128 is the mean, subtracted along the row;
    the row sum of squares over 128 plus ε₂ is the guarded variance, and the stored value is
    (γ o · δ o) · rsqrt (var + ε₂) + β o.
  A change of float format is the identity on extended reals, so the roundings to bf16 before the products vanish;
  every reduction starts from the zero word, whose value is `0`.
-/
import proofs.«146282_j40922448396916_2_alg».proof.Proof.Gen.KernelIdeal.Skeleton
import proofs.«146282_j40922448396916_2_alg».proof.Proof.SpecRow
import proofs.«146282_j40922448396916_2_alg».proof.Proof.LibRowOps
import proofs.«146282_j40922448396916_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## Pointwise operations the library has no index lemma for -/

/-- The square root of a vector, entry by entry. -/
theorem sqrt_apply {s : Shape} {φ : FTy} (a : FVec Ideal s φ) (i : s.Idx) : sqrt a i = Ideal.sqrt (a i) := rfl
/-- The reciprocal square root of a vector, entry by entry. -/
theorem rsqrt_apply {s : Shape} {φ : FTy} (a : FVec Ideal s φ) (i : s.Idx) : rsqrt a i = Ideal.rsqrt (a i) := rfl
/-- A scalar float constant is the extended real its word denotes. -/
theorem scalar_ofBits (φ : FTy) (w : BitVec φ.bits) : Scalar.ofBits (F := Ideal) φ w = Ideal.ofBits φ w := rfl

/-- The sums along the rows of a 256-row matrix, from the zero word, kept as a column: entry `(r, u)` is the sum of
    row `r`. (Stated with the reduction's side conditions spelt as the body spells them.) -/
theorem rowSumCol_apply {b : ℕ} (v : FVec Ideal ⟨2, ![256, b]⟩ .f32) (h : (⟨2, ![256, b]⟩ : Shape).Reduces [1] S256)
    (r : Fin 256) (u : Fin 1) :
    shapeCast S256x1 (multiReduction .add [1] S256 v 0x00000000#32 h (.inl rfl) rfl) shapeCasts_S256_S256x1 (ix2 r u)
      = ∑ k : Fin b, v (ix2 r k) :=
  Cert.LibRowOps.rowSums_column_apply v h (.inl rfl) rfl shapeCasts_S256_S256x1 r u

/-! ## The first matrix product: [256, 8192] × [8192, 128], contracting the hyperedges -/

theorem d1_lhs0 (i : S256x128.Idx) (q : dot_S256x8192_S8192x128_S256x128_1_0_0_1_n_n.contr.Idx) :
    (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
theorem d1_lhs1 (i : S256x128.Idx) (q : dot_S256x8192_S8192x128_S256x128_1_0_0_1_n_n.contr.Idx) :
    (dot_S256x8192_S8192x128_S256x128_1_0_0_1_n_n.lhsIdx i q 1).val = (q ⟨0, by decide⟩).val :=
  dot_S256x8192_S8192x128_S256x128_1_0_0_1_n_n.lhsIdx_val_of_single rfl i q
theorem d1_rhs0 (i : S256x128.Idx) (q : dot_S256x8192_S8192x128_S256x128_1_0_0_1_n_n.contr.Idx) :
    (dot_S256x8192_S8192x128_S256x128_1_0_0_1_n_n.rhsIdx i q 0).val = (q ⟨0, by decide⟩).val :=
  dot_S256x8192_S8192x128_S256x128_1_0_0_1_n_n.rhsIdx_val_of_single rfl i q
theorem d1_rhs1 (i : S256x128.Idx) (q : dot_S256x8192_S8192x128_S256x128_1_0_0_1_n_n.contr.Idx) :
    (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

/-- The product of an [256, 8192] matrix and an [8192, 128] matrix into the zero accumulator, at `(r, d)`:
    the sum over the 8192 contracted indices `e` of `a (r, e) · c (e, d)`. -/
theorem matmul1_apply (a : FVec Ideal S256x8192 .bf16) (c : FVec Ideal S8192x128 .bf16) (r : Fin 256) (d : Fin 128) :
    matmul dot_S256x8192_S8192x128_S256x128_1_0_0_1_n_n none a c (constant (F := Ideal) S256x128 .f32 0x00000000#32) (ix2 r d)
      = ∑ e : Fin 8192, a (ix2 r e) * c (ix2 e d) := by
  show FloatOps.matmul dot_S256x8192_S8192x128_S256x128_1_0_0_1_n_n none a c (constant (F := Ideal) S256x128 .f32 0x00000000#32) (ix2 r d) = _
  rw [Ideal.matmul_constant_zero_apply, ← Equiv.sum_comp (ValueIdx.contrEquiv1 dot_S256x8192_S8192x128_S256x128_1_0_0_1_n_n 8192 rfl rfl).symm]
  refine Finset.sum_congr rfl fun k _ => ?_
  have hk := ValueIdx.contrEquiv1_symm_val dot_S256x8192_S8192x128_S256x128_1_0_0_1_n_n 8192 rfl rfl k
  have el : dot_S256x8192_S8192x128_S256x128_1_0_0_1_n_n.lhsIdx (ix2 r d) ((ValueIdx.contrEquiv1 dot_S256x8192_S8192x128_S256x128_1_0_0_1_n_n 8192 rfl rfl).symm k) = ix2 r k := funext fun ax => Fin.ext (by
    match ax with
    | ⟨0, _⟩ => exact d1_lhs0 _ _
    | ⟨1, _⟩ => exact (d1_lhs1 _ _).trans hk)
  have er : dot_S256x8192_S8192x128_S256x128_1_0_0_1_n_n.rhsIdx (ix2 r d) ((ValueIdx.contrEquiv1 dot_S256x8192_S8192x128_S256x128_1_0_0_1_n_n 8192 rfl rfl).symm k) = ix2 k d := funext fun ax => Fin.ext (by
    match ax with
    | ⟨0, _⟩ => exact (d1_rhs0 _ _).trans hk
    | ⟨1, _⟩ => exact d1_rhs1 _ _)
  rw [el, er]

/-! ## The second matrix product: [256, 128] × [128, 128], contracting axis 1 of both operands -/

theorem d2_lhs0 (i : S256x128.Idx) (q : dot_S256x128_S128x128_S256x128_1_1_0_0_n_n.contr.Idx) :
    (dot_S256x128_S128x128_S256x128_1_1_0_0_n_n.lhsIdx i q 0).val = (i 0).val := by
  unfold DotDims.lhsIdx
  rw [dif_neg (show ¬(0 : Fin S256x128.rank) ∈ dot_S256x128_S128x128_S256x128_1_1_0_0_n_n.lhsBatch by decide), dif_pos (show (0 : Fin S256x128.rank) ∈ dot_S256x128_S128x128_S256x128_1_1_0_0_n_n.lhsNonContracting by decide)]
  rfl
theorem d2_lhs1 (i : S256x128.Idx) (q : dot_S256x128_S128x128_S256x128_1_1_0_0_n_n.contr.Idx) :
    (dot_S256x128_S128x128_S256x128_1_1_0_0_n_n.lhsIdx i q 1).val = (q ⟨0, by decide⟩).val :=
  dot_S256x128_S128x128_S256x128_1_1_0_0_n_n.lhsIdx_val_of_single rfl i q
theorem d2_rhs0 (i : S256x128.Idx) (q : dot_S256x128_S128x128_S256x128_1_1_0_0_n_n.contr.Idx) :
    (dot_S256x128_S128x128_S256x128_1_1_0_0_n_n.rhsIdx i q 0).val = (i 1).val := by
  unfold DotDims.rhsIdx
  rw [dif_neg (show ¬(0 : Fin S128x128.rank) ∈ dot_S256x128_S128x128_S256x128_1_1_0_0_n_n.rhsBatch by decide), dif_pos (show (0 : Fin S128x128.rank) ∈ dot_S256x128_S128x128_S256x128_1_1_0_0_n_n.rhsNonContracting by decide)]
  rfl
theorem d2_rhs1 (i : S256x128.Idx) (q : dot_S256x128_S128x128_S256x128_1_1_0_0_n_n.contr.Idx) :
    (dot_S256x128_S128x128_S256x128_1_1_0_0_n_n.rhsIdx i q 1).val = (q ⟨0, by decide⟩).val :=
  dot_S256x128_S128x128_S256x128_1_1_0_0_n_n.rhsIdx_val_of_single rfl i q

/-- The product of an [256, 128] matrix with the TRANSPOSE of an [128, 128] matrix (axis 1 of both contracted) into
    the zero accumulator, at `(r, o)`: the sum over the 128 contracted indices `d` of `a (r, d) · w (o, d)`. -/
theorem matmul2_apply (a : FVec Ideal S256x128 .bf16) (w : FVec Ideal S128x128 .bf16) (r : Fin 256) (o : Fin 128) :
    matmul dot_S256x128_S128x128_S256x128_1_1_0_0_n_n none a w (constant (F := Ideal) S256x128 .f32 0x00000000#32) (ix2 r o)
      = ∑ d : Fin 128, a (ix2 r d) * w (ix2 o d) := by
  show FloatOps.matmul dot_S256x128_S128x128_S256x128_1_1_0_0_n_n none a w (constant (F := Ideal) S256x128 .f32 0x00000000#32) (ix2 r o) = _
  rw [Ideal.matmul_constant_zero_apply, ← Equiv.sum_comp (ValueIdx.contrEquiv1 dot_S256x128_S128x128_S256x128_1_1_0_0_n_n 128 rfl rfl).symm]
  refine Finset.sum_congr rfl fun k _ => ?_
  have hk := ValueIdx.contrEquiv1_symm_val dot_S256x128_S128x128_S256x128_1_1_0_0_n_n 128 rfl rfl k
  have el : dot_S256x128_S128x128_S256x128_1_1_0_0_n_n.lhsIdx (ix2 r o) ((ValueIdx.contrEquiv1 dot_S256x128_S128x128_S256x128_1_1_0_0_n_n 128 rfl rfl).symm k) = ix2 r k := funext fun ax => Fin.ext (by
    match ax with
    | ⟨0, _⟩ => exact d2_lhs0 _ _
    | ⟨1, _⟩ => exact (d2_lhs1 _ _).trans hk)
  have er : dot_S256x128_S128x128_S256x128_1_1_0_0_n_n.rhsIdx (ix2 r o) ((ValueIdx.contrEquiv1 dot_S256x128_S128x128_S256x128_1_1_0_0_n_n 128 rfl rfl).symm k) = ix2 o k := funext fun ax => Fin.ext (by
    match ax with
    | ⟨0, _⟩ => exact d2_rhs0 _ _
    | ⟨1, _⟩ => exact (d2_rhs1 _ _).trans hk)
  rw [el, er]

/-! ## The body's values at an index -/

section Rows
variable (x0 : Vec Ideal S256x8192 .f32) (x1 : Vec Ideal S8192x128 .f32) (x2 : Vec Ideal S128x128 .f32)
  (x3 x4 x5 : Vec Ideal S1x128 .f32)

/-- Row `r` of the incidence block. -/
abbrev hRow (r : Fin 256) : Fin 8192 → EReal := fun e => x0 (ix2 r e)
/-- The hyperedge features by coordinates. -/
abbrev mFeat : Fin 8192 → Fin 128 → EReal := fun e d => x1 (ix2 e d)
/-- The weights by coordinates. -/
abbrev wMat : Fin 128 → Fin 128 → EReal := fun o d => x2 (ix2 o d)
/-- A one-row matrix as a vector. -/
abbrev rowVec (v : Vec Ideal S1x128 .f32) : Fin 128 → EReal := fun o => v (ix2 (0 : Fin 1) o)

/-- The centred activation: the body's value `%30` at `(r, o)` is the row's `δ o`. -/
theorem rowPay2_apply (r : Fin 256) (o : Fin 128) :
    k1_pay2 x0 x1 x2 x3 (ix2 r o) = Cert.Spec.rDiff (hRow x0 r) (mFeat x1) (wMat x2) (rowVec x3) o := by
  unfold k1_pay2
  simp only [subf_apply, maximumf_apply, addf_apply, mulf_apply, divf_apply, truncf_apply, broadcast_apply, sqrt_apply,
    shapeCast_self, matmul1_apply, matmul2_apply, rowSumCol_apply (b := 8192), rowSumCol_apply (b := 128),
    Cert.LibColumn.broadcastTo_a1_ab_apply, broadcastTo_1b_ab_apply, scalar_ofBits, Ideal.ofBits_zero_f32]
  rfl

/-- The reciprocal root of the guarded variance: the body's value `%38` at `(r, u)`. -/
theorem rowPay3_apply (r : Fin 256) (u : Fin 1) :
    k1_pay3 x0 x1 x2 x3 (ix2 r u)
      = Ideal.rsqrt (Cert.Spec.rVar (hRow x0 r) (mFeat x1) (wMat x2) (rowVec x3) + Cert.Spec.epsLn) := by
  unfold k1_pay3
  simp only [rsqrt_apply, addf_apply, divf_apply, mulf_apply, broadcast_apply, rowSumCol_apply (b := 8192), rowSumCol_apply (b := 128),
    scalar_ofBits, rowPay2_apply]
  rfl

/-- The stored value `%48` at `(r, o)` from the centred activation and the reciprocal root:
    `(γ o · δ (r, o)) · ρ (r, 0) + β o`. -/
theorem rowPay1_apply (v30 : FVec Ideal S256x128 .f32) (v38 : FVec Ideal S256x1 .f32) (r : Fin 256) (o : Fin 128) :
    k1_pay1 v30 v38 x4 x5 (ix2 r o)
      = (x4 (ix2 (0 : Fin 1) o) * v30 (ix2 r o)) * v38 (ix2 r (0 : Fin 1)) + x5 (ix2 (0 : Fin 1) o) := by
  unfold k1_pay1
  simp only [addf_apply, mulf_apply, shapeCast_self, broadcastTo_1b_ab_apply, Cert.LibColumn.broadcastTo_a1_ab_apply]

/-- The second kernel's stored value at row `r` of the block and feature `o` is the row arithmetic of row `r` of the
    incidence block against the hyperedge features, the weights, the bias, the scale and the shift. -/
theorem rows_apply (r : Fin 256) (o : Fin 128) :
    k1_pay1 (k1_pay2 x0 x1 x2 x3) (k1_pay3 x0 x1 x2 x3) x4 x5 (ix2 r o)
      = Cert.Spec.rowK (fun e => x0 (ix2 r e)) (fun e d => x1 (ix2 e d)) (fun o' d => x2 (ix2 o' d))
          (fun o' => x3 (ix2 (0 : Fin 1) o')) (fun o' => x4 (ix2 (0 : Fin 1) o')) (fun o' => x5 (ix2 (0 : Fin 1) o')) o := by
  rw [rowPay1_apply, rowPay2_apply, rowPay3_apply]
  rfl

end Rows

end Cert.KernelIdeal.Hand

end
-- ==== Proof.KiHost.lean ====
/-
  The two stretches of host operations around the kernels, read through the fold of their results from any
  contents of the buffers they start from, over the extended reals.

  The first stretch lays each of the three feature vectors b, γ, β out as a 1 × 128 row, entry (0, o) being entry o.
  The second stretch joins the two cores' partial results of the first kernel: it sums the two partial feature blocks
  and the two partial degree rows (each sum from the initial value 0), and scales the summed features of hyperedge e
  by 1 / (degree e + ε), the inverse broadcast along the features.  Neither stretch writes an argument, and the second
  writes none of the three rows the first one made.
-/
import proofs.«146282_j40922448396916_2_alg».proof.Proof.Gen.KernelIdeal.Regions
import proofs.«146282_j40922448396916_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Idealize.ShloMosaic.StableHlo

/-! ## The second stretch: the scaled hyperedge features -/

/-- The second stretch's last result as one function of the two partial-result arrays it reads. -/
def m3Host (u0 : (⟨S2x8192x128, .f32⟩ : BufTy).Contents (Elt Ideal)) (u1 : (⟨S2x1x8192, .f32⟩ : BufTy).Contents (Elt Ideal)) :
    (⟨S8192x128, .f32⟩ : BufTy).Contents (Elt Ideal) :=
  mulf (Host.reduceAdd (F := Ideal) u0 (constant (F := Ideal) S_ .f32 0x00000000#32) reducesTo_S2x8192x128_S8192x128_d0 h_S_)
    (broadcastInDim S8192x128 ![0, 1] bcast_S8192x1_S8192x128_0_1
      (broadcastInDim S8192x1 ![0] bcast_S8192_S8192x1_0
        (Host.divf (F := Ideal) (broadcastInDim S8192 ![] bcast_S_S8192 (constant (F := Ideal) S_ .f32 0x3F800000#32))
          (addf
            (shapeCast S8192
              (Host.reduceAdd (F := Ideal) u1 (constant (F := Ideal) S_ .f32 0x00000000#32) reducesTo_S2x1x8192_S1x8192_d0 h_S_)
              shapeCasts_S1x8192_S8192)
            (broadcastInDim S8192 ![] bcast_S_S8192 (constant (F := Ideal) S_ .f32 0x322BCC77#32))))))

/-- The second stretch leaves that function of the two partial-result arrays in its last result buffer. -/
theorem after_hostOps1_v13 (W : Valuation τ sig (Elt Ideal)) :
    StableHlo.after (hostOps1 (F := Ideal)) W (Proc.devRef .tc main_v13)
      = m3Host (W (Proc.devRef .tc main_v3_0)) (W (Proc.devRef .tc main_v3_1)) := by
  after_results
  rfl

/-- The two cores' partial feature blocks summed from the initial value 0. -/
theorem featSum_apply (u0 : (⟨S2x8192x128, .f32⟩ : BufTy).Contents (Elt Ideal)) (e : Fin 8192) (d : Fin 128) :
    Host.reduceAdd (F := Ideal) u0 (constant (F := Ideal) S_ .f32 0x00000000#32) reducesTo_S2x8192x128_S8192x128_d0 h_S_ (ix2 e d)
      = ∑ c : Fin 2, u0 (ix3 c e d) := by
  simp only [Host.reduceAdd, Ideal.hostReduceAdd_def]
  rw [Ideal.hostReduceAdd_single reducesTo_S2x8192x128_S8192x128_d0 (by decide)]
  show Ideal.ofBits .f32 0x00000000#32 + _ = _
  rw [Ideal.ofBits_zero_f32, zero_add]
  refine Finset.sum_congr rfl fun k _ => congrArg u0 (funext fun a => Fin.ext (by
    match a with
    | ⟨0, _⟩ => rfl
    | ⟨1, _⟩ => rfl
    | ⟨2, _⟩ => rfl))

/-- The two cores' partial degree rows summed from the initial value 0. -/
theorem degSum_apply (u1 : (⟨S2x1x8192, .f32⟩ : BufTy).Contents (Elt Ideal)) (z : Fin 1) (e : Fin 8192) :
    Host.reduceAdd (F := Ideal) u1 (constant (F := Ideal) S_ .f32 0x00000000#32) reducesTo_S2x1x8192_S1x8192_d0 h_S_ (ix2 z e)
      = ∑ c : Fin 2, u1 (ix3 c z e) := by
  simp only [Host.reduceAdd, Ideal.hostReduceAdd_def]
  rw [Ideal.hostReduceAdd_single reducesTo_S2x1x8192_S1x8192_d0 (by decide)]
  show Ideal.ofBits .f32 0x00000000#32 + _ = _
  rw [Ideal.ofBits_zero_f32, zero_add]
  refine Finset.sum_congr rfl fun k _ => congrArg u1 (funext fun a => Fin.ext (by
    match a with
    | ⟨0, _⟩ => rfl
    | ⟨1, _⟩ => rfl
    | ⟨2, _⟩ => rfl))

/-- The scaled hyperedge features at (e, d): the summed features times the guarded inverse of the summed degree. -/
theorem m3Host_apply (u0 : (⟨S2x8192x128, .f32⟩ : BufTy).Contents (Elt Ideal)) (u1 : (⟨S2x1x8192, .f32⟩ : BufTy).Contents (Elt Ideal))
    (e : Fin 8192) (d : Fin 128) :
    m3Host u0 u1 (ix2 e d)
      = (∑ c : Fin 2, u0 (ix3 c e d))
        * Ideal.div Cert.Spec.one ((∑ c : Fin 2, u1 (ix3 c (0 : Fin 1) e)) + Cert.Spec.epsDeg) := by
  unfold m3Host
  refine congrArg₂ (· * ·) (featSum_apply u0 e d) ?_
  refine (broadcastInDim_apply _ bcast_S8192x1_S8192x128_0_1 _ (ix2 e d) (ix2 e (0 : Fin 1)) (fun a => match a with
    | ⟨0, _⟩ => by show e.val = if (8192 : Nat) = 1 then 0 else e.val; rw [if_neg (by decide)]
    | ⟨1, _⟩ => by show 0 = if (1 : Nat) = 1 then 0 else d.val; rw [if_pos rfl])).trans ?_
  refine (broadcastInDim_apply _ bcast_S8192_S8192x1_0 _ (ix2 e (0 : Fin 1)) (ix1 e) (fun a => match a with
    | ⟨0, _⟩ => by show e.val = if (8192 : Nat) = 1 then 0 else e.val; rw [if_neg (by decide)])).trans ?_
  show Ideal.div (Ideal.ofBits .f32 0x3F800000#32)
      (shapeCast S8192 _ shapeCasts_S1x8192_S8192 (ix1 e) + Ideal.ofBits .f32 0x322BCC77#32) = _
  rw [shapeCast_1a_a_apply, degSum_apply]

/-! ## The first stretch: the three feature vectors as rows -/

/-- b as a 1 × 128 row. -/
theorem after_hostOps0_v0 (W : Valuation τ sig (Elt Ideal)) (z : Fin 1) (o : Fin 128) :
    StableHlo.after (hostOps0 (F := Ideal)) W (Proc.devRef .tc main_v0) (ix2 z o) = W (Proc.devRef .tc main_arg3) (ix1 o) := by
  have h : StableHlo.after (hostOps0 (F := Ideal)) W (Proc.devRef .tc main_v0)
      = shapeCast S1x128 (W (Proc.devRef .tc main_arg3)) shapeCasts_S128_S1x128 := by
    after_results
    rfl
  rw [h]
  exact shapeCast_a_1a_apply _ _ z o

/-- γ as a 1 × 128 row. -/
theorem after_hostOps0_v1 (W : Valuation τ sig (Elt Ideal)) (z : Fin 1) (o : Fin 128) :
    StableHlo.after (hostOps0 (F := Ideal)) W (Proc.devRef .tc main_v1) (ix2 z o) = W (Proc.devRef .tc main_arg4) (ix1 o) := by
  have h : StableHlo.after (hostOps0 (F := Ideal)) W (Proc.devRef .tc main_v1)
      = shapeCast S1x128 (W (Proc.devRef .tc main_arg4)) shapeCasts_S128_S1x128 := by
    after_results
    rfl
  rw [h]
  exact shapeCast_a_1a_apply _ _ z o

/-- β as a 1 × 128 row. -/
theorem after_hostOps0_v2 (W : Valuation τ sig (Elt Ideal)) (z : Fin 1) (o : Fin 128) :
    StableHlo.after (hostOps0 (F := Ideal)) W (Proc.devRef .tc main_v2) (ix2 z o) = W (Proc.devRef .tc main_arg5) (ix1 o) := by
  have h : StableHlo.after (hostOps0 (F := Ideal)) W (Proc.devRef .tc main_v2)
      = shapeCast S1x128 (W (Proc.devRef .tc main_arg5)) shapeCasts_S128_S1x128 := by
    after_results
    rfl
  rw [h]
  exact shapeCast_a_1a_apply _ _ z o

/-! ## What the stretches leave alone -/

/-- The first stretch writes only the three rows. -/
theorem after_hostOps0_of (W : Valuation τ sig (Elt Ideal)) (b : Ref sig .tc) (hb : b ∉ hostOps0_W) :
    StableHlo.after (hostOps0 (F := Ideal)) W (Proc.devRef .tc b) = W (Proc.devRef .tc b) :=
  StableHlo.after_of_writes_sub hostOps0 W hostOps0_writes hb

/-- The second stretch writes only its own fourteen results. -/
theorem after_hostOps1_of (W : Valuation τ sig (Elt Ideal)) (b : Ref sig .tc) (hb : b ∉ hostOps1_W) :
    StableHlo.after (hostOps1 (F := Ideal)) W (Proc.devRef .tc b) = W (Proc.devRef .tc b) :=
  StableHlo.after_of_writes_sub hostOps1 W hostOps1_writes hb

theorem after_hostOps0_arg0 (W : Valuation τ sig (Elt Ideal)) :
    StableHlo.after (hostOps0 (F := Ideal)) W (Proc.devRef .tc main_arg0) = W (Proc.devRef .tc main_arg0) :=
  after_hostOps0_of W main_arg0 (by decide)
theorem after_hostOps0_arg1 (W : Valuation τ sig (Elt Ideal)) :
    StableHlo.after (hostOps0 (F := Ideal)) W (Proc.devRef .tc main_arg1) = W (Proc.devRef .tc main_arg1) :=
  after_hostOps0_of W main_arg1 (by decide)
theorem after_hostOps0_arg2 (W : Valuation τ sig (Elt Ideal)) :
    StableHlo.after (hostOps0 (F := Ideal)) W (Proc.devRef .tc main_arg2) = W (Proc.devRef .tc main_arg2) :=
  after_hostOps0_of W main_arg2 (by decide)
theorem after_hostOps0_arg3 (W : Valuation τ sig (Elt Ideal)) :
    StableHlo.after (hostOps0 (F := Ideal)) W (Proc.devRef .tc main_arg3) = W (Proc.devRef .tc main_arg3) :=
  after_hostOps0_of W main_arg3 (by decide)
theorem after_hostOps0_arg4 (W : Valuation τ sig (Elt Ideal)) :
    StableHlo.after (hostOps0 (F := Ideal)) W (Proc.devRef .tc main_arg4) = W (Proc.devRef .tc main_arg4) :=
  after_hostOps0_of W main_arg4 (by decide)
theorem after_hostOps0_arg5 (W : Valuation τ sig (Elt Ideal)) :
    StableHlo.after (hostOps0 (F := Ideal)) W (Proc.devRef .tc main_arg5) = W (Proc.devRef .tc main_arg5) :=
  after_hostOps0_of W main_arg5 (by decide)

theorem after_hostOps1_arg0 (W : Valuation τ sig (Elt Ideal)) :
    StableHlo.after (hostOps1 (F := Ideal)) W (Proc.devRef .tc main_arg0) = W (Proc.devRef .tc main_arg0) :=
  after_hostOps1_of W main_arg0 (by decide)
theorem after_hostOps1_arg1 (W : Valuation τ sig (Elt Ideal)) :
    StableHlo.after (hostOps1 (F := Ideal)) W (Proc.devRef .tc main_arg1) = W (Proc.devRef .tc main_arg1) :=
  after_hostOps1_of W main_arg1 (by decide)
theorem after_hostOps1_arg2 (W : Valuation τ sig (Elt Ideal)) :
    StableHlo.after (hostOps1 (F := Ideal)) W (Proc.devRef .tc main_arg2) = W (Proc.devRef .tc main_arg2) :=
  after_hostOps1_of W main_arg2 (by decide)
theorem after_hostOps1_v0 (W : Valuation τ sig (Elt Ideal)) :
    StableHlo.after (hostOps1 (F := Ideal)) W (Proc.devRef .tc main_v0) = W (Proc.devRef .tc main_v0) :=
  after_hostOps1_of W main_v0 (by decide)
theorem after_hostOps1_v1 (W : Valuation τ sig (Elt Ideal)) :
    StableHlo.after (hostOps1 (F := Ideal)) W (Proc.devRef .tc main_v1) = W (Proc.devRef .tc main_v1) :=
  after_hostOps1_of W main_v1 (by decide)
theorem after_hostOps1_v2 (W : Valuation τ sig (Elt Ideal)) :
    StableHlo.after (hostOps1 (F := Ideal)) W (Proc.devRef .tc main_v2) = W (Proc.devRef .tc main_v2) :=
  after_hostOps1_of W main_v2 (by decide)

end Cert.KernelIdeal.Hand

end
-- ==== Proof.SpecRowLaws.lean ====
/-
  The specification's output at row `n` is the second kernel's row arithmetic `rowK` applied to row `n` of the incidence
  matrix and the hyperedge features `m3`.

  Stage by stage the two agree: the row's inverse root degree is `sInv n` by definition; the propagated row
  `(Σ_e H n e · m3 e d) · s` is `s · m4 n d` by commutativity of the product; the linear layer, the ReLU, the mean,
  the centred row and the variance are then the same expressions. In the last line the row multiplies by the
  reciprocal root of `var + ε₂` where the specification divides by its root: the variance is a sum of squares
  divided by 128, hence nonnegative, `ε₂` is a positive real, so `var + ε₂` is positive and the two agree.
-/
import proofs.«146282_j40922448396916_2_alg».proof.Proof.SpecRow
import proofs.«146282_j40922448396916_2_alg».proof.Proof.LibErealLaws

noncomputable section

namespace Cert.Spec

open Idealize.ShloMosaic

variable (x : Fin 32768 → Fin 128 → EReal) (H : Fin 32768 → Fin 8192 → EReal)
  (W : Fin 128 → Fin 128 → EReal) (b γ β : Fin 128 → EReal)

/-- The row's inverse root degree is the specification's `sInv`: both are `1 / (√(Σ_e H n e) + ε₁)`. -/
theorem rS_eq (n : Fin 32768) : rS (H n) = sInv H n := rfl

/-- The propagated row: `(Σ_e H n e · m3 e d) · s = s · m4 n d`, the product commuted. -/
theorem rM5_eq (n : Fin 32768) (d : Fin 128) : rM5 (H n) (m3 x H) d = m5 x H n d := by
  show (∑ e : Fin 8192, H n e * m3 x H e d) * rS (H n) = sInv H n * m4 x H n d
  rw [rS_eq]; exact mul_comm _ _

/-- The linear layer of the row is the specification's. -/
theorem rLin_eq (n : Fin 32768) (o : Fin 128) : rLin (H n) (m3 x H) W b o = lin x H W b n o := by
  unfold rLin lin; simp only [rM5_eq]

/-- The ReLU of the row is the specification's. -/
theorem rAct_eq (n : Fin 32768) (o : Fin 128) : rAct (H n) (m3 x H) W b o = act x H W b n o := by
  unfold rAct act; rw [rLin_eq]

/-- The row's mean is the specification's. -/
theorem rMu_eq (n : Fin 32768) : rMu (H n) (m3 x H) W b = mu x H W b n := by
  unfold rMu mu; simp only [rAct_eq]

/-- The centred row is the specification's. -/
theorem rDiff_eq (n : Fin 32768) (o : Fin 128) : rDiff (H n) (m3 x H) W b o = diff x H W b n o := by
  unfold rDiff diff; rw [rAct_eq, rMu_eq]

/-- The row's variance is the specification's. -/
theorem rVar_eq (n : Fin 32768) : rVar (H n) (m3 x H) W b = var x H W b n := by
  unfold rVar var; simp only [rDiff_eq]

/-- The guarded variance is positive: a sum of squares over 128, plus the positive real `ε₂`. -/
theorem var_add_epsLn_pos (n : Fin 32768) : 0 < var x H W b n + epsLn :=
  Cert.LibErealLaws.var_guard_pos (fun o : Fin 128 => diff x H W b n o)

/-- The specification's output at `(n, o)` is the row arithmetic of row `n` of `H` against the hyperedge features `m3`:
    multiplying by the reciprocal root of the positive `var + ε₂` is dividing by its root. -/
theorem out_eq_rowK (n : Fin 32768) (o : Fin 128) :
    out x H W b γ β n o = rowK (H n) (m3 x H) W b γ β o := by
  unfold out rowK
  rw [rDiff_eq, rVar_eq, Cert.LibErealLaws.mul_rsqrt_eq_div_sqrt (var_add_epsLn_pos x H W b n)]

end Cert.Spec

end
-- ==== Proof.SpecBlocks.lean ====
/-
  The hyperedge features computed block by block are the specification's `m3`.

  The 32768 rows are cut into 2 sweeps of 64 blocks of 256 consecutive rows: row `(c · 64 + k) · 256 + r` is row `r` of
  block `k` of sweep `c`. A block contributes to hyperedge `e` its column sum `bDeg` and, to hyperedge `e` and feature
  `d`, the sum `bFeat` over its rows of  H n e · (s n · x n d),  where  s n = 1 / (√(Σ_e' H n e') + ε₁)  is computed from
  the row alone. Summing the blocks' contributions over all blocks regroups a sum over all rows — addition of extended
  reals is commutative and associative, so this needs no finiteness — and gives the hyperedge degree `de e` and the
  gathered features `m2 e d`. Their combination  m2 e d · (1 / (de e + ε₁))  is `m3 e d` with the product commuted.
-/
import proofs.«146282_j40922448396916_2_alg».proof.Proof.SpecRow
import proofs.«146282_j40922448396916_2_alg».proof.Proof.LibErealLaws

noncomputable section

namespace Cert.Spec

open Idealize.ShloMosaic

variable (x : Fin 32768 → Fin 128 → EReal) (H : Fin 32768 → Fin 8192 → EReal)

/-- Row `r` of block `k` of sweep `c`: the row `(c · 64 + k) · 256 + r` of the whole matrix. -/
def rowOf (c : Fin 2) (k : Fin 64) (r : Fin 256) : Fin 32768 :=
  ⟨(c.val * 64 + k.val) * 256 + r.val, by omega⟩

/-- A block's feature contribution, written over the rows of the whole matrix: the inverse root degree a block computes
    from its own row is the specification's `sInv` of that row. -/
theorem bFeat_block (c : Fin 2) (k : Fin 64) (e : Fin 8192) (d : Fin 128) :
    bFeat (fun r e' => H (rowOf c k r) e') (fun r d' => x (rowOf c k r) d') e d
      = ∑ r : Fin 256, H (rowOf c k r) e * (sInv H (rowOf c k r) * x (rowOf c k r) d) := rfl

/-- A block's degree contribution, written over the rows of the whole matrix. -/
theorem bDeg_block (c : Fin 2) (k : Fin 64) (e : Fin 8192) :
    bDeg (fun r e' => H (rowOf c k r) e') e = ∑ r : Fin 256, H (rowOf c k r) e := rfl

/-- The blocks' feature contributions sum to the gathered features `m2`. -/
theorem m2_of_blocks (e : Fin 8192) (d : Fin 128) :
    (∑ c : Fin 2, ∑ k : Fin 64, bFeat (fun r e' => H (rowOf c k r) e') (fun r d' => x (rowOf c k r) d') e d)
      = m2 x H e d := by
  simp only [bFeat_block]
  exact (Cert.LibErealLaws.sum_rows_2_64_256 (fun n : Fin 32768 => H n e * (sInv H n * x n d))).symm

/-- The blocks' degree contributions sum to the hyperedge degree `de`. -/
theorem de_of_blocks (e : Fin 8192) :
    (∑ c : Fin 2, ∑ k : Fin 64, bDeg (fun r e' => H (rowOf c k r) e') e) = de H e := by
  simp only [bDeg_block]
  exact (Cert.LibErealLaws.sum_rows_2_64_256 (fun n : Fin 32768 => H n e)).symm

/-- Over `rowOf`: the blocks' features times the reciprocal of the guarded sum of the blocks' degrees is `m3`. -/
theorem m3_of_blocks_rowOf (e : Fin 8192) (d : Fin 128) :
    (∑ c : Fin 2, ∑ k : Fin 64, bFeat (fun r e' => H (rowOf c k r) e') (fun r d' => x (rowOf c k r) d') e d)
      * Ideal.div one ((∑ c : Fin 2, ∑ k : Fin 64, bDeg (fun r e' => H (rowOf c k r) e') e) + epsDeg)
    = m3 x H e d := by
  rw [m2_of_blocks, de_of_blocks]
  exact mul_comm _ _

/-- The same with the row index written out: the hyperedge features computed blockwise (2 sweeps of 64 blocks of 256
    rows) and recombined are the specification's `m3`. -/
theorem m3_of_blocks (e : Fin 8192) (d : Fin 128) :
    (∑ c : Fin 2, ∑ k : Fin 64, bFeat (fun r e' => H ⟨(c.val * 64 + k.val) * 256 + r.val, by omega⟩ e')
        (fun r d' => x ⟨(c.val * 64 + k.val) * 256 + r.val, by omega⟩ d') e d)
      * Ideal.div one ((∑ c : Fin 2, ∑ k : Fin 64,
          bDeg (fun r e' => H ⟨(c.val * 64 + k.val) * 256 + r.val, by omega⟩ e') e) + epsDeg)
    = m3 x H e d :=
  m3_of_blocks_rowOf x H e d

end Cert.Spec

end
-- ==== Proof.KiValue1.lean ====
/-
  What the idealized kernel program leaves in its result array, index by index: the specification's function of the
  argument arrays.

  The second kernel writes, at point t, rows 256 t … 256 t + 255 of the result: each row is the kernel's row function of
  that row of the incidence matrix, the hyperedge features the host combined from the first kernel's two arrays, the
  weights and the three row vectors. Unfolding the buffers' contents back through the program — the host's combination,
  the first kernel's accumulated slabs, the reshaped vectors — every input of the row function is read off the launch
  memory, and the blockwise hyperedge features are the specification's by regrouping the sum over all rows into sweeps,
  blocks and rows.
-/
import proofs.«146282_j40922448396916_2_alg».proof.Proof.KiValue0
import proofs.«146282_j40922448396916_2_alg».proof.Proof.KiPay1
import proofs.«146282_j40922448396916_2_alg».proof.Proof.KiHost
import proofs.«146282_j40922448396916_2_alg».proof.Proof.SpecRowLaws
import proofs.«146282_j40922448396916_2_alg».proof.Proof.SpecBlocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The second kernel's stored block at an index: the row function of the block's row. -/
theorem rowsOut_apply (x0 : Vec Ideal S256x8192 .f32) (x1 : Vec Ideal S8192x128 .f32) (x2 : Vec Ideal S128x128 .f32)
    (x3 x4 x5 : Vec Ideal S1x128 .f32) (r : Fin 256) (o : Fin 128) :
    rowsOut x0 x1 x2 x3 x4 x5 (ix2 r o)
      = Cert.Spec.rowK (fun e => x0 (ix2 r e)) (fun e d => x1 (ix2 e d)) (fun o' d => x2 (ix2 o' d))
          (fun o' => x3 (ix2 (0 : Fin 1) o')) (fun o' => x4 (ix2 (0 : Fin 1) o')) (fun o' => x5 (ix2 (0 : Fin 1) o')) o := by
  unfold rowsOut
  rw [View.canon_unit_zero hz2]
  simp only [View.ld_unit_zero (S := S256x8192) hz2, View.ld_unit_zero (S := S8192x128) hz2,
    View.ld_unit_zero (S := S128x128) hz2, View.ld_unit_zero (S := S1x128) hz2]
  exact rows_apply x0 x1 x2 x3 x4 x5 r o

section Region
variable (V : (c : Dev nD) → (b : Ref sig .tc) → Buf (Elt Ideal) ((c : Thread nD τ).loc b))

/-- The windows' block indices, decided over the grid: the incidence block and the output block move with the point,
    every other input is one whole block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `r` of point `t`'s block of the incidence matrix is row 256 t + r of the array. -/
theorem inH_apply (c : Dev nD) (t : Fin cfg1.N) (r : Fin 256) (e : Fin 8192) (n : Fin 32768) (hn : n.val = t.val * 256 + r.val) :
    (iblk1 V c 0 t : Vec Ideal S256x8192 .f32) (ix2 r e) = V c main_arg1 (ix2 n e) := by
  show V c main_arg1 (((cfg1.win 0).blk t).view.emb (ix2 r e)) = _
  refine congrArg _ (funext fun a => Fin.ext ?_)
  obtain ⟨e0, e1, -⟩ := idx1 t
  match a with
  | ⟨0, _⟩ => show win1_0.index t (0 : Fin 2) * 256 + 1 * r.val = n.val; omega
  | ⟨1, _⟩ => show win1_0.index t (1 : Fin 2) * 8192 + 1 * e.val = e.val; omega
/-- The hyperedge features' one block is the whole array. -/
theorem inM_apply (c : Dev nD) (t : Fin cfg1.N) (y : S8192x128.Idx) :
    (iblk1 V c 1 t : Vec Ideal S8192x128 .f32) y = V c main_v13 y := by
  show V c main_v13 (((cfg1.win 1).blk t).view.emb y) = _
  refine congrArg _ (funext fun a => Fin.ext ?_)
  obtain ⟨-, -, e2, e3, -⟩ := idx1 t
  match a with
  | ⟨0, _⟩ => show win1_1.index t (0 : Fin 2) * 8192 + 1 * (y 0).val = (y 0).val; omega
  | ⟨1, _⟩ => show win1_1.index t (1 : Fin 2) * 128 + 1 * (y 1).val = (y 1).val; omega
/-- The weights' one block is the whole array. -/
theorem inW_apply (c : Dev nD) (t : Fin cfg1.N) (y : S128x128.Idx) :
    (iblk1 V c 2 t : Vec Ideal S128x128 .f32) y = V c main_arg2 y := by
  show V c main_arg2 (((cfg1.win 2).blk t).view.emb y) = _
  refine congrArg _ (funext fun a => Fin.ext ?_)
  obtain ⟨-, -, -, -, e4, e5, -⟩ := idx1 t
  match a with
  | ⟨0, _⟩ => show win1_2.index t (0 : Fin 2) * 128 + 1 * (y 0).val = (y 0).val; omega
  | ⟨1, _⟩ => show win1_2.index t (1 : Fin 2) * 128 + 1 * (y 1).val = (y 1).val; omega
/-- The bias row's one block is the whole array. -/
theorem inB_apply (c : Dev nD) (t : Fin cfg1.N) (y : S1x128.Idx) :
    (iblk1 V c 3 t : Vec Ideal S1x128 .f32) y = V c main_v0 y := by
  show V c main_v0 (((cfg1.win 3).blk t).view.emb y) = _
  refine congrArg _ (funext fun a => Fin.ext ?_)
  obtain ⟨-, -, -, -, -, -, e6, e7, -⟩ := idx1 t
  match a with
  | ⟨0, _⟩ => show win1_3.index t (0 : Fin 2) * 1 + 1 * (y 0).val = (y 0).val; omega
  | ⟨1, _⟩ => show win1_3.index t (1 : Fin 2) * 128 + 1 * (y 1).val = (y 1).val; omega
/-- The scale row's. -/
theorem inG_apply (c : Dev nD) (t : Fin cfg1.N) (y : S1x128.Idx) :
    (iblk1 V c 4 t : Vec Ideal S1x128 .f32) y = V c main_v1 y := by
  show V c main_v1 (((cfg1.win 4).blk t).view.emb y) = _
  refine congrArg _ (funext fun a => Fin.ext ?_)
  obtain ⟨-, -, -, -, -, -, -, -, e8, e9, -⟩ := idx1 t
  match a with
  | ⟨0, _⟩ => show win1_4.index t (0 : Fin 2) * 1 + 1 * (y 0).val = (y 0).val; omega
  | ⟨1, _⟩ => show win1_4.index t (1 : Fin 2) * 128 + 1 * (y 1).val = (y 1).val; omega
/-- The shift row's. -/
theorem inS_apply (c : Dev nD) (t : Fin cfg1.N) (y : S1x128.Idx) :
    (iblk1 V c 5 t : Vec Ideal S1x128 .f32) y = V c main_v2 y := by
  show V c main_v2 (((cfg1.win 5).blk t).view.emb y) = _
  refine congrArg _ (funext fun a => Fin.ext ?_)
  obtain ⟨-, -, -, -, -, -, -, -, -, -, e10, e11, -⟩ := idx1 t
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The result array after the region: row `n` is the row function of row `n` of the incidence matrix and the five
    whole inputs as the region finds them. -/
def resArr (c : Dev nD) : S32768x128.Idx → EReal := fun i =>
  Cert.Spec.rowK (fun e => V c main_arg1 (ix2 (i 0) e)) (fun e d => V c main_v13 (ix2 e d)) (fun o' d => V c main_arg2 (ix2 o' d))
    (fun o' => V c main_v0 (ix2 (0 : Fin 1) o')) (fun o' => V c main_v1 (ix2 (0 : Fin 1) o')) (fun o' => V c main_v2 (ix2 (0 : Fin 1) o')) (i 1)

theorem mem_blkO (t : Fin cfg1.N) (i : S32768x128.Idx) :
    i ∈ ((cfg1.win 6).blk t).view.set ↔ ∀ a : Fin 2, win1_6.index t a * S256x128.size a ≤ (i a).val
      ∧ (i a).val < win1_6.index t a * S256x128.size a + S256x128.size a := by
  show i ∈ ((View.whole main_v14).slice (win1_6.rect t)).set ↔ _
  rw [View.set_slice_whole, Rect.mem_set_unit]
  exact Iff.rfl

/-- What point `t` writes back is its block of `resArr`. -/
theorem flushedO_eq (c : Dev nD) (t : Fin cfg1.N) :
    (dat1 V c).flushed 6 t = ((cfg1.win 6).blk t).view.read (Elt Ideal) (resArr V c) := by
  have hN : t.val < 128 := lt_of_lt_of_eq t.isLt (show cfg1.N = 128 from N_1)
  show (cfg1.win 6).cut (grid1.coords t) ((dat1 V c).after 6 t) = _
  rw [after1_6]
  funext j
  obtain ⟨r, o, rfl⟩ : ∃ (r : Fin 256) (o : Fin 128), j = ix2 r o := ⟨j 0, j 1, eq_ix2 j⟩
  show rowsOut (iblk1 V c 0 t) (iblk1 V c 1 t) (iblk1 V c 2 t) (iblk1 V c 3 t) (iblk1 V c 4 t) (iblk1 V c 5 t) (ix2 r o)
    = resArr V c (((cfg1.win 6).blk t).view.emb (ix2 r o))
  obtain ⟨-, -, -, -, -, -, -, -, -, -, -, -, e12, e13⟩ := idx1 t
  have hr : r.val < 256 := r.isLt
  have hemb : ((cfg1.win 6).blk t).view.emb (ix2 r o) = ix2 (⟨t.val * 256 + r.val, by omega⟩ : Fin 32768) o := by
    funext a; apply Fin.ext
    match a with
    | ⟨0, _⟩ => show win1_6.index t (0 : Fin 2) * 256 + 1 * r.val = t.val * 256 + r.val; omega
    | ⟨1, _⟩ => show win1_6.index t (1 : Fin 2) * 128 + 1 * o.val = o.val; omega
  rw [hemb, rowsOut_apply]
  show _ = Cert.Spec.rowK (fun e => V c main_arg1 (ix2 (⟨t.val * 256 + r.val, by omega⟩ : Fin 32768) e)) (fun e d => V c main_v13 (ix2 e d))
    (fun o' d => V c main_arg2 (ix2 o' d)) (fun o' => V c main_v0 (ix2 (0 : Fin 1) o')) (fun o' => V c main_v1 (ix2 (0 : Fin 1) o'))
    (fun o' => V c main_v2 (ix2 (0 : Fin 1) o')) o
  have a0 : (fun e => (iblk1 V c 0 t : Vec Ideal S256x8192 .f32) (ix2 r e))
      = fun e => V c main_arg1 (ix2 (⟨t.val * 256 + r.val, by omega⟩ : Fin 32768) e) :=
    funext fun e => inH_apply V c t r e _ rfl
  have a1 : (fun e d => (iblk1 V c 1 t : Vec Ideal S8192x128 .f32) (ix2 e d)) = fun e d => V c main_v13 (ix2 e d) :=
    funext fun e => funext fun d => inM_apply V c t _
  have a2 : (fun o' d => (iblk1 V c 2 t : Vec Ideal S128x128 .f32) (ix2 o' d)) = fun o' d => V c main_arg2 (ix2 o' d) :=
    funext fun o' => funext fun d => inW_apply V c t _
  have a3 : (fun o' => (iblk1 V c 3 t : Vec Ideal S1x128 .f32) (ix2 (0 : Fin 1) o')) = fun o' => V c main_v0 (ix2 (0 : Fin 1) o') :=
    funext fun o' => inB_apply V c t _
  have a4 : (fun o' => (iblk1 V c 4 t : Vec Ideal S1x128 .f32) (ix2 (0 : Fin 1) o')) = fun o' => V c main_v1 (ix2 (0 : Fin 1) o') :=
    funext fun o' => inG_apply V c t _
  have a5 : (fun o' => (iblk1 V c 5 t : Vec Ideal S1x128 .f32) (ix2 (0 : Fin 1) o')) = fun o' => V c main_v2 (ix2 (0 : Fin 1) o') :=
    funext fun o' => inS_apply V c t _
  rw [a0, a1, a2, a3, a4, a5]

/-- Every row of the result is in the block its point writes back. -/
theorem tiledO (i : S32768x128.Idx) : ∃ t : Fin cfg1.N, (cfg1.win 6).flush t = true ∧ i ∈ ((cfg1.win 6).blk t).view.set := by
  have h0 : (i 0).val < 32768 := (i 0).isLt
  have h1 : (i 1).val < 128 := (i 1).isLt
  let t : Fin cfg1.N := ⟨(i 0).val / 256, by rw [show cfg1.N = 128 from N_1]; omega⟩
  have ht : t.val = (i 0).val / 256 := rfl
  refine ⟨t, flush1_6 t, ?_⟩
  obtain ⟨-, -, -, -, -, -, -, -, -, -, -, -, e12, e13⟩ := idx1 t
  rw [mem_blkO]
  intro a
  match a with
  | ⟨0, _⟩ => show win1_6.index t (0 : Fin 2) * 256 ≤ (i 0).val ∧ (i 0).val < win1_6.index t (0 : Fin 2) * 256 + 256; omega
  | ⟨1, _⟩ => show win1_6.index t (1 : Fin 2) * 128 ≤ (i 1).val ∧ (i 1).val < win1_6.index t (1 : Fin 2) * 128 + 128; omega

/-- The result array after the region. -/
theorem finalO (c : Dev nD) : (dat1 V c).arrAt 6 cfg1.N = resArr V c :=
  (dat1 V c).arrAt_eq_of_cover 6 (resArr V c) (fun t _ => flushedO_eq V c t) tiledO

end Region

/-! ## Back to the launch memory -/

section Run
variable (m : (ℓ : Loc nD τ sig) → Buf (Elt Ideal) ℓ) (ρ : Dev nD → PrngReg)

/-- The incidence matrix at the first region's entry is the launch's. -/
theorem Kin1_arg1 (c : Dev nD) : Kin1 m ρ c main_arg1 = m ((c : Thread nD τ).loc main_arg1) :=
  after_hostOps0_arg1 (K0 m ρ c)
/-- The node features at the first region's entry are the launch's. -/
theorem Kin1_arg0 (c : Dev nD) : Kin1 m ρ c main_arg0 = m ((c : Thread nD τ).loc main_arg0) :=
  after_hostOps0_arg0 (K0 m ρ c)

/-- The incidence matrix at the second region's entry is the launch's. -/
theorem Kin3_arg1 (c : Dev nD) : Kin3 m ρ c main_arg1 = m ((c : Thread nD τ).loc main_arg1) :=
  calc K3 m ρ c (Proc.devRef .tc main_arg1)
    _ = K2 m ρ c (Proc.devRef .tc main_arg1) := after_hostOps1_arg1 (K2 m ρ c)
    _ = K1 m ρ c (Proc.devRef .tc main_arg1) := (K2_arr m ρ c 0).trans (((dat0 (Kin1 m ρ) c).arrAt_in 0 rfl _).trans (A_eq0 (Kin1 m ρ) c 0))
    _ = m ((c : Thread nD τ).loc main_arg1) := Kin1_arg1 m ρ c
/-- The weights at the second region's entry are the launch's. -/
theorem Kin3_arg2 (c : Dev nD) : Kin3 m ρ c main_arg2 = m ((c : Thread nD τ).loc main_arg2) :=
  calc K3 m ρ c (Proc.devRef .tc main_arg2)
    _ = K2 m ρ c (Proc.devRef .tc main_arg2) := after_hostOps1_arg2 (K2 m ρ c)
    _ = K1 m ρ c (Proc.devRef .tc main_arg2) := K2_of_ne m ρ c main_arg2 (by decide)
    _ = m ((c : Thread nD τ).loc main_arg2) := after_hostOps0_arg2 (K0 m ρ c)
/-- The bias row at the second region's entry is the launch's bias, laid out as one row. -/
theorem Kin3_v0 (c : Dev nD) (o : Fin 128) : Kin3 m ρ c main_v0 (ix2 (0 : Fin 1) o) = m ((c : Thread nD τ).loc main_arg3) (ix1 o) :=
  calc K3 m ρ c (Proc.devRef .tc main_v0) (ix2 (0 : Fin 1) o)
    _ = K2 m ρ c (Proc.devRef .tc main_v0) (ix2 (0 : Fin 1) o) := congrFun (after_hostOps1_v0 (K2 m ρ c)) _
    _ = K1 m ρ c (Proc.devRef .tc main_v0) (ix2 (0 : Fin 1) o) := congrFun (K2_of_ne m ρ c main_v0 (by decide)) _
    _ = m ((c : Thread nD τ).loc main_arg3) (ix1 o) := after_hostOps0_v0 (K0 m ρ c) 0 o
theorem Kin3_v1 (c : Dev nD) (o : Fin 128) : Kin3 m ρ c main_v1 (ix2 (0 : Fin 1) o) = m ((c : Thread nD τ).loc main_arg4) (ix1 o) :=
  calc K3 m ρ c (Proc.devRef .tc main_v1) (ix2 (0 : Fin 1) o)
    _ = K2 m ρ c (Proc.devRef .tc main_v1) (ix2 (0 : Fin 1) o) := congrFun (after_hostOps1_v1 (K2 m ρ c)) _
    _ = K1 m ρ c (Proc.devRef .tc main_v1) (ix2 (0 : Fin 1) o) := congrFun (K2_of_ne m ρ c main_v1 (by decide)) _
    _ = m ((c : Thread nD τ).loc main_arg4) (ix1 o) := after_hostOps0_v1 (K0 m ρ c) 0 o
theorem Kin3_v2 (c : Dev nD) (o : Fin 128) : Kin3 m ρ c main_v2 (ix2 (0 : Fin 1) o) = m ((c : Thread nD τ).loc main_arg5) (ix1 o) :=
  calc K3 m ρ c (Proc.devRef .tc main_v2) (ix2 (0 : Fin 1) o)
    _ = K2 m ρ c (Proc.devRef .tc main_v2) (ix2 (0 : Fin 1) o) := congrFun (after_hostOps1_v2 (K2 m ρ c)) _
    _ = K1 m ρ c (Proc.devRef .tc main_v2) (ix2 (0 : Fin 1) o) := congrFun (K2_of_ne m ρ c main_v2 (by decide)) _
    _ = m ((c : Thread nD τ).loc main_arg5) (ix1 o) := after_hostOps0_v2 (K0 m ρ c) 0 o

/-- One block's gathered features, read off the launch memory. -/
theorem featOf_launch (c : Dev nD) (e : Fin 8192) (d : Fin 128) (s : Fin 2) (k : Fin 64) :
    featOf (Kin1 m ρ) c e d (s.val * 64 + k.val)
      = Cert.Spec.bFeat (fun r e' => m ((c : Thread nD τ).loc main_arg1) (ix2 (⟨(s.val * 64 + k.val) * 256 + r.val, by omega⟩ : Fin 32768) e'))
          (fun r d' => m ((c : Thread nD τ).loc main_arg0) (ix2 (⟨(s.val * 64 + k.val) * 256 + r.val, by omega⟩ : Fin 32768) d')) e d := by
  have hN : s.val * 64 + k.val < cfg0.N := by rw [show cfg0.N = 128 from N_0]; omega
  rw [featOf_pos (Kin1 m ρ) c e d ⟨s.val * 64 + k.val, hN⟩]
  have a0 : (fun (r : Fin 256) (e' : Fin 8192) => blkH (Kin1 m ρ) c ⟨s.val * 64 + k.val, hN⟩ (ix2 r e'))
      = fun r e' => m ((c : Thread nD τ).loc main_arg1) (ix2 (⟨(s.val * 64 + k.val) * 256 + r.val, by omega⟩ : Fin 32768) e') :=
    funext fun r => funext fun e' => by
      rw [blkH_apply (Kin1 m ρ) c ⟨s.val * 64 + k.val, hN⟩ r e' ⟨(s.val * 64 + k.val) * 256 + r.val, by omega⟩ rfl, Kin1_arg1]
  have a1 : (fun (r : Fin 256) (d' : Fin 128) => blkX (Kin1 m ρ) c ⟨s.val * 64 + k.val, hN⟩ (ix2 r d'))
      = fun r d' => m ((c : Thread nD τ).loc main_arg0) (ix2 (⟨(s.val * 64 + k.val) * 256 + r.val, by omega⟩ : Fin 32768) d') :=
    funext fun r => funext fun d' => by
      rw [blkX_apply (Kin1 m ρ) c ⟨s.val * 64 + k.val, hN⟩ r d' ⟨(s.val * 64 + k.val) * 256 + r.val, by omega⟩ rfl, Kin1_arg0]
  rw [a0, a1]

/-- One block's column sums, read off the launch memory. -/
theorem degOf_launch (c : Dev nD) (e : Fin 8192) (s : Fin 2) (k : Fin 64) :
    degOf (Kin1 m ρ) c e (s.val * 64 + k.val)
      = Cert.Spec.bDeg (fun r e' => m ((c : Thread nD τ).loc main_arg1) (ix2 (⟨(s.val * 64 + k.val) * 256 + r.val, by omega⟩ : Fin 32768) e')) e := by
  have hN : s.val * 64 + k.val < cfg0.N := by rw [show cfg0.N = 128 from N_0]; omega
  rw [degOf_pos (Kin1 m ρ) c e ⟨s.val * 64 + k.val, hN⟩]
  have a0 : (fun (r : Fin 256) (e' : Fin 8192) => blkH (Kin1 m ρ) c ⟨s.val * 64 + k.val, hN⟩ (ix2 r e'))
      = fun r e' => m ((c : Thread nD τ).loc main_arg1) (ix2 (⟨(s.val * 64 + k.val) * 256 + r.val, by omega⟩ : Fin 32768) e') :=
    funext fun r => funext fun e' => by
      rw [blkH_apply (Kin1 m ρ) c ⟨s.val * 64 + k.val, hN⟩ r e' ⟨(s.val * 64 + k.val) * 256 + r.val, by omega⟩ rfl, Kin1_arg1]
  rw [a0]

/-- The feature array at a slab, as the sum of its sweep's blocks. -/
theorem featArr_apply (V : (c : Dev nD) → (b : Ref sig .tc) → Buf (Elt Ideal) ((c : Thread nD τ).loc b)) (c : Dev nD)
    (s : Fin 2) (e : Fin 8192) (d : Fin 128) :
    featArr V c (ix3 s e d) = ∑ k : Fin 64, featOf V c e d (s.val * 64 + k.val) := rfl
/-- The degree array at a slab, as the sum of its sweep's blocks. -/
theorem degArr_apply (V : (c : Dev nD) → (b : Ref sig .tc) → Buf (Elt Ideal) ((c : Thread nD τ).loc b)) (c : Dev nD)
    (s : Fin 2) (z : Fin 1) (e : Fin 8192) :
    degArr V c (ix3 s z e) = ∑ k : Fin 64, degOf V c e (s.val * 64 + k.val) := rfl

/-- The first region leaves the feature array at its slabs' sums. -/
theorem K2_v3_0 (c : Dev nD) : K2 m ρ c (Proc.devRef .tc main_v3_0) = featArr (Kin1 m ρ) c :=
  (K2_arr m ρ c 2).trans (finalM (Kin1 m ρ) c)
/-- And the degree array. -/
theorem K2_v3_1 (c : Dev nD) : K2 m ρ c (Proc.devRef .tc main_v3_1) = degArr (Kin1 m ρ) c :=
  (K2_arr m ρ c 3).trans (finalD (Kin1 m ρ) c)

set_option maxHeartbeats 1000000 in
/-- The hyperedge features the second kernel is handed are the specification's. -/
theorem Kin3_v13 (c : Dev nD) (e : Fin 8192) (d : Fin 128) :
    Kin3 m ρ c main_v13 (ix2 e d)
      = Cert.Spec.m3 (fun n d' => m ((c : Thread nD τ).loc main_arg0) (ix2 n d')) (fun n e' => m ((c : Thread nD τ).loc main_arg1) (ix2 n e')) e d := by
  have h1 : K3 m ρ c (Proc.devRef .tc main_v13)
      = m3Host (K2 m ρ c (Proc.devRef .tc main_v3_0)) (K2 m ρ c (Proc.devRef .tc main_v3_1)) := after_hostOps1_v13 (K2 m ρ c)
  have h2 : K3 m ρ c (Proc.devRef .tc main_v13) (ix2 e d)
      = (∑ s : Fin 2, featArr (Kin1 m ρ) c (ix3 s e d))
        * Ideal.div Cert.Spec.one ((∑ s : Fin 2, degArr (Kin1 m ρ) c (ix3 s (0 : Fin 1) e)) + Cert.Spec.epsDeg) := by
    rw [h1, m3Host_apply, K2_v3_0, K2_v3_1]
  have hf : (∑ s : Fin 2, featArr (Kin1 m ρ) c (ix3 s e d))
      = ∑ s : Fin 2, ∑ k : Fin 64,
          Cert.Spec.bFeat (fun r e' => m ((c : Thread nD τ).loc main_arg1) (ix2 (⟨(s.val * 64 + k.val) * 256 + r.val, by omega⟩ : Fin 32768) e'))
            (fun r d' => m ((c : Thread nD τ).loc main_arg0) (ix2 (⟨(s.val * 64 + k.val) * 256 + r.val, by omega⟩ : Fin 32768) d')) e d :=
    Finset.sum_congr rfl fun s _ => (featArr_apply (Kin1 m ρ) c s e d).trans
      (Finset.sum_congr rfl fun k _ => featOf_launch m ρ c e d s k)
  have hd : (∑ s : Fin 2, degArr (Kin1 m ρ) c (ix3 s (0 : Fin 1) e))
      = ∑ s : Fin 2, ∑ k : Fin 64,
          Cert.Spec.bDeg (fun r e' => m ((c : Thread nD τ).loc main_arg1) (ix2 (⟨(s.val * 64 + k.val) * 256 + r.val, by omega⟩ : Fin 32768) e')) e :=
    Finset.sum_congr rfl fun s _ => (degArr_apply (Kin1 m ρ) c s 0 e).trans
      (Finset.sum_congr rfl fun k _ => degOf_launch m ρ c e s k)
  refine h2.trans ?_
  rw [hf, hd]
  exact Cert.Spec.m3_of_blocks (fun n d' => m ((c : Thread nD τ).loc main_arg0) (ix2 n d'))
    (fun n e' => m ((c : Thread nD τ).loc main_arg1) (ix2 n e')) e d

set_option maxHeartbeats 1000000 in
/-- THE VALUE: the result array at the end of the run is the specification's function of the launch's arguments. -/
theorem value_v14 (c : Dev nD) :
    K4 m ρ c (Proc.devRef .tc main_v14)
      = Cert.Spec.outArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [show K4 m ρ c (Proc.devRef .tc main_v14) = _ from (K4_arr m ρ c 6).trans (finalO (Kin3 m ρ) c)]
  funext i
  obtain ⟨n, o, rfl⟩ : ∃ (n : Fin 32768) (o : Fin 128), i = ix2 n o := ⟨i 0, i 1, eq_ix2 i⟩
  show Cert.Spec.rowK (fun e => Kin3 m ρ c main_arg1 (ix2 n e)) (fun e d => Kin3 m ρ c main_v13 (ix2 e d))
      (fun o' d => Kin3 m ρ c main_arg2 (ix2 o' d)) (fun o' => Kin3 m ρ c main_v0 (ix2 (0 : Fin 1) o'))
      (fun o' => Kin3 m ρ c main_v1 (ix2 (0 : Fin 1) o')) (fun o' => Kin3 m ρ c main_v2 (ix2 (0 : Fin 1) o')) o
    = Cert.Spec.out (fun n d => m ((c : Thread nD τ).loc main_arg0) (ix2 n d)) (fun n e => m ((c : Thread nD τ).loc main_arg1) (ix2 n e))
      (fun o d => m ((c : Thread nD τ).loc main_arg2) (ix2 o d)) (fun o => m ((c : Thread nD τ).loc main_arg3) (ix1 o))
      (fun o => m ((c : Thread nD τ).loc main_arg4) (ix1 o)) (fun o => m ((c : Thread nD τ).loc main_arg5) (ix1 o)) n o
  have b0 : (fun e => Kin3 m ρ c main_arg1 (ix2 n e)) = fun e => m ((c : Thread nD τ).loc main_arg1) (ix2 n e) := by
    rw [Kin3_arg1]
  have b1 : (fun e d => Kin3 m ρ c main_v13 (ix2 e d))
      = Cert.Spec.m3 (fun n d' => m ((c : Thread nD τ).loc main_arg0) (ix2 n d')) (fun n e' => m ((c : Thread nD τ).loc main_arg1) (ix2 n e')) :=
    funext fun e => funext fun d => Kin3_v13 m ρ c e d
  have b2 : (fun o' d => Kin3 m ρ c main_arg2 (ix2 o' d)) = fun o' d => m ((c : Thread nD τ).loc main_arg2) (ix2 o' d) := by
    rw [Kin3_arg2]
  have b3 : (fun o' => Kin3 m ρ c main_v0 (ix2 (0 : Fin 1) o')) = fun o' => m ((c : Thread nD τ).loc main_arg3) (ix1 o') :=
    funext fun o' => Kin3_v0 m ρ c o'
  have b4 : (fun o' => Kin3 m ρ c main_v1 (ix2 (0 : Fin 1) o')) = fun o' => m ((c : Thread nD τ).loc main_arg4) (ix1 o') :=
    funext fun o' => Kin3_v1 m ρ c o'
  have b5 : (fun o' => Kin3 m ρ c main_v2 (ix2 (0 : Fin 1) o')) = fun o' => m ((c : Thread nD τ).loc main_arg5) (ix1 o') :=
    funext fun o' => Kin3_v2 m ρ c o'
  rw [b0, b1, b2, b3, b4, b5]
  exact (Cert.Spec.out_eq_rowK (fun n d => m ((c : Thread nD τ).loc main_arg0) (ix2 n d)) (fun n e => m ((c : Thread nD τ).loc main_arg1) (ix2 n e))
    (fun o d => m ((c : Thread nD τ).loc main_arg2) (ix2 o d)) (fun o => m ((c : Thread nD τ).loc main_arg3) (ix1 o))
    (fun o => m ((c : Thread nD τ).loc main_arg4) (ix1 o)) (fun o => m ((c : Thread nD τ).loc main_arg5) (ix1 o)) n o).symm

end Run

end Cert.KernelIdeal.Hand

end
-- ==== Proof.RefValue.lean ====
/-
  The reference program's result is the hypergraph-convolution layer of the specification.

  The reference computes, in this order: the node degrees and the hyperedge degrees of the incidence matrix H
  (two sums, each from the initial value 0), their guarded inverses s n = 1 / (√(dv n) + ε₁) and q e = 1 / (de e + ε₁),
  the gather Hᵀ · (s ⊙ x) (H transposed by an index swap, then a contraction over the nodes), its scaling by q,
  the scatter H · (…) (a contraction over the hyperedges), its scaling by s, the linear layer (W transposed by an
  index swap, a contraction over the input features, the bias broadcast along the nodes), ReLU (the maximum with a
  broadcast 0), and the layer norm over the 128 features: the mean, the centred activation, the variance, and
  γ · δ / √(var + ε₂) + β.  Every broadcast along an axis reads its operand at the index with that axis dropped, so
  each stage at an index (n, d) depends only on the coordinates n and d: each lemma below reads one group of stages
  at an index and identifies it with the specification's function at the index's coordinates.  The specification
  follows the same order of operations, so no algebraic law is used beyond 0 + a = a for each sum's initial value.
-/
import proofs.«146282_j40922448396916_2_alg».proof.Proof.Gen.ReferenceIdeal.Read
import proofs.«146282_j40922448396916_2_alg».proof.Proof.Spec

noncomputable section

namespace Cert.RefValue

open Cert.ReferenceIdeal Cert.ReferenceIdeal.Gen Cert.ReferenceIdeal.Read Idealize.ShloMosaic Idealize.ShloMosaic.StableHlo
open Idealize.ShloMosaic.ValueIdx (ix1 ix2 eq_ix1 eq_ix2)

variable (a0 : (⟨S32768x128, .f32⟩ : BufTy).Contents (Elt Ideal)) (a1 : (⟨S32768x8192, .f32⟩ : BufTy).Contents (Elt Ideal))
  (a2 : (⟨S128x128, .f32⟩ : BufTy).Contents (Elt Ideal)) (a3 a4 a5 : (⟨S128, .f32⟩ : BufTy).Contents (Elt Ideal))

/-- The node features by coordinates. -/
abbrev X : Fin 32768 → Fin 128 → EReal := fun n d => a0 (ix2 n d)
/-- The incidence matrix by coordinates. -/
abbrev Hm : Fin 32768 → Fin 8192 → EReal := fun n e => a1 (ix2 n e)
/-- The linear layer's matrix by coordinates. -/
abbrev Wm : Fin 128 → Fin 128 → EReal := fun o d => a2 (ix2 o d)
/-- A feature vector by its coordinate. -/
abbrev V1 (a : (⟨S128, .f32⟩ : BufTy).Contents (Elt Ideal)) : Fin 128 → EReal := fun o => a (ix1 o)

/-- The node degree: the sum of a row of H from the initial value 0. -/
theorem dv_eq (i : S32768.Idx) : val_main_v0 (F := Ideal) a1 i = Spec.dv (Hm a1) (i 0) := by
  rw [val_main_v0_apply, val_main_cst_apply, Ideal.ofBits_def, Ideal.ofBits_zero_f32, zero_add]
  unfold Spec.dv
  refine Finset.sum_congr rfl fun k _ => ?_
  exact congrArg a1 (funext fun a => by match a with | ⟨0, _⟩ => rfl | ⟨1, _⟩ => rfl)

/-- The hyperedge degree: the sum of a column of H from the initial value 0. -/
theorem de_eq (i : S8192.Idx) : val_main_v1 (F := Ideal) a1 i = Spec.de (Hm a1) (i 0) := by
  rw [val_main_v1_apply, val_main_cst_0_apply, Ideal.ofBits_def, Ideal.ofBits_zero_f32, zero_add]
  unfold Spec.de
  refine Finset.sum_congr rfl fun k _ => ?_
  exact congrArg a1 (funext fun a => by match a with | ⟨0, _⟩ => rfl | ⟨1, _⟩ => rfl)

/-- 1 / (√dv + ε₁), the literals 1 and ε₁ broadcast from scalars. -/
theorem sInv_eq (i : S32768.Idx) : val_main_v6 (F := Ideal) a1 i = Spec.sInv (Hm a1) (i 0) := by
  rw [val_main_v6_apply, val_main_v5_apply, val_main_cst_2_apply, val_main_v4_apply, val_main_v2_apply, val_main_v3_apply,
    val_main_cst_1_apply, dv_eq]
  rfl

/-- 1 / (de + ε₁). -/
theorem deInv_eq (i : S8192.Idx) : val_main_v10 (F := Ideal) a1 i = Spec.deInv (Hm a1) (i 0) := by
  rw [val_main_v10_apply, val_main_v9_apply, val_main_cst_4_apply, val_main_v8_apply, val_main_v7_apply,
    val_main_cst_3_apply, de_eq]
  rfl

/-- The gather: H is read transposed, and s is broadcast along the features. -/
theorem m2_eq (i : S8192x128.Idx) : val_main_v15 (F := Ideal) a0 a1 i = Spec.m2 (X a0) (Hm a1) (i 0) (i 1) := by
  rw [val_main_v15_apply]
  unfold Spec.m2
  refine Finset.sum_congr rfl fun k _ => ?_
  rw [val_main_v14_apply, val_main_v13_apply, val_main_v12_apply, val_main_v11_apply, sInv_eq]
  have e1 : idx_main_v14 (lidx_main_v15 i k) = ix2 k (i 0) :=
    funext fun a => by match a with | ⟨0, _⟩ => rfl | ⟨1, _⟩ => rfl
  have e2 : ridx_main_v15 i k = ix2 k (i 1) :=
    funext fun a => by match a with | ⟨0, _⟩ => rfl | ⟨1, _⟩ => rfl
  rw [e1, e2]
  rfl

/-- The hyperedge features scaled by the inverse hyperedge degree, broadcast along the features. -/
theorem m3_eq (i : S8192x128.Idx) : val_main_v18 (F := Ideal) a0 a1 i = Spec.m3 (X a0) (Hm a1) (i 0) (i 1) := by
  rw [val_main_v18_apply, val_main_v17_apply, val_main_v16_apply, deInv_eq, m2_eq]
  rfl

/-- The scatter: a contraction over the hyperedges. -/
theorem m4_eq (i : S32768x128.Idx) : val_main_v19 (F := Ideal) a0 a1 i = Spec.m4 (X a0) (Hm a1) (i 0) (i 1) := by
  rw [val_main_v19_apply]
  unfold Spec.m4
  refine Finset.sum_congr rfl fun k _ => ?_
  rw [m3_eq]
  have e1 : lidx_main_v19 i k = ix2 (i 0) k :=
    funext fun a => by match a with | ⟨0, _⟩ => rfl | ⟨1, _⟩ => rfl
  rw [e1]
  rfl

/-- The propagated node features. -/
theorem m5_eq (i : S32768x128.Idx) : val_main_v22 (F := Ideal) a0 a1 i = Spec.m5 (X a0) (Hm a1) (i 0) (i 1) := by
  rw [val_main_v22_apply, val_main_v21_apply, val_main_v20_apply, sInv_eq, m4_eq]
  rfl

/-- The linear layer: W is read transposed, the bias is broadcast along the nodes. -/
theorem lin_eq (i : S32768x128.Idx) :
    val_main_v27 (F := Ideal) a0 a1 a2 a3 i = Spec.lin (X a0) (Hm a1) (Wm a2) (V1 a3) (i 0) (i 1) := by
  rw [val_main_v27_apply, val_main_v24_apply, val_main_v26_apply, val_main_v25_apply]
  unfold Spec.lin
  have e3 : idx_main_v25 (idx_main_v26 i) = ix1 (i 1) :=
    funext fun a => by match a with | ⟨0, _⟩ => rfl
  rw [e3]
  refine congrArg (· + a3 (ix1 (i 1))) (Finset.sum_congr rfl fun k _ => ?_)
  rw [m5_eq, val_main_v23_apply]
  have e2 : idx_main_v23 (ridx_main_v24 i k) = ix2 (i 1) k :=
    funext fun a => by match a with | ⟨0, _⟩ => rfl | ⟨1, _⟩ => rfl
  rw [e2]
  rfl

/-- ReLU: the maximum with a broadcast 0. -/
theorem act_eq (i : S32768x128.Idx) :
    val_main_v28 (F := Ideal) a0 a1 a2 a3 i = Spec.act (X a0) (Hm a1) (Wm a2) (V1 a3) (i 0) (i 1) := by
  rw [val_main_v28_apply, val_main_call0_v0_apply, val_main_call0_cst_apply, Ideal.ofBits_def, Ideal.ofBits_zero_f32, lin_eq]
  rfl

/-- The mean over the features, kept as a column. -/
theorem mu_eq (j : S32768x1.Idx) :
    val_main_v32 (F := Ideal) a0 a1 a2 a3 j = Spec.mu (X a0) (Hm a1) (Wm a2) (V1 a3) (j 0) := by
  rw [val_main_v32_apply, val_main_v30_apply, val_main_v29_apply, val_main_cst_5_apply, Ideal.ofBits_def, Ideal.ofBits_zero_f32,
    zero_add, val_main_v31_apply, val_main_cst_6_apply, Ideal.ofBits_def, Ideal.hostDivf_def]
  unfold Spec.mu
  refine congrArg (fun t => Ideal.div t (Ideal.ofBits .f32 0x43000000#32)) (Finset.sum_congr rfl fun k _ => ?_)
  rw [act_eq]
  rfl

/-- The centred activation (as the variance reads it). -/
theorem diff_eq (i : S32768x128.Idx) :
    val_main_v34 (F := Ideal) a0 a1 a2 a3 i = Spec.diff (X a0) (Hm a1) (Wm a2) (V1 a3) (i 0) (i 1) := by
  rw [val_main_v34_apply, val_main_v33_apply, act_eq, mu_eq]
  rfl

/-- The centred activation (as the output reads it: the same mean broadcast a second time). -/
theorem diff_eq' (i : S32768x128.Idx) :
    val_main_v41 (F := Ideal) a0 a1 a2 a3 i = Spec.diff (X a0) (Hm a1) (Wm a2) (V1 a3) (i 0) (i 1) := by
  rw [val_main_v41_apply, val_main_v40_apply, act_eq, mu_eq]
  rfl

/-- The variance over the features, kept as a column. -/
theorem var_eq (j : S32768x1.Idx) :
    val_main_v39 (F := Ideal) a0 a1 a2 a3 j = Spec.var (X a0) (Hm a1) (Wm a2) (V1 a3) (j 0) := by
  rw [val_main_v39_apply, val_main_v37_apply, val_main_v36_apply, val_main_cst_7_apply, Ideal.ofBits_def, Ideal.ofBits_zero_f32,
    zero_add, val_main_v38_apply, val_main_cst_8_apply, Ideal.ofBits_def, Ideal.hostDivf_def]
  unfold Spec.var
  refine congrArg (fun t => Ideal.div t (Ideal.ofBits .f32 0x43000000#32)) (Finset.sum_congr rfl fun k _ => ?_)
  rw [val_main_v35_apply, diff_eq]
  rfl

/-- The reference's result, as one array of the six argument arrays, is the specification's layer. -/
theorem result_eq :
    val_main_v52 (F := Ideal) a0 a1 a2 a3 a4 a5 = Cert.Spec.outArr a0 a1 a2 a3 a4 a5 := by
  funext i
  rw [val_main_v52_apply, val_main_v49_apply, val_main_v44_apply, val_main_v43_apply, val_main_v42_apply, diff_eq',
    val_main_v48_apply, val_main_v47_apply, val_main_v46_apply, var_eq, val_main_v45_apply, val_main_cst_9_apply,
    val_main_v51_apply, val_main_v50_apply]
  have e4 : idx_main_v42 (idx_main_v43 i) = ix1 (i 1) :=
    funext fun a => by match a with | ⟨0, _⟩ => rfl
  have e5 : idx_main_v50 (idx_main_v51 i) = ix1 (i 1) :=
    funext fun a => by match a with | ⟨0, _⟩ => rfl
  rw [e4, e5]
  rfl

end Cert.RefValue

end
-- ==== Proof.lean ====
/-
  The certificate of a hypergraph-convolution layer: a two-kernel implementation against its array-library reference.

  The layer is  out = LayerNorm(ReLU((D_v^{-1/2} H D_e^{-1} Hᵀ D_v^{-1/2} x) Wᵀ + b)),  H the node–hyperedge incidence
  matrix. The first kernel sweeps the rows of H in blocks of 256, accumulating per core the blocks' contributions to
  Hᵀ(D_v^{-1/2} x) and to the hyperedge degrees; the host adds the two cores' totals and scales by the inverse hyperedge
  degree; the second kernel sweeps the rows again and finishes each block of rows. The reference does the same with
  whole-array operations.

  * The three frames: each program terminates, faults nowhere and leaves its arguments unchanged. For the two kernel
    programs this is the run of @main as host operations, region, host operations, region (Proof/KRun.lean, Proof/KiRun.lean,
    the same text at the two instances), each region's body run once per case of its branch (a sweep's first step resets
    the accumulators, a later step adds to them). The reference's frame is its generated run with the result dropped.
  * The idealization rewrote nothing, so it preserves the kernel trivially.
  * Over the extended reals both programs end at ONE function of the arguments (Proof/Spec.lean): the reference by reading
    its operations one at a time (Proof/RefValue.lean), the kernel program by reading what each region writes back
    (Proof/KiValue0.lean, Proof/KiValue1.lean). The two differ by the grouping of the sums over the 32768 rows (extended-real
    addition is associative and commutative, so no finiteness is needed), by commuted products, and by the reciprocal root
    in place of a quotient by the root — equal because the root's argument, a sum of squares over 128 plus a positive
    literal, is positive. The precondition is not used.
-/
import proofs.«146282_j40922448396916_2_alg».proof.Defs
import proofs.«146282_j40922448396916_2_alg».proof.Proof.Gen.Kernel
import proofs.«146282_j40922448396916_2_alg».proof.Proof.Gen.KernelIdeal
import proofs.«146282_j40922448396916_2_alg».proof.Proof.Gen.ReferenceIdeal
import proofs.«146282_j40922448396916_2_alg».proof.Proof.Gen.ReferenceIdeal.Run
import proofs.«146282_j40922448396916_2_alg».proof.Proof.Gen.ReferenceIdeal.Read
import proofs.«146282_j40922448396916_2_alg».proof.Proof.Gen.Pre_finite_inputs
import proofs.«146282_j40922448396916_2_alg».proof.Proof.KRun
import proofs.«146282_j40922448396916_2_alg».proof.Proof.KiValue1
import proofs.«146282_j40922448396916_2_alg».proof.Proof.RefValue
import Idealize.ShloMosaic.Adequacy
import Idealize.ShloMosaic.Init

noncomputable section

namespace Cert.Proof

open Idealize.ShloMosaic Idealize.ShloMosaic.TcCoe Idealize.SL.Sem

/-- The kernel program, as printed, runs to the end and leaves its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals the kernel program's result array and the reference's are the specification's function of
    arguments that agree. -/
theorem algebraic : Cert.algebraic_KernelIdeal_ReferenceIdeal := by
  intro m ρ m' ρ' _ hagree
  refine ⟨fun c => Cert.Spec.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v14 (by decide))).trans (Cert.KernelIdeal.Hand.value_v14 m ρ c),
      (h c _ (Cert.KernelIdeal.Hand.mem_uc Cert.KernelIdeal.main_arg0 (by decide))).trans (Cert.KernelIdeal.Hand.K4_main_arg0 m ρ c),
      (h c _ (Cert.KernelIdeal.Hand.mem_uc Cert.KernelIdeal.main_arg1 (by decide))).trans (Cert.KernelIdeal.Hand.K4_main_arg1 m ρ c),
      (h c _ (Cert.KernelIdeal.Hand.mem_uc Cert.KernelIdeal.main_arg2 (by decide))).trans (Cert.KernelIdeal.Hand.K4_main_arg2 m ρ c),
      (h c _ (Cert.KernelIdeal.Hand.mem_uc Cert.KernelIdeal.main_arg3 (by decide))).trans (Cert.KernelIdeal.Hand.K4_main_arg3 m ρ c),
      (h c _ (Cert.KernelIdeal.Hand.mem_uc Cert.KernelIdeal.main_arg4 (by decide))).trans (Cert.KernelIdeal.Hand.K4_main_arg4 m ρ c),
      (h c _ (Cert.KernelIdeal.Hand.mem_uc Cert.KernelIdeal.main_arg5 (by decide))).trans (Cert.KernelIdeal.Hand.K4_main_arg5 m ρ c)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v52_eq, Cert.RefValue.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
